-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S256x256 : Shape := ⟨2, ![256, 256]⟩
abbrev S256 : Shape := ⟨1, ![256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S256x256 .f32) (main_arg8 : FVec F S256 .f32) (main_arg9 : FVec F S256 .f32) (main_arg10 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256 .f32) (main_arg10 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8x2048x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256 .f32) (main_arg10 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_v13 main_v16
-- ==== Kernel.lean ====
abbrev S8x2048x256 : Shape := ⟨3, ![8, 2048, 256]⟩
abbrev S256x256 : Shape := ⟨2, ![256, 256]⟩
abbrev S256 : Shape := ⟨1, ![256]⟩
abbrev S1x2048x256 : Shape := ⟨3, ![1, 2048, 256]⟩
abbrev S1x512x256 : Shape := ⟨3, ![1, 512, 256]⟩
abbrev S2048x256 : Shape := ⟨2, ![2048, 256]⟩
abbrev S1x256 : Shape := ⟨2, ![1, 256]⟩
abbrev S512x256 : Shape := ⟨2, ![512, 256]⟩
abbrev S512x1 : Shape := ⟨2, ![512, 1]⟩
abbrev S256x512 : Shape := ⟨2, ![256, 512]⟩
abbrev S512x512 : Shape := ⟨2, ![512, 512]⟩
abbrev S512 : Shape := ⟨1, ![512]⟩

abbrev nBuf : Space → Nat
  | .hbm => 16
  | .vmem => 18
  | .smem => 0
  | _ => 0

abbrev bufTy : (tb : Table) → Fin (tcTables nBuf tb) → BufTy
  | .hbm, ⟨0, _⟩ => ⟨S8x2048x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S8x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S1x512x256, .f32⟩
  | .local _ .vmem, ⟨3, _⟩ => ⟨S1x512x256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S256x256, .f32⟩
  | .local _ .vmem, ⟨11, _⟩ => ⟨S256, .f32⟩
  | .local _ .vmem, ⟨12, _⟩ => ⟨S256, .f32⟩
  | .local _ .vmem, ⟨13, _⟩ => ⟨S256, .f32⟩
  | .local _ .vmem, ⟨14, _⟩ => ⟨S1x512x256, .f32⟩
  | .local _ .vmem, ⟨15, _⟩ => ⟨S1x512x256, .f32⟩
  | .local _ .vmem, ⟨16, _⟩ => ⟨S2048x256, .bf16⟩
  | .local _ .vmem, ⟨17, _⟩ => ⟨S2048x256, .bf16⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

class Facts₀ : Prop where
  transposes_S256x256_S256x256_1_0 : S256x256.Transposes [1, 0] S256x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  packedbf16_S2048x256_S2048x256_0_0 : (Rect.unit (s := S2048x256) ![0, 0] S2048x256.size inb_S2048x256_S2048x256_0_0).PackedRows (EltTy.packing .bf16)
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  broadcasts_S1x256_S512x256 : S1x256.Broadcasts S512x256
  inb_S2048x256_S512x256_0_0 : ∀ a, (![0, 0] : Fin 2 → Nat) a + S512x256.size a ≤ S2048x256.size a
  h_S512x256 : 0 < S512x256.numel
  transposes_S512x256_p1_0_S256x512 : S512x256.Transposes [1, 0] S256x512
  reduces_S512x512_S512 : S512x512.Reduces [1] S512
  shapeCasts_S512_S512x1 : S512.ShapeCasts S512x1
  broadcasts_S512x1_S512x512 : S512x1.Broadcasts S512x512
  broadcasts_S512x1_S512x256 : S512x1.Broadcasts S512x256
  inb_S2048x256_S512x256_512_0 : ∀ a, (![512, 0] : Fin 2 → Nat) a + S512x256.size a ≤ S2048x256.size a
  inb_S2048x256_S512x256_1024_0 : ∀ a, (![1024, 0] : Fin 2 → Nat) a + S512x256.size a ≤ S2048x256.size a
  inb_S2048x256_S512x256_1536_0 : ∀ a, (![1536, 0] : Fin 2 → Nat) a + S512x256.size a ≤ S2048x256.size a
  reduces_S512x256_S512 : S512x256.Reduces [1] S512
  shapeCasts_S512x256_S1x512x256 : S512x256.ShapeCasts S1x512x256
  dot_S2048x256_S256x256_S2048x256_1_0_0_1_n_n_wf : DotDims.WF S2048x256 S256x256 S2048x256 [1] [0] [0] [1] [] []
  dot_S512x256_S256x256_S512x256_1_0_0_1_n_n_wf : DotDims.WF S512x256 S256x256 S512x256 [1] [0] [0] [1] [] []
  dot_S512x256_S256x512_S512x512_1_0_0_1_n_n_wf : DotDims.WF S512x256 S256x512 S512x512 [1] [0] [0] [1] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S8x2048x256.size a
  hwx0_1 : ∀ i : grid0.Coords, EltTy.bits .f32 = 32 ∨ (Rect.block (s := S8x2048x256) S1x512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x512x256.size a ≤ S8x2048x256.size a
  hwx0_12 : ∀ i : grid0.Coords, EltTy.bits .f32 = 32 ∨ (Rect.block (s := S8x2048x256) S1x512x256.size (cc0_transform_12 i) (hinb0_12 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v4) S1x512x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S256x256 : Shape := ⟨2, ![256, 256]⟩
abbrev S256 : Shape := ⟨1, ![256]⟩
abbrev S1x1x256 : Shape := ⟨3, ![1, 1, 256]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 79
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S8x2048x256, .f32⟩
  | .hbm, ⟨12, _⟩ => ⟨S1x1x256, .f32⟩
  | .hbm, ⟨13, _⟩ => ⟨S8x2048x256, .f32⟩
  | .hbm, ⟨14, _⟩ => ⟨S8x2048x256, .f32⟩
  | .hbm, ⟨15, _⟩ => ⟨S8x2048x256, .f32⟩
  | .hbm, ⟨16, _⟩ => ⟨S1x1x256, .f32⟩
  | .hbm, ⟨17, _⟩ => ⟨S8x2048x256, .f32⟩
  | .hbm, ⟨18, _⟩ => ⟨S8x2048x256, .f32⟩
  | .hbm, ⟨19, _⟩ => ⟨S8x2048x256, .f32⟩
  | .hbm, ⟨20, _⟩ => ⟨S1x1x256, .f32⟩
  | .hbm, ⟨21, _⟩ => ⟨S8x2048x256, .f32⟩
  | .hbm, ⟨22, _⟩ => ⟨S8x2048x256, .f32⟩
  | .hbm, ⟨23, _⟩ => ⟨S8x2048x2048, .f32⟩
  | .hbm, ⟨24, _⟩ => ⟨S_, .f32⟩
  | .hbm, ⟨25, _⟩ => ⟨S8x2048, .f32⟩
  | .hbm, ⟨26, _⟩ => ⟨S_, .f32⟩
  | .hbm, ⟨27, _⟩ => ⟨S8x2048, .f32⟩
  | .hbm, ⟨28, _⟩ => ⟨S8x2048, .f32⟩
  | .hbm, ⟨29, _⟩ => ⟨S8x2048x1, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S8x2048x2048, .f32⟩
  | .hbm, ⟨37, _⟩ => ⟨S8x2048x2048, .f32⟩
  | .hbm, ⟨38, _⟩ => ⟨S8x2048x256, .f32⟩
  | .hbm, ⟨39, _⟩ => ⟨S8x2048x256, .f32⟩
  | .hbm, ⟨40, _⟩ => ⟨S1x1x256, .f32⟩
  | .hbm, ⟨41, _⟩ => ⟨S8x2048x256, .f32⟩
  | .hbm, ⟨42, _⟩ => ⟨S8x2048x256, .f32⟩
  | .hbm, ⟨43, _⟩ => ⟨S_, .f32⟩
  | .hbm, ⟨44, _⟩ => ⟨S8x2048, .f32⟩
  | .hbm, ⟨45, _⟩ => ⟨S8x2048x1, .f32⟩
  | .hbm, ⟨46, _⟩ => ⟨S_, .f32⟩
  | .hbm, ⟨47, _⟩ => ⟨S8x2048x1, .f32⟩
  | .hbm, ⟨48, _⟩ => ⟨S8x2048x1, .f32⟩
  | .hbm, ⟨49, _⟩ => ⟨S8x2048x256, .f32⟩
  | .hbm, ⟨50, _⟩ => ⟨S8x2048x256, .f32⟩
  | .hbm, ⟨51, _⟩ => ⟨S8x2048x256, .f32⟩
  | .hbm, ⟨52, _⟩ => ⟨S_, .f32⟩
  | .hbm, ⟨53, _⟩ => ⟨S8x2048, .f32⟩
  | .hbm, ⟨54, _⟩ => ⟨S8x2048x1, .f32⟩
  | .hbm, ⟨55, _⟩ => ⟨S_, .f32⟩
  | .hbm, ⟨56, _⟩ => ⟨S8x2048x1, .f32⟩
  | .hbm, ⟨57, _⟩ => ⟨S8x2048x1, .f32⟩
  | .hbm, ⟨58, _⟩ => ⟨S8x2048x256, .f32⟩
  | .hbm, ⟨59, _⟩ => ⟨S8x2048x256, .f32⟩
  | .hbm, ⟨60, _⟩ => ⟨S_, .f32⟩
  | .hbm, ⟨61, _⟩ => ⟨S8x2048x1, .f32⟩
  | .hbm, ⟨62, _⟩ => ⟨S8x2048x1, .f32⟩
  | .hbm, ⟨63, _⟩ => ⟨S8x2048x1, .f32⟩
  | .hbm, ⟨64, _⟩ => ⟨S8x2048x256, .f32⟩
  | .hbm, ⟨65, _⟩ => ⟨S8x2048x256, .f32⟩
  | .hbm, ⟨66, _⟩ => ⟨S1x1x256, .f32⟩
  | .hbm, ⟨67, _⟩ => ⟨S8x2048x256, .f32⟩
  | .hbm, ⟨68, _⟩ => ⟨S8x2048x256, .f32⟩
  | .hbm, ⟨69, _⟩ => ⟨S1x1x256, .f32⟩
  | .hbm, ⟨70, _⟩ => ⟨S8x2048x256, .f32⟩
  | .hbm, ⟨71, _⟩ => ⟨S8x2048x256, .f32⟩
  | .hbm, ⟨72, _⟩ => ⟨S_, .f32⟩
  | .hbm, ⟨73, _⟩ => ⟨S8x2048x256, .f32⟩
  | .hbm, ⟨74, _⟩ => ⟨S8x2048x256, .i1⟩
  | .hbm, ⟨75, _⟩ => ⟨S_, .f32⟩
  | .hbm, ⟨76, _⟩ => ⟨S8x2048x256, .f32⟩
  | .hbm, ⟨77, _⟩ => ⟨S8x2048x256, .f32⟩
  | .hbm, ⟨78, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  reducesTo_S8x2048x256_S8x2048_d2 : S8x2048x256.ReducesTo [2] S8x2048
  bcast_S_S8x2048x1 : S_.BroadcastsInDim S8x2048x1 (![] : Fin 0 → Fin S8x2048x1.rank)
  bcast_S8x2048x1_S8x2048x256_0_1_2 : S8x2048x1.BroadcastsInDim S8x2048x256 (![0, 1, 2] : Fin 3 → Fin S8x2048x256.rank)
  bcast_S_S8x2048x256 : S_.BroadcastsInDim S8x2048x256 (![] : Fin 0 → Fin S8x2048x256.rank)
  dot_S8x2048x256_S256x256_S8x2048x256_2_1_01_0_n_n_wf : DotDims.WF S8x2048x256 S256x256 S8x2048x256 [2] [1] [0, 1] [0] [] []
  dot_S8x2048x256_S8x2048x256_S8x2048x2048_2_2_1_1_0_0_wf : DotDims.WF S8x2048x256 S8x2048x256 S8x2048x2048 [2] [2] [1] [1] [0] [0]
  dot_S8x2048x2048_S8x2048x256_S8x2048x256_2_1_1_2_0_0_wf : DotDims.WF S8x2048x2048 S8x2048x256 S8x2048x256 [2] [1] [1] [2] [0] [0]

variable [Facts₀]

def dot_S8x2048x256_S256x256_S8x2048x256_2_1_01_0_n_n : DotDims S8x2048x256 S256x256 S8x2048x256 where
  lhsContracting := [2]
  rhsContracting := [1]
  lhsNonContracting := [0, 1]
  rhsNonContracting := [0]
  lhsBatch := []
  rhsBatch := []
  wf := dot_S8x2048x256_S256x256_S8x2048x256_2_1_01_0_n_n_wf
def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.BitsRuns.lean ====
/-
  The kernel body run once per control case, on any staging memrefs.
  The body branches on the query-tile coordinate: at tile 0 of a batch it first projects the batch's whole
  row block to keys and values and stores them in the two scratch buffers (case A); at the other tiles it reads
  the scratch as the earlier point of the same batch left it (case B). In both cases it then projects the
  query tile, walks the four key blocks with the running maximum, denominator and accumulator, divides,
  applies the output projection, normalises each row and stores the result tile.
-/
import proofs.«123646_j33698313404907_2_alg».proof.Proof.Gen.Kernel.Launch
import proofs.«123646_j33698313404907_2_alg».proof.Proof.Gen.Kernel.Skeleton
import proofs.«123646_j33698313404907_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch condition, from the grid coordinates: the query-tile coordinate is zero. -/
abbrev cond0_0 (i : grid0.Coords) : Prop := (Scalar.cmpi .ne (Scalar.extui (Scalar.cmpi .eq (BitVec.ofNat 32 (i 1).val) 0#32)) 0#32) = 1#1
/-- It holds exactly at the points that start a batch, every fourth point. -/
theorem hcond0_0 : ∀ t : Fin cfg0.N, cond0_0 (grid0.coords t) ↔ t.val % 4 = 0 :=
  (by decide +kernel : ∀ t : Fin grid0.N, cond0_0 (grid0.coords t) ↔ t.val % 4 = 0)

set_option maxHeartbeats 4000000 in
/-- Case A (first query tile of a batch): the scratch buffers, held at anything, end with the stored keys and
    values; the output tile's buffer ends with the stored result; the inputs are handed back as found. -/
noncomputable def kernelRun0_A (c : Dev nD) (i : grid0.Coords) (arg2 : Memref sig .tc .vmem S1x2048x256 .f32) (harg2 : arg2.IsWhole) (arg3 : Memref sig .tc .vmem S1x512x256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S256x256 .f32) (harg8 : arg8.IsWhole) (arg9 : Memref sig .tc .vmem S256 .f32) (harg9 : arg9.IsWhole) (arg10 : Memref sig .tc .vmem S256x256 .f32) (harg10 : arg10.IsWhole) (arg11 : Memref sig .tc .vmem S256 .f32) (harg11 : arg11.IsWhole) (arg12 : Memref sig .tc .vmem S256 .f32) (harg12 : arg12.IsWhole) (arg13 : Memref sig .tc .vmem S256 .f32) (harg13 : arg13.IsWhole) (arg14 : Memref sig .tc .vmem S1x512x256 .f32) (harg14 : arg14.IsWhole) (arg15 : Memref sig .tc .vmem S2048x256 .bf16) (harg15 : arg15.IsWhole) (arg16 : Memref sig .tc .vmem S2048x256 .bf16) (harg16 : arg16.IsWhole) (hc0 : cond0_0 i)
    (x2 : Vec F S1x2048x256 .f32) (x3 : Vec F S1x512x256 .f32) (x4 : Vec F S256x256 .f32) (x5 : Vec F S256 .f32) (x6 : Vec F S256x256 .f32) (x7 : Vec F S256 .f32) (x8 : Vec F S256x256 .f32) (x9 : Vec F S256 .f32) (x10 : Vec F S256x256 .f32) (x11 : Vec F S256 .f32) (x12 : Vec F S256 .f32) (x13 : Vec F S256 .f32) :
    Σ' (L12 : List (View.Piece (Elt F) S1x512x256 .f32)) (LS0 : List (View.Piece (Elt F) S2048x256 .bf16)), { LS1 : List (View.Piece (Elt F) S2048x256 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0__fused_kernel_eq_skeleton]; unfold cc0__fused_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]; · iexists _; iexact H15
    iexists _; iexact H16

set_option maxHeartbeats 4000000 in
/-- Case B (a later query tile of a batch): the scratch buffers hold what the batch's first point stored and are
    handed back unchanged; the output tile's buffer ends with the stored result. -/
noncomputable def kernelRun0_B (c : Dev nD) (i : grid0.Coords) (arg2 : Memref sig .tc .vmem S1x2048x256 .f32) (harg2 : arg2.IsWhole) (arg3 : Memref sig .tc .vmem S1x512x256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S256x256 .f32) (harg8 : arg8.IsWhole) (arg9 : Memref sig .tc .vmem S256 .f32) (harg9 : arg9.IsWhole) (arg10 : Memref sig .tc .vmem S256x256 .f32) (harg10 : arg10.IsWhole) (arg11 : Memref sig .tc .vmem S256 .f32) (harg11 : arg11.IsWhole) (arg12 : Memref sig .tc .vmem S256 .f32) (harg12 : arg12.IsWhole) (arg13 : Memref sig .tc .vmem S256 .f32) (harg13 : arg13.IsWhole) (arg14 : Memref sig .tc .vmem S1x512x256 .f32) (harg14 : arg14.IsWhole) (arg15 : Memref sig .tc .vmem S2048x256 .bf16) (harg15 : arg15.IsWhole) (arg16 : Memref sig .tc .vmem S2048x256 .bf16) (harg16 : arg16.IsWhole) (hc0 : ¬cond0_0 i)
    (x2 : Vec F S1x2048x256 .f32) (x3 : Vec F S1x512x256 .f32) (x4 : Vec F S256x256 .f32) (x5 : Vec F S256 .f32) (x6 : Vec F S256x256 .f32) (x7 : Vec F S256 .f32) (x8 : Vec F S256x256 .f32) (x9 : Vec F S256 .f32) (x10 : Vec F S256x256 .f32) (x11 : Vec F S256 .f32) (x12 : Vec F S256 .f32) (x13 : Vec F S256 .f32) (xs0 : Vec F S2048x256 .bf16) (xs1 : Vec F S2048x256 .bf16) :
    { L12 : List (View.Piece (Elt F) S1x512x256 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ owns (c : Thread nD τ) arg15 fullShare xs0 ∗ owns (c : Thread nD τ) arg16 fullShare xs1
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ f, arg14.view.loc (c : Thread nD τ) ↦[arg14.view.set]{fullShare} arg14.view.writes (Elt F) f L12) ∗ owns (c : Thread nD τ) arg15 fullShare xs0 ∗ owns (c : Thread nD τ) arg16 fullShare xs1) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0__fused_kernel_eq_skeleton]; unfold cc0__fused_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg15.eq_unread hf15; obtain rfl := harg16.eq_unread hf16
    sl_exec (disch := exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]
    · iexists _; isplitr; · ipureintro; exact harg15.read_unread _
      iexact H15
    iexists _; isplitr; · ipureintro; exact harg16.read_unread _
    iexact H16

end Cert.Kernel.Hand

end
-- ==== Proof.LibSharedFrame.lean ====
/-
  A kernel handed ONE array through several input windows (the same operand under two block
  specifications) has no distinct-arrays launch. This module states the frame run for such a kernel:
  the proof says how each shared array's full share is dealt among the windows reading it, and in return
  every array ends at what the write-backs computed and every bypassing buffer is unchanged.
-/
import Idealize.ShloMosaic.Lib.Pipeline.Frame

noncomputable section

namespace Idealize.ShloMosaic.Pipeline

open Idealize.SL Idealize.SL.RA Idealize.SL.BI
open scoped Idealize.SL.BI
open Idealize.SL.BI.BIBase Idealize.SL.BI.Laws Idealize.SL.ProofMode Idealize.SL.Sem
open Idealize.ShloMosaic.Rounds
open TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run with a tracking invariant for a pipeline whose input windows may SHARE arrays.
    The certificate supplies the layout facts without the arrays' distinctness, the body obligation, the
    program's shape up to the region, how the buffers behind the arrays (each whole, at the full share) make
    the proof data's arrays at entry (`hsplit`: a shared array's share split among its windows), and an
    invariant that the kernel's unstaged scoped buffers yield before the first point and give back after the
    last. Every array then ends at `arrAt w N` and every other unscoped buffer at its entry contents. -/
theorem θ_run_frame_track_shared
    (cfgs : P → Cfg sig Λ₀) (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) .rfl V hmain hsplit
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr; · iempintro
      iexact H)
    (hin := fun c => (show _ ⊢ (scopedRest (cfgs p).spec c : sProp 𝕄) from by iintro ⟨-, H⟩; iexact H).trans (hin c))
    (hout := fun c => (hout c).trans (by
      iintro H
      isplitr; · iempintro
      iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline

end
-- ==== Proof.BitsFrame.lean ====
/-
  The frame of the fused kernel: every weakly fair execution ends, nothing faults, and the eleven argument
  arrays end unchanged.
  @main transposes the four weight matrices and enters the one region. The input array is read through two
  windows (the batch's whole row block, and the query tile), so its full share is split between them at entry.
  The keys and values a batch's first point stores in the two scratch buffers are carried to its other three
  points by the region invariant, which names what each scratch holds after every point.
-/
import proofs.«123646_j33698313404907_2_alg».proof.Proof.BitsRuns
import proofs.«123646_j33698313404907_2_alg».proof.Proof.LibSharedFrame
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the four transposes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the four transposes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host transpose before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
/-- No host transpose before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
/-- No host transpose before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))
/-- No host transpose before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))
/-- No host transpose before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, Finset.mem_singleton]
    repeat' apply And.intro
    all_goals exact StableHlo.devRef_ne_of_ne (by decide)))
/-- No host transpose before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, Finset.mem_singleton]
    repeat' apply And.intro
    all_goals exact StableHlo.devRef_ne_of_ne (by decide)))
/-- No host transpose before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, Finset.mem_singleton]
    repeat' apply And.intro
    all_goals exact StableHlo.devRef_ne_of_ne (by decide)))
/-- No host transpose before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, Finset.mem_singleton]
    repeat' apply And.intro
    all_goals exact StableHlo.devRef_ne_of_ne (by decide)))
/-- No host transpose before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, Finset.mem_singleton]
    repeat' apply And.intro
    all_goals exact StableHlo.devRef_ne_of_ne (by decide)))
/-- No host transpose before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, Finset.mem_singleton]
    repeat' apply And.intro
    all_goals exact StableHlo.devRef_ne_of_ne (by decide)))
/-- No host transpose before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not: unfetched,
    the block index has not moved and the body left the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A staged input ends at its entry contents; an array no window stages (the four untransposed weights) is a
    bypassing buffer; each was left alone by the transposes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 3).trans (((dats 0 c).arrAt_in 3 rfl _).trans ((hA c 3).trans (V_main_arg2 m c))),
      ((h c).2 main_arg3 (Pipeline.mem_restRefs_of main_arg3 (by decide) (by decide))).trans (V_main_arg3 m c),
      ((h c).1 5).trans (((dats 0 c).arrAt_in 5 rfl _).trans ((hA c 5).trans (V_main_arg4 m c))),
      ((h c).2 main_arg5 (Pipeline.mem_restRefs_of main_arg5 (by decide) (by decide))).trans (V_main_arg5 m c),
      ((h c).1 7).trans (((dats 0 c).arrAt_in 7 rfl _).trans ((hA c 7).trans (V_main_arg6 m c))),
      ((h c).2 main_arg7 (Pipeline.mem_restRefs_of main_arg7 (by decide) (by decide))).trans (V_main_arg7 m c),
      ((h c).1 9).trans (((dats 0 c).arrAt_in 9 rfl _).trans ((hA c 9).trans (V_main_arg8 m c))),
      ((h c).1 10).trans (((dats 0 c).arrAt_in 10 rfl _).trans ((hA c 10).trans (V_main_arg9 m c))),
      ((h c).1 11).trans (((dats 0 c).arrAt_in 11 rfl _).trans ((hA c 11).trans (V_main_arg10 m c)))⟩) h

/-! ## The staging memrefs at a point, the scratch, and where the windows are live -/

abbrev ms0_0 (t : Fin cfg0.N) : Memref sig .tc .vmem S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512x256 .f32 := win0_12.stage (cfg0.slots t 12)
abbrev hs0_12 (t : Fin cfg0.N) : (ms0_12 t).IsWhole := hstage0_12 ((cfg0.slots t 12).cast nbuf0_12)
/-- The two scratch operands (keys, values): whole scoped buffers of the kernel's own. -/
abbrev scM0_0 : Memref sig .tc .vmem S2048x256 .bf16 := Memref.whole cc0_scratch0
abbrev scM0_1 : Memref sig .tc .vmem S2048x256 .bf16 := Memref.whole cc0_scratch1
abbrev VS0_0 : View sig .tc .vmem S2048x256 .bf16 := scM0_0.view
abbrev VS0_1 : View sig .tc .vmem S2048x256 .bf16 := scM0_1.view
/-- One staging buffer of the output window, through which its contents are stated. -/
abbrev VO0_12 : View sig .tc .vmem S1x512x256 .f32 := (Memref.whole cc0_stg12_0 : Memref sig .tc .vmem S1x512x256 .f32).view

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel
theorem liveAt0_12 : ∀ t : Fin cfg0.N, cfg0.idle 12 (grid0.coords t) = false := by decide +kernel

/-- The kernel's unstaged scoped buffers are the two scratch buffers, each owned at some contents. -/
theorem scoped0_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)) := by
  rw [scopedRest0_eq]; simp only [scM0_0, scM0_1, owns_whole]; try rfl

/-! ## The two cases at a point -/

/-- The body's run at a point that starts a batch, on the point's memrefs and input blocks. -/
abbrev runA (c : Dev nD) (t : Fin cfg0.N) (h0 : t.val % 4 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
/-- The body's run at a later point of a batch, the scratch at `xs0`, `xs1`. -/
abbrev runB (c : Dev nD) (t : Fin cfg0.N) (h0 : ¬t.val % 4 = 0) (xs0 xs1 : Vec F S2048x256 .bf16) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs0 xs1

/-- The stores of either case tile the buffer they write, so they cover it. -/
theorem cover0_A_12 (c : Dev nD) (t : Fin cfg0.N) (h0 : t.val % 4 = 0) (y : S1x512x256.Idx) : ∃ pc ∈ (runA m c t h0).1, y ∈ pc.1.set :=
  View.cover_of_tiledL (runA m c t h0).1 S1x512x256.size (by sl_kernel_rfl) y
theorem scover0_A_0 (c : Dev nD) (t : Fin cfg0.N) (h0 : t.val % 4 = 0) (y : S2048x256.Idx) : ∃ pc ∈ (runA m c t h0).2.1, y ∈ pc.1.set :=
  View.cover_of_tiledL (runA m c t h0).2.1 S2048x256.size (by sl_kernel_rfl) y
theorem scover0_A_1 (c : Dev nD) (t : Fin cfg0.N) (h0 : t.val % 4 = 0) (y : S2048x256.Idx) : ∃ pc ∈ (runA m c t h0).2.2.1, y ∈ pc.1.set :=
  View.cover_of_tiledL (runA m c t h0).2.2.1 S2048x256.size (by sl_kernel_rfl) y
theorem cover0_B_12 (c : Dev nD) (t : Fin cfg0.N) (h0 : ¬t.val % 4 = 0) (xs0 xs1 : Vec F S2048x256 .bf16) (y : S1x512x256.Idx) : ∃ pc ∈ (runB m c t h0 xs0 xs1).1, y ∈ pc.1.set :=
  View.cover_of_tiledL (runB m c t h0 xs0 xs1).1 S1x512x256.size (by sl_kernel_rfl) y

/-- What each case leaves in the output tile's buffer and in the scratch: its stores read back. -/
def out0_A_12 (c : Dev nD) (t : Fin cfg0.N) (h0 : t.val % 4 = 0) : Vec F S1x512x256 .f32 :=
  VO0_12.read (Elt F) (VO0_12.writes (Elt F) VO0_12.junk (runA m c t h0).1)
def sout0_A_0 (c : Dev nD) (t : Fin cfg0.N) (h0 : t.val % 4 = 0) : Vec F S2048x256 .bf16 :=
  VS0_0.read (Elt F) (VS0_0.writes (Elt F) VS0_0.junk (runA m c t h0).2.1)
def sout0_A_1 (c : Dev nD) (t : Fin cfg0.N) (h0 : t.val % 4 = 0) : Vec F S2048x256 .bf16 :=
  VS0_1.read (Elt F) (VS0_1.writes (Elt F) VS0_1.junk (runA m c t h0).2.2.1)
def out0_B_12 (c : Dev nD) (t : Fin cfg0.N) (h0 : ¬t.val % 4 = 0) (xs0 xs1 : Vec F S2048x256 .bf16) : Vec F S1x512x256 .f32 :=
  VO0_12.read (Elt F) (VO0_12.writes (Elt F) VO0_12.junk (runB m c t h0 xs0 xs1).1)

/-! ## What the output tile's buffer and the scratch hold after each point -/

/-- After point `n`: the result tile, the keys, the values. A point that starts a batch stores all three;
    a later point stores the result tile from the scratch the point before left, and leaves the scratch. -/
def outsAt0 (c : Dev nD) : (n : ℕ) → n < cfg0.N → Vec F S1x512x256 .f32 × Vec F S2048x256 .bf16 × Vec F S2048x256 .bf16
  | 0, hn => (out0_A_12 m c ⟨0, hn⟩ (Nat.zero_mod _), sout0_A_0 m c ⟨0, hn⟩ (Nat.zero_mod _), sout0_A_1 m c ⟨0, hn⟩ (Nat.zero_mod _))
  | n + 1, hn =>
    if h0 : (n + 1) % 4 = 0 then
      (out0_A_12 m c ⟨n + 1, hn⟩ h0, sout0_A_0 m c ⟨n + 1, hn⟩ h0, sout0_A_1 m c ⟨n + 1, hn⟩ h0)
    else
      (out0_B_12 m c ⟨n + 1, hn⟩ h0 (outsAt0 c n (Nat.lt_of_succ_lt hn)).2.1 (outsAt0 c n (Nat.lt_of_succ_lt hn)).2.2,
        (outsAt0 c n (Nat.lt_of_succ_lt hn)).2.1, (outsAt0 c n (Nat.lt_of_succ_lt hn)).2.2)

theorem outsAt0_A (c : Dev nD) (t : Fin cfg0.N) (h0 : t.val % 4 = 0) :
    outsAt0 m c t.val t.isLt = (out0_A_12 m c t h0, sout0_A_0 m c t h0, sout0_A_1 m c t h0) := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = (out0_B_12 m c t h0 (outsAt0 m c (t.val - 1) (Nat.lt_of_le_of_lt (Nat.sub_le _ _) t.isLt)).2.1 (outsAt0 m c (t.val - 1) (Nat.lt_of_le_of_lt (Nat.sub_le _ _) t.isLt)).2.2,
      (outsAt0 m c (t.val - 1) (Nat.lt_of_le_of_lt (Nat.sub_le _ _) t.isLt)).2.1, (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n`: before the first point the two scratch buffers at anything;
    afterwards each at what the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare ((outsAt0 m c n hn).2.1) ∗ owns (c : Thread nD τ) scM0_1 fullShare ((outsAt0 m c n hn).2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2)) := rfl
theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2)) := by
  cases n with
  | zero => exact absurd rfl hz
  | succ n => rfl

/-! ## The pipeline's proof data -/

/-- The arrays as the region finds them; after the body each input's buffer at its block and the output's at
    the point's result tile; the invariant above; nothing owed; the input array's full share split between the
    two windows that read it, every other input array held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 8000000 in
/-- The body at any point: every input memref holds its block; the closed form of the branch condition says
    which case the point is in; that case's run applies, handed the scratch at what the point before left (at
    anything at a batch's first point) and handing it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  by_cases h0 : t.val % 4 = 0
  · rw [outsAt0_A m c t h0]
    unfold out0_A_12 sout0_A_0 sout0_A_1; (try dsimp only)
    by_cases hz : t.val = 0
    · rw [PhiS_castSucc m c t, PhiS_zero m c _ _ hz, scoped0_eq]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runA m c t h0).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexact HS0
      isplitl [HS1]; · iexact HS1
      iintro ⟨H0, H1, H2, H3, H4, H5, H6, H7, H8, H9, H10, H11, ⟨%e12, H12⟩, ⟨%es0, HS0⟩, ⟨%es1, HS1⟩⟩
      isplitl [HS0 HS1]
      · isplitl [HS0]
        · unfold owns; iexists _; isplitr
          swap; · iexact HS0
          ipureintro; exact View.read_writes_of_cover _ _ _ _ _ (scover0_A_0 m c t h0)
        · unfold owns; iexists _; isplitr
          swap; · iexact HS1
          ipureintro; exact View.read_writes_of_cover _ _ _ _ _ (scover0_A_1 m c t h0)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; exact View.read_writes_of_cover _ _ _ _ _ (cover0_A_12 m c t h0)
    · rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runA m c t h0).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexists _; iexact HS0
      isplitl [HS1]; · iexists _; iexact HS1
      iintro ⟨H0, H1, H2, H3, H4, H5, H6, H7, H8, H9, H10, H11, ⟨%e12, H12⟩, ⟨%es0, HS0⟩, ⟨%es1, HS1⟩⟩
      isplitl [HS0 HS1]
      · isplitl [HS0]
        · unfold owns; iexists _; isplitr
          swap; · iexact HS0
          ipureintro; exact View.read_writes_of_cover _ _ _ _ _ (scover0_A_0 m c t h0)
        · unfold owns; iexists _; isplitr
          swap; · iexact HS1
          ipureintro; exact View.read_writes_of_cover _ _ _ _ _ (scover0_A_1 m c t h0)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; exact View.read_writes_of_cover _ _ _ _ _ (cover0_A_12 m c t h0)
  · rw [outsAt0_B m c t h0]
    unfold out0_B_12; (try dsimp only)
    have hz : t.val ≠ 0 := fun hz => h0 (by rw [hz])
    rw [PhiS_castSucc m c t, PhiS_pos m c _ _ hz]
    iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runB m c t h0 _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    isplitl [HS1]; · iexact HS1
    iintro ⟨H0, H1, H2, H3, H4, H5, H6, H7, H8, H9, H10, H11, ⟨%e12, H12⟩, HS0, HS1⟩
    isplitl [HS0 HS1]
    · isplitl [HS0]
      · iexact HS0
      · iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro; exact View.read_writes_of_cover _ _ _ _ _ (cover0_B_12 m c t h0 _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the scratch's named contents are forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), scoped0_eq]
  iintro ⟨HS0, HS1⟩
  isplitl [HS0]
  · iexists _; iexact HS0
  iexists _; iexact HS1

end Cert.Kernel.Hand

end
-- ==== Proof.BitsLaunch.lean ====
/-
  The launch of the fused kernel's one region and its frame.
  The buffers behind the windows' arrays, each whole at the full share, make the proof data's arrays at
  entry: the input array's share is halved, one half to the window that reads a batch's whole row block and
  one to the window that reads the query tile; every other array goes whole to its one window.
-/
import proofs.«123646_j33698313404907_2_alg».proof.Proof.BitsFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data's arrays at entry, each window's array as a whole buffer at the window's share. -/
theorem arrays_plain (c : Dev nD) :
    (dats m 0 c).arrays ((dats m 0 c).arrAt · 0)
      = bigSep Finset.univ fun w : Fin 13 => (((c : Thread nD τ).loc (Pipeline.arrRef spec0 w)) ↦{(dats m 0 c).share w} V m c (Pipeline.arrRef spec0 w) : sProp 𝕄) := by
  unfold Dat.arrays
  exact bigSep_congr fun w _ => by rw [(arr_whole0 w).set_eq_univ]; rfl

/-- The twelve distinct buffers behind the thirteen windows' arrays, one by one. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_v0) ↦{fullShare} V m c main_v0) ∗ (((c : Thread nD τ).loc main_arg2) ↦{fullShare} V m c main_arg2) ∗ (((c : Thread nD τ).loc main_v1) ↦{fullShare} V m c main_v1) ∗ (((c : Thread nD τ).loc main_arg4) ↦{fullShare} V m c main_arg4) ∗ (((c : Thread nD τ).loc main_v2) ↦{fullShare} V m c main_v2) ∗ (((c : Thread nD τ).loc main_arg6) ↦{fullShare} V m c main_arg6) ∗ (((c : Thread nD τ).loc main_v3) ↦{fullShare} V m c main_v3) ∗ (((c : Thread nD τ).loc main_arg8) ↦{fullShare} V m c main_arg8) ∗ (((c : Thread nD τ).loc main_arg9) ↦{fullShare} V m c main_arg9) ∗ (((c : Thread nD τ).loc main_arg10) ↦{fullShare} V m c main_arg10) ∗ (((c : Thread nD τ).loc main_v4) ↦{fullShare} V m c main_v4)) := by
  unfold Pipeline.arrBufs
  rw [show Finset.univ.image (Pipeline.arrRef spec0) = {main_arg0, main_v0, main_arg2, main_v1, main_arg4, main_v2, main_arg6, main_v3, main_arg8, main_arg9, main_arg10, main_v4} from by decide,
    bigSep_insert (by decide), bigSep_insert (by decide), bigSep_insert (by decide), bigSep_insert (by decide), bigSep_insert (by decide), bigSep_insert (by decide),
    bigSep_insert (by decide), bigSep_insert (by decide), bigSep_insert (by decide), bigSep_insert (by decide), bigSep_insert (by decide), bigSep_singleton]
  rfl

/-- The buffers behind the windows' arrays dealt to the windows: the input array's
    full share split in two halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_plain, bigSep_W0, arrBufs_eq]
  iintro ⟨H0, Hv0, H2, Hv1, H4, Hv2, H6, Hv3, H8, H9, H10, Hv4⟩
  ihave H0' := (pointsTo_share (PosShare.mem_left_op_right fullShare)).1 $$ H0
  icases H0' with ⟨H0a, H0b⟩
  isplitl [H0a]; · iexact H0a
  isplitl [H0b]; · iexact H0b
  isplitl [Hv0]; · iexact Hv0
  isplitl [H2]; · iexact H2
  isplitl [Hv1]; · iexact Hv1
  isplitl [H4]; · iexact H4
  isplitl [Hv2]; · iexact Hv2
  isplitl [H6]; · iexact H6
  isplitl [Hv3]; · iexact Hv3
  isplitl [H8]; · iexact H8
  isplitl [H9]; · iexact H9
  isplitl [H10]; · iexact H10
  iexact Hv4

set_option backward.isDefEq.respectTransparency.types false in
/-- From any memory with zero counters every weakly fair execution of @main ends, every array of the pipeline
    at what the write-backs computed and every other unscoped buffer as the region found it. -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0 defs₀ Variants.none m ρ main
    (hbody := fun c => (body_obligation m c).loose) (howed := fun _ _ => rfl)
    (V := V m) (hmain := hmain m Variants.none) (hsplit := hsplit m) (hin := hin m) (hout := hout m)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Hand

end
-- ==== Proof.IdealRuns.lean ====
/-
  The kernel body run once per control case, on any staging memrefs.
  The body branches on the query-tile coordinate: at tile 0 of a batch it first projects the batch's whole
  row block to keys and values and stores them in the two scratch buffers (case A); at the other tiles it reads
  the scratch as the earlier point of the same batch left it (case B). In both cases it then projects the
  query tile, walks the four key blocks with the running maximum, denominator and accumulator, divides,
  applies the output projection, normalises each row and stores the result tile.
-/
import proofs.«123646_j33698313404907_2_alg».proof.Proof.Gen.KernelIdeal.Launch
import proofs.«123646_j33698313404907_2_alg».proof.Proof.Gen.KernelIdeal.Skeleton
import proofs.«123646_j33698313404907_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch condition, from the grid coordinates: the query-tile coordinate is zero. -/
abbrev cond0_0 (i : grid0.Coords) : Prop := (Scalar.cmpi .ne (Scalar.extui (Scalar.cmpi .eq (BitVec.ofNat 32 (i 1).val) 0#32)) 0#32) = 1#1
/-- It holds exactly at the points that start a batch, every fourth point. -/
theorem hcond0_0 : ∀ t : Fin cfg0.N, cond0_0 (grid0.coords t) ↔ t.val % 4 = 0 :=
  (by decide +kernel : ∀ t : Fin grid0.N, cond0_0 (grid0.coords t) ↔ t.val % 4 = 0)

set_option maxHeartbeats 4000000 in
/-- Case A (first query tile of a batch): the scratch buffers, held at anything, end with the stored keys and
    values; the output tile's buffer ends with the stored result; the inputs are handed back as found. -/
noncomputable def kernelRun0_A (c : Dev nD) (i : grid0.Coords) (arg2 : Memref sig .tc .vmem S1x2048x256 .f32) (harg2 : arg2.IsWhole) (arg3 : Memref sig .tc .vmem S1x512x256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S256x256 .f32) (harg8 : arg8.IsWhole) (arg9 : Memref sig .tc .vmem S256 .f32) (harg9 : arg9.IsWhole) (arg10 : Memref sig .tc .vmem S256x256 .f32) (harg10 : arg10.IsWhole) (arg11 : Memref sig .tc .vmem S256 .f32) (harg11 : arg11.IsWhole) (arg12 : Memref sig .tc .vmem S256 .f32) (harg12 : arg12.IsWhole) (arg13 : Memref sig .tc .vmem S256 .f32) (harg13 : arg13.IsWhole) (arg14 : Memref sig .tc .vmem S1x512x256 .f32) (harg14 : arg14.IsWhole) (arg15 : Memref sig .tc .vmem S2048x256 .bf16) (harg15 : arg15.IsWhole) (arg16 : Memref sig .tc .vmem S2048x256 .bf16) (harg16 : arg16.IsWhole) (hc0 : cond0_0 i)
    (x2 : Vec F S1x2048x256 .f32) (x3 : Vec F S1x512x256 .f32) (x4 : Vec F S256x256 .f32) (x5 : Vec F S256 .f32) (x6 : Vec F S256x256 .f32) (x7 : Vec F S256 .f32) (x8 : Vec F S256x256 .f32) (x9 : Vec F S256 .f32) (x10 : Vec F S256x256 .f32) (x11 : Vec F S256 .f32) (x12 : Vec F S256 .f32) (x13 : Vec F S256 .f32) :
    Σ' (L12 : List (View.Piece (Elt F) S1x512x256 .f32)) (LS0 : List (View.Piece (Elt F) S2048x256 .bf16)), { LS1 : List (View.Piece (Elt F) S2048x256 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0__fused_kernel_eq_skeleton]; unfold cc0__fused_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]; · iexists _; iexact H15
    iexists _; iexact H16

set_option maxHeartbeats 4000000 in
/-- Case B (a later query tile of a batch): the scratch buffers hold what the batch's first point stored and are
    handed back unchanged; the output tile's buffer ends with the stored result. -/
noncomputable def kernelRun0_B (c : Dev nD) (i : grid0.Coords) (arg2 : Memref sig .tc .vmem S1x2048x256 .f32) (harg2 : arg2.IsWhole) (arg3 : Memref sig .tc .vmem S1x512x256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S256x256 .f32) (harg8 : arg8.IsWhole) (arg9 : Memref sig .tc .vmem S256 .f32) (harg9 : arg9.IsWhole) (arg10 : Memref sig .tc .vmem S256x256 .f32) (harg10 : arg10.IsWhole) (arg11 : Memref sig .tc .vmem S256 .f32) (harg11 : arg11.IsWhole) (arg12 : Memref sig .tc .vmem S256 .f32) (harg12 : arg12.IsWhole) (arg13 : Memref sig .tc .vmem S256 .f32) (harg13 : arg13.IsWhole) (arg14 : Memref sig .tc .vmem S1x512x256 .f32) (harg14 : arg14.IsWhole) (arg15 : Memref sig .tc .vmem S2048x256 .bf16) (harg15 : arg15.IsWhole) (arg16 : Memref sig .tc .vmem S2048x256 .bf16) (harg16 : arg16.IsWhole) (hc0 : ¬cond0_0 i)
    (x2 : Vec F S1x2048x256 .f32) (x3 : Vec F S1x512x256 .f32) (x4 : Vec F S256x256 .f32) (x5 : Vec F S256 .f32) (x6 : Vec F S256x256 .f32) (x7 : Vec F S256 .f32) (x8 : Vec F S256x256 .f32) (x9 : Vec F S256 .f32) (x10 : Vec F S256x256 .f32) (x11 : Vec F S256 .f32) (x12 : Vec F S256 .f32) (x13 : Vec F S256 .f32) (xs0 : Vec F S2048x256 .bf16) (xs1 : Vec F S2048x256 .bf16) :
    { L12 : List (View.Piece (Elt F) S1x512x256 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ owns (c : Thread nD τ) arg15 fullShare xs0 ∗ owns (c : Thread nD τ) arg16 fullShare xs1
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ f, arg14.view.loc (c : Thread nD τ) ↦[arg14.view.set]{fullShare} arg14.view.writes (Elt F) f L12) ∗ owns (c : Thread nD τ) arg15 fullShare xs0 ∗ owns (c : Thread nD τ) arg16 fullShare xs1) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0__fused_kernel_eq_skeleton]; unfold cc0__fused_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg15.eq_unread hf15; obtain rfl := harg16.eq_unread hf16
    sl_exec (disch := exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]
    · iexists _; isplitr; · ipureintro; exact harg15.read_unread _
      iexact H15
    iexists _; isplitr; · ipureintro; exact harg16.read_unread _
    iexact H16

end Cert.KernelIdeal.Hand

end
-- ==== Proof.IdealFrame.lean ====
/-
  The frame of the fused kernel: every weakly fair execution ends, nothing faults, and the eleven argument
  arrays end unchanged.
  @main transposes the four weight matrices and enters the one region. The input array is read through two
  windows (the batch's whole row block, and the query tile), so its full share is split between them at entry.
  The keys and values a batch's first point stores in the two scratch buffers are carried to its other three
  points by the region invariant, which names what each scratch holds after every point.
-/
import proofs.«123646_j33698313404907_2_alg».proof.Proof.IdealRuns
import proofs.«123646_j33698313404907_2_alg».proof.Proof.LibSharedFrame
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the four transposes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the four transposes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host transpose before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
/-- No host transpose before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
/-- No host transpose before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))
/-- No host transpose before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))
/-- No host transpose before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, Finset.mem_singleton]
    repeat' apply And.intro
    all_goals exact StableHlo.devRef_ne_of_ne (by decide)))
/-- No host transpose before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, Finset.mem_singleton]
    repeat' apply And.intro
    all_goals exact StableHlo.devRef_ne_of_ne (by decide)))
/-- No host transpose before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, Finset.mem_singleton]
    repeat' apply And.intro
    all_goals exact StableHlo.devRef_ne_of_ne (by decide)))
/-- No host transpose before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, Finset.mem_singleton]
    repeat' apply And.intro
    all_goals exact StableHlo.devRef_ne_of_ne (by decide)))
/-- No host transpose before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, Finset.mem_singleton]
    repeat' apply And.intro
    all_goals exact StableHlo.devRef_ne_of_ne (by decide)))
/-- No host transpose before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, Finset.mem_singleton]
    repeat' apply And.intro
    all_goals exact StableHlo.devRef_ne_of_ne (by decide)))
/-- No host transpose before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not: unfetched,
    the block index has not moved and the body left the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A staged input ends at its entry contents; an array no window stages (the four untransposed weights) is a
    bypassing buffer; each was left alone by the transposes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 3).trans (((dats 0 c).arrAt_in 3 rfl _).trans ((hA c 3).trans (V_main_arg2 m c))),
      ((h c).2 main_arg3 (Pipeline.mem_restRefs_of main_arg3 (by decide) (by decide))).trans (V_main_arg3 m c),
      ((h c).1 5).trans (((dats 0 c).arrAt_in 5 rfl _).trans ((hA c 5).trans (V_main_arg4 m c))),
      ((h c).2 main_arg5 (Pipeline.mem_restRefs_of main_arg5 (by decide) (by decide))).trans (V_main_arg5 m c),
      ((h c).1 7).trans (((dats 0 c).arrAt_in 7 rfl _).trans ((hA c 7).trans (V_main_arg6 m c))),
      ((h c).2 main_arg7 (Pipeline.mem_restRefs_of main_arg7 (by decide) (by decide))).trans (V_main_arg7 m c),
      ((h c).1 9).trans (((dats 0 c).arrAt_in 9 rfl _).trans ((hA c 9).trans (V_main_arg8 m c))),
      ((h c).1 10).trans (((dats 0 c).arrAt_in 10 rfl _).trans ((hA c 10).trans (V_main_arg9 m c))),
      ((h c).1 11).trans (((dats 0 c).arrAt_in 11 rfl _).trans ((hA c 11).trans (V_main_arg10 m c)))⟩) h

/-! ## The staging memrefs at a point, the scratch, and where the windows are live -/

abbrev ms0_0 (t : Fin cfg0.N) : Memref sig .tc .vmem S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512x256 .f32 := win0_12.stage (cfg0.slots t 12)
abbrev hs0_12 (t : Fin cfg0.N) : (ms0_12 t).IsWhole := hstage0_12 ((cfg0.slots t 12).cast nbuf0_12)
/-- The two scratch operands (keys, values): whole scoped buffers of the kernel's own. -/
abbrev scM0_0 : Memref sig .tc .vmem S2048x256 .bf16 := Memref.whole cc0_scratch0
abbrev scM0_1 : Memref sig .tc .vmem S2048x256 .bf16 := Memref.whole cc0_scratch1
abbrev VS0_0 : View sig .tc .vmem S2048x256 .bf16 := scM0_0.view
abbrev VS0_1 : View sig .tc .vmem S2048x256 .bf16 := scM0_1.view
/-- One staging buffer of the output window, through which its contents are stated. -/
abbrev VO0_12 : View sig .tc .vmem S1x512x256 .f32 := (Memref.whole cc0_stg12_0 : Memref sig .tc .vmem S1x512x256 .f32).view

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel
theorem liveAt0_12 : ∀ t : Fin cfg0.N, cfg0.idle 12 (grid0.coords t) = false := by decide +kernel

/-- The kernel's unstaged scoped buffers are the two scratch buffers, each owned at some contents. -/
theorem scoped0_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)) := by
  rw [scopedRest0_eq]; simp only [scM0_0, scM0_1, owns_whole]; try rfl

/-! ## The two cases at a point -/

/-- The body's run at a point that starts a batch, on the point's memrefs and input blocks. -/
abbrev runA (c : Dev nD) (t : Fin cfg0.N) (h0 : t.val % 4 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
/-- The body's run at a later point of a batch, the scratch at `xs0`, `xs1`. -/
abbrev runB (c : Dev nD) (t : Fin cfg0.N) (h0 : ¬t.val % 4 = 0) (xs0 xs1 : Vec F S2048x256 .bf16) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs0 xs1

/-- The stores of either case tile the buffer they write, so they cover it. -/
theorem cover0_A_12 (c : Dev nD) (t : Fin cfg0.N) (h0 : t.val % 4 = 0) (y : S1x512x256.Idx) : ∃ pc ∈ (runA m c t h0).1, y ∈ pc.1.set :=
  View.cover_of_tiledL (runA m c t h0).1 S1x512x256.size (by sl_kernel_rfl) y
theorem scover0_A_0 (c : Dev nD) (t : Fin cfg0.N) (h0 : t.val % 4 = 0) (y : S2048x256.Idx) : ∃ pc ∈ (runA m c t h0).2.1, y ∈ pc.1.set :=
  View.cover_of_tiledL (runA m c t h0).2.1 S2048x256.size (by sl_kernel_rfl) y
theorem scover0_A_1 (c : Dev nD) (t : Fin cfg0.N) (h0 : t.val % 4 = 0) (y : S2048x256.Idx) : ∃ pc ∈ (runA m c t h0).2.2.1, y ∈ pc.1.set :=
  View.cover_of_tiledL (runA m c t h0).2.2.1 S2048x256.size (by sl_kernel_rfl) y
theorem cover0_B_12 (c : Dev nD) (t : Fin cfg0.N) (h0 : ¬t.val % 4 = 0) (xs0 xs1 : Vec F S2048x256 .bf16) (y : S1x512x256.Idx) : ∃ pc ∈ (runB m c t h0 xs0 xs1).1, y ∈ pc.1.set :=
  View.cover_of_tiledL (runB m c t h0 xs0 xs1).1 S1x512x256.size (by sl_kernel_rfl) y

/-- What each case leaves in the output tile's buffer and in the scratch: its stores read back. -/
def out0_A_12 (c : Dev nD) (t : Fin cfg0.N) (h0 : t.val % 4 = 0) : Vec F S1x512x256 .f32 :=
  VO0_12.read (Elt F) (VO0_12.writes (Elt F) VO0_12.junk (runA m c t h0).1)
def sout0_A_0 (c : Dev nD) (t : Fin cfg0.N) (h0 : t.val % 4 = 0) : Vec F S2048x256 .bf16 :=
  VS0_0.read (Elt F) (VS0_0.writes (Elt F) VS0_0.junk (runA m c t h0).2.1)
def sout0_A_1 (c : Dev nD) (t : Fin cfg0.N) (h0 : t.val % 4 = 0) : Vec F S2048x256 .bf16 :=
  VS0_1.read (Elt F) (VS0_1.writes (Elt F) VS0_1.junk (runA m c t h0).2.2.1)
def out0_B_12 (c : Dev nD) (t : Fin cfg0.N) (h0 : ¬t.val % 4 = 0) (xs0 xs1 : Vec F S2048x256 .bf16) : Vec F S1x512x256 .f32 :=
  VO0_12.read (Elt F) (VO0_12.writes (Elt F) VO0_12.junk (runB m c t h0 xs0 xs1).1)

/-! ## What the output tile's buffer and the scratch hold after each point -/

/-- After point `n`: the result tile, the keys, the values. A point that starts a batch stores all three;
    a later point stores the result tile from the scratch the point before left, and leaves the scratch. -/
def outsAt0 (c : Dev nD) : (n : ℕ) → n < cfg0.N → Vec F S1x512x256 .f32 × Vec F S2048x256 .bf16 × Vec F S2048x256 .bf16
  | 0, hn => (out0_A_12 m c ⟨0, hn⟩ (Nat.zero_mod _), sout0_A_0 m c ⟨0, hn⟩ (Nat.zero_mod _), sout0_A_1 m c ⟨0, hn⟩ (Nat.zero_mod _))
  | n + 1, hn =>
    if h0 : (n + 1) % 4 = 0 then
      (out0_A_12 m c ⟨n + 1, hn⟩ h0, sout0_A_0 m c ⟨n + 1, hn⟩ h0, sout0_A_1 m c ⟨n + 1, hn⟩ h0)
    else
      (out0_B_12 m c ⟨n + 1, hn⟩ h0 (outsAt0 c n (Nat.lt_of_succ_lt hn)).2.1 (outsAt0 c n (Nat.lt_of_succ_lt hn)).2.2,
        (outsAt0 c n (Nat.lt_of_succ_lt hn)).2.1, (outsAt0 c n (Nat.lt_of_succ_lt hn)).2.2)

theorem outsAt0_A (c : Dev nD) (t : Fin cfg0.N) (h0 : t.val % 4 = 0) :
    outsAt0 m c t.val t.isLt = (out0_A_12 m c t h0, sout0_A_0 m c t h0, sout0_A_1 m c t h0) := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = (out0_B_12 m c t h0 (outsAt0 m c (t.val - 1) (Nat.lt_of_le_of_lt (Nat.sub_le _ _) t.isLt)).2.1 (outsAt0 m c (t.val - 1) (Nat.lt_of_le_of_lt (Nat.sub_le _ _) t.isLt)).2.2,
      (outsAt0 m c (t.val - 1) (Nat.lt_of_le_of_lt (Nat.sub_le _ _) t.isLt)).2.1, (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n`: before the first point the two scratch buffers at anything;
    afterwards each at what the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare ((outsAt0 m c n hn).2.1) ∗ owns (c : Thread nD τ) scM0_1 fullShare ((outsAt0 m c n hn).2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2)) := rfl
theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2)) := by
  cases n with
  | zero => exact absurd rfl hz
  | succ n => rfl

/-! ## The pipeline's proof data -/

/-- The arrays as the region finds them; after the body each input's buffer at its block and the output's at
    the point's result tile; the invariant above; nothing owed; the input array's full share split between the
    two windows that read it, every other input array held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 8000000 in
/-- The body at any point: every input memref holds its block; the closed form of the branch condition says
    which case the point is in; that case's run applies, handed the scratch at what the point before left (at
    anything at a batch's first point) and handing it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  by_cases h0 : t.val % 4 = 0
  · rw [outsAt0_A m c t h0]
    unfold out0_A_12 sout0_A_0 sout0_A_1; (try dsimp only)
    by_cases hz : t.val = 0
    · rw [PhiS_castSucc m c t, PhiS_zero m c _ _ hz, scoped0_eq]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runA m c t h0).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexact HS0
      isplitl [HS1]; · iexact HS1
      iintro ⟨H0, H1, H2, H3, H4, H5, H6, H7, H8, H9, H10, H11, ⟨%e12, H12⟩, ⟨%es0, HS0⟩, ⟨%es1, HS1⟩⟩
      isplitl [HS0 HS1]
      · isplitl [HS0]
        · unfold owns; iexists _; isplitr
          swap; · iexact HS0
          ipureintro; exact View.read_writes_of_cover _ _ _ _ _ (scover0_A_0 m c t h0)
        · unfold owns; iexists _; isplitr
          swap; · iexact HS1
          ipureintro; exact View.read_writes_of_cover _ _ _ _ _ (scover0_A_1 m c t h0)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; exact View.read_writes_of_cover _ _ _ _ _ (cover0_A_12 m c t h0)
    · rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runA m c t h0).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexists _; iexact HS0
      isplitl [HS1]; · iexists _; iexact HS1
      iintro ⟨H0, H1, H2, H3, H4, H5, H6, H7, H8, H9, H10, H11, ⟨%e12, H12⟩, ⟨%es0, HS0⟩, ⟨%es1, HS1⟩⟩
      isplitl [HS0 HS1]
      · isplitl [HS0]
        · unfold owns; iexists _; isplitr
          swap; · iexact HS0
          ipureintro; exact View.read_writes_of_cover _ _ _ _ _ (scover0_A_0 m c t h0)
        · unfold owns; iexists _; isplitr
          swap; · iexact HS1
          ipureintro; exact View.read_writes_of_cover _ _ _ _ _ (scover0_A_1 m c t h0)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; exact View.read_writes_of_cover _ _ _ _ _ (cover0_A_12 m c t h0)
  · rw [outsAt0_B m c t h0]
    unfold out0_B_12; (try dsimp only)
    have hz : t.val ≠ 0 := fun hz => h0 (by rw [hz])
    rw [PhiS_castSucc m c t, PhiS_pos m c _ _ hz]
    iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runB m c t h0 _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    isplitl [HS1]; · iexact HS1
    iintro ⟨H0, H1, H2, H3, H4, H5, H6, H7, H8, H9, H10, H11, ⟨%e12, H12⟩, HS0, HS1⟩
    isplitl [HS0 HS1]
    · isplitl [HS0]
      · iexact HS0
      · iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro; exact View.read_writes_of_cover _ _ _ _ _ (cover0_B_12 m c t h0 _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the scratch's named contents are forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), scoped0_eq]
  iintro ⟨HS0, HS1⟩
  isplitl [HS0]
  · iexists _; iexact HS0
  iexists _; iexact HS1

end Cert.KernelIdeal.Hand

end
-- ==== Proof.IdealTile.lean ====
/-
  What a point of the fused kernel stores, as pure functions of what it loads.
  The keys and the values of a batch are functions of the batch's row block and the key (value) weights; the
  result tile is ONE function of the query tile, the query weights, the keys and values it finds in the scratch
  (four blocks of 512 rows each), the output weights and the normalisation's scale and shift — the same function
  whether the scratch was stored at this point or carried from the batch's first point.
-/
import proofs.«123646_j33698313404907_2_alg».proof.Proof.IdealFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The result tile from the query tile `xq`, the transposed query weights and bias, the batch's keys `ks` and
    values `vs`, the transposed output weights and bias, and the normalisation's scale and shift. -/
def tile (xq : Vec F S1x512x256 .f32) (wq : Vec F S256x256 .f32) (bq : Vec F S256 .f32) (ks vs : Vec F S2048x256 .bf16)
    (wo : Vec F S256x256 .f32) (bo ga be : Vec F S256 .f32) : FVec F S1x512x256 .f32 :=
  have v14 : FVec F S512x256 .bf16 := k0_pay5 xq wq bq
  have v18 : Vec F S512x256 .bf16 := View.ld ks (Rect.unit (s := S2048x256) ![0, 0] S512x256.size inb_S2048x256_S512x256_0_0)
  have v19 : Vec F S512x256 .bf16 := View.ld vs (Rect.unit (s := S2048x256) ![0, 0] S512x256.size inb_S2048x256_S512x256_0_0)
  have v40 : Vec F S512x256 .bf16 := View.ld ks (Rect.unit (s := S2048x256) ![512, 0] S512x256.size inb_S2048x256_S512x256_512_0)
  have v41 : Vec F S512x256 .bf16 := View.ld vs (Rect.unit (s := S2048x256) ![512, 0] S512x256.size inb_S2048x256_S512x256_512_0)
  have v62 : Vec F S512x256 .bf16 := View.ld ks (Rect.unit (s := S2048x256) ![1024, 0] S512x256.size inb_S2048x256_S512x256_1024_0)
  have v63 : Vec F S512x256 .bf16 := View.ld vs (Rect.unit (s := S2048x256) ![1024, 0] S512x256.size inb_S2048x256_S512x256_1024_0)
  have v84 : Vec F S512x256 .bf16 := View.ld ks (Rect.unit (s := S2048x256) ![1536, 0] S512x256.size inb_S2048x256_S512x256_1536_0)
  have v85 : Vec F S512x256 .bf16 := View.ld vs (Rect.unit (s := S2048x256) ![1536, 0] S512x256.size inb_S2048x256_S512x256_1536_0)
  have v24 : FVec F S512x1 .f32 := k0_pay8 xq wq bq v18
  have v30 : FVec F S512x512 .bf16 := k0_pay11 xq wq bq v18
  have v35 : FVec F S512x1 .f32 := k0_pay12 xq wq bq v18
  have v37 : FVec F S512x256 .f32 := k0_pay13 xq wq bq v18
  have v68 : FVec F S512x1 .f32 := k0_pay19 v14 v24 v40 v62
  have v74 : FVec F S512x512 .bf16 := k0_pay22 v14 v24 v40 v62
  have v79 : FVec F S512x1 .f32 := k0_pay23 v14 v24 v35 v40 v62
  have v81 : FVec F S512x256 .f32 := k0_pay24 v14 v19 v24 v30 v37 v40 v41 v62
  k0_pay1 (k0_pay25 v14 v63 v68 v74 v79 v81 v84 v85 wo bo) (k0_pay26 v14 v63 v68 v74 v79 v81 v84 v85 wo bo)
    (k0_pay27 v14 v63 v68 v74 v79 v81 v84 v85 wo bo) ga be

/-- Reading back what was handed over whole. -/
theorem read_unread0 (h : (scM0_0 : Memref sig .tc .vmem S2048x256 .bf16).IsWhole) (X : Vec F S2048x256 .bf16) :
    View.read (Elt F) (View.whole cc0_scratch0) (h.unread X) = X := h.read_unread X
theorem read_unread1 (h : (scM0_1 : Memref sig .tc .vmem S2048x256 .bf16).IsWhole) (X : Vec F S2048x256 .bf16) :
    View.read (Elt F) (View.whole cc0_scratch1) (h.unread X) = X := h.read_unread X

/-- A block of rows read back from a buffer that ONE whole store filled is that block of the stored value. -/
theorem readCov_whole {sg : RefSig} {κ : Kind} {sp : Space} (v : View sg κ sp S2048x256 .bf16) (w : Vec F S2048x256 .bf16) (r : Rect S2048x256) :
    v.readCov [(⟨Rect.unit (s := S2048x256) ![0, 0] ![2048, 256] inb_S2048x256_S2048x256_0_0, w⟩ : View.Piece (Elt F) S2048x256 .bf16)] r.toLoadRect = View.ld w r := by
  rw [View.readCov_eq_canon_ld _ _ _ (fun y => ⟨_, List.mem_singleton_self _, View.mem_set_unit_zero hz2 inb_S2048x256_S2048x256_0_0 y⟩), View.canon_unit_zero hz2]

/-- A point that starts a batch leaves the batch's keys in the first scratch buffer, -/
theorem sout_A_0 (c : Dev nD) (t : Fin cfg0.N) (h0 : t.val % 4 = 0) :
    sout0_A_0 m c t h0 = k0_pay3 (iblk m c 0 t) (iblk m c 4 t) (iblk m c 5 t) := by
  unfold sout0_A_0
  rw [View.read_writes_eq_canon _ _ _ (scover0_A_0 m c t h0)]
  unfold runA kernelRun0_A
  dsimp only
  sl_unfold_words
  rw [View.canon_unit_zero hz2]
  simp only [View.readAt_eq_ld, Memref.IsWhole.read_unread, View.ld_unit_zero (S := S256) hz1, View.ld_unit_zero (S := S256x256) hz2, View.ld_unit_zero (S := S1x2048x256) hz3]

/-- and its values in the second. -/
theorem sout_A_1 (c : Dev nD) (t : Fin cfg0.N) (h0 : t.val % 4 = 0) :
    sout0_A_1 m c t h0 = k0_pay4 (iblk m c 0 t) (iblk m c 6 t) (iblk m c 7 t) := by
  unfold sout0_A_1
  rw [View.read_writes_eq_canon _ _ _ (scover0_A_1 m c t h0)]
  unfold runA kernelRun0_A
  dsimp only
  sl_unfold_words
  rw [View.canon_unit_zero hz2]
  simp only [View.readAt_eq_ld, Memref.IsWhole.read_unread, View.ld_unit_zero (S := S256) hz1, View.ld_unit_zero (S := S256x256) hz2, View.ld_unit_zero (S := S1x2048x256) hz3]

/-- Its result tile is the tile function at the keys and values it has just stored. -/
theorem out_A_12 (c : Dev nD) (t : Fin cfg0.N) (h0 : t.val % 4 = 0) :
    out0_A_12 m c t h0 = tile (iblk m c 1 t) (iblk m c 2 t) (iblk m c 3 t) (k0_pay3 (iblk m c 0 t) (iblk m c 4 t) (iblk m c 5 t)) (k0_pay4 (iblk m c 0 t) (iblk m c 6 t) (iblk m c 7 t)) (iblk m c 8 t) (iblk m c 9 t) (iblk m c 10 t) (iblk m c 11 t) := by
  unfold out0_A_12
  rw [View.read_writes_eq_canon _ _ _ (cover0_A_12 m c t h0)]
  unfold runA kernelRun0_A
  dsimp only
  sl_unfold_words
  rw [View.canon_unit_zero hz3]
  simp only [View.readAt_eq_ld, Memref.IsWhole.read_unread, View.ld_unit_zero (S := S256) hz1, View.ld_unit_zero (S := S256x256) hz2, View.ld_unit_zero (S := S1x512x256) hz3, View.ld_unit_zero (S := S1x2048x256) hz3, readCov_whole]
  unfold tile
  rfl

/-- A later point's result tile is the tile function at the keys and values it finds in the scratch. -/
theorem out_B_12 (c : Dev nD) (t : Fin cfg0.N) (h0 : ¬t.val % 4 = 0) (xs0 xs1 : Vec F S2048x256 .bf16) :
    out0_B_12 m c t h0 xs0 xs1 = tile (iblk m c 1 t) (iblk m c 2 t) (iblk m c 3 t) xs0 xs1 (iblk m c 8 t) (iblk m c 9 t) (iblk m c 10 t) (iblk m c 11 t) := by
  unfold out0_B_12
  rw [View.read_writes_eq_canon _ _ _ (cover0_B_12 m c t h0 xs0 xs1)]
  unfold runB kernelRun0_B
  dsimp only
  sl_unfold_words
  rw [View.canon_unit_zero hz3]
  simp only [View.readAt_eq_ld, Memref.IsWhole.read_unread, View.ld_unit_zero (S := S256) hz1, View.ld_unit_zero (S := S256x256) hz2, View.ld_unit_zero (S := S1x512x256) hz3, read_unread0, read_unread1]
  unfold tile
  rfl

end Cert.KernelIdeal.Hand

end
-- ==== Proof.IdealPoints.lean ====
/-
  Point by point: the scratch buffers hold the keys and the values of the current batch after every point, and
  every point's result tile is the tile function of that point's query tile and those keys and values.
  By induction on the point: a batch's first point stores the keys and values; a later point leaves them, and
  the batch's row block (and every weight) is the block the point before had.
-/
import proofs.«123646_j33698313404907_2_alg».proof.Proof.IdealTile

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

theorem fetched0_0 (c : Dev nD) (t : Fin cfg0.N) (d) : (dats m 0 c).fetched 0 t d = iblk m c 0 t := by
  unfold Dat.fetched Dat.blockOf iblk; rw [A_eq]; try rfl
/-- Window 0's block did not move since the point before, at a point that does not fetch it. -/
theorem iblk_prev_0 (c : Dev nD) (t : Fin cfg0.N) (hf : (cfg0.win 0).fetch t = false) :
    iblk m c 0 t = iblk m c 0 ⟨t.val - 1, Nat.lt_of_le_of_lt (Nat.sub_le _ _) t.isLt⟩ := by
  obtain ⟨-, hix⟩ := (cfg0.win 0).index_eq_of_fetch rfl t hf
  rw [← fetched0_0 m c t (fun _ => Classical.arbitrary _), ← fetched0_0 m c ⟨t.val - 1, Nat.lt_of_le_of_lt (Nat.sub_le _ _) t.isLt⟩ (fun _ => Classical.arbitrary _)]
  exact (dats m 0 c).fetched_congr 0 hix rfl _
theorem fetched0_4 (c : Dev nD) (t : Fin cfg0.N) (d) : (dats m 0 c).fetched 4 t d = iblk m c 4 t := by
  unfold Dat.fetched Dat.blockOf iblk; rw [A_eq]; try rfl
/-- Window 4's block did not move since the point before, at a point that does not fetch it. -/
theorem iblk_prev_4 (c : Dev nD) (t : Fin cfg0.N) (hf : (cfg0.win 4).fetch t = false) :
    iblk m c 4 t = iblk m c 4 ⟨t.val - 1, Nat.lt_of_le_of_lt (Nat.sub_le _ _) t.isLt⟩ := by
  obtain ⟨-, hix⟩ := (cfg0.win 4).index_eq_of_fetch rfl t hf
  rw [← fetched0_4 m c t (fun _ => Classical.arbitrary _), ← fetched0_4 m c ⟨t.val - 1, Nat.lt_of_le_of_lt (Nat.sub_le _ _) t.isLt⟩ (fun _ => Classical.arbitrary _)]
  exact (dats m 0 c).fetched_congr 4 hix rfl _
theorem fetched0_5 (c : Dev nD) (t : Fin cfg0.N) (d) : (dats m 0 c).fetched 5 t d = iblk m c 5 t := by
  unfold Dat.fetched Dat.blockOf iblk; rw [A_eq]; try rfl
/-- Window 5's block did not move since the point before, at a point that does not fetch it. -/
theorem iblk_prev_5 (c : Dev nD) (t : Fin cfg0.N) (hf : (cfg0.win 5).fetch t = false) :
    iblk m c 5 t = iblk m c 5 ⟨t.val - 1, Nat.lt_of_le_of_lt (Nat.sub_le _ _) t.isLt⟩ := by
  obtain ⟨-, hix⟩ := (cfg0.win 5).index_eq_of_fetch rfl t hf
  rw [← fetched0_5 m c t (fun _ => Classical.arbitrary _), ← fetched0_5 m c ⟨t.val - 1, Nat.lt_of_le_of_lt (Nat.sub_le _ _) t.isLt⟩ (fun _ => Classical.arbitrary _)]
  exact (dats m 0 c).fetched_congr 5 hix rfl _
theorem fetched0_6 (c : Dev nD) (t : Fin cfg0.N) (d) : (dats m 0 c).fetched 6 t d = iblk m c 6 t := by
  unfold Dat.fetched Dat.blockOf iblk; rw [A_eq]; try rfl
/-- Window 6's block did not move since the point before, at a point that does not fetch it. -/
theorem iblk_prev_6 (c : Dev nD) (t : Fin cfg0.N) (hf : (cfg0.win 6).fetch t = false) :
    iblk m c 6 t = iblk m c 6 ⟨t.val - 1, Nat.lt_of_le_of_lt (Nat.sub_le _ _) t.isLt⟩ := by
  obtain ⟨-, hix⟩ := (cfg0.win 6).index_eq_of_fetch rfl t hf
  rw [← fetched0_6 m c t (fun _ => Classical.arbitrary _), ← fetched0_6 m c ⟨t.val - 1, Nat.lt_of_le_of_lt (Nat.sub_le _ _) t.isLt⟩ (fun _ => Classical.arbitrary _)]
  exact (dats m 0 c).fetched_congr 6 hix rfl _
theorem fetched0_7 (c : Dev nD) (t : Fin cfg0.N) (d) : (dats m 0 c).fetched 7 t d = iblk m c 7 t := by
  unfold Dat.fetched Dat.blockOf iblk; rw [A_eq]; try rfl
/-- Window 7's block did not move since the point before, at a point that does not fetch it. -/
theorem iblk_prev_7 (c : Dev nD) (t : Fin cfg0.N) (hf : (cfg0.win 7).fetch t = false) :
    iblk m c 7 t = iblk m c 7 ⟨t.val - 1, Nat.lt_of_le_of_lt (Nat.sub_le _ _) t.isLt⟩ := by
  obtain ⟨-, hix⟩ := (cfg0.win 7).index_eq_of_fetch rfl t hf
  rw [← fetched0_7 m c t (fun _ => Classical.arbitrary _), ← fetched0_7 m c ⟨t.val - 1, Nat.lt_of_le_of_lt (Nat.sub_le _ _) t.isLt⟩ (fun _ => Classical.arbitrary _)]
  exact (dats m 0 c).fetched_congr 7 hix rfl _

theorem nofetch0_0 (t : Fin cfg0.N) (h0 : ¬t.val % 4 = 0) : (cfg0.win 0).fetch t = false :=
  Bool.eq_false_iff.mpr fun h => h0 ((fetch0_0 t).mp h)
theorem nofetch0_4 (t : Fin cfg0.N) (h0 : ¬t.val % 4 = 0) : (cfg0.win 4).fetch t = false :=
  Bool.eq_false_iff.mpr fun h => h0 (by have := (fetch0_4 t).mp h; omega)
theorem nofetch0_5 (t : Fin cfg0.N) (h0 : ¬t.val % 4 = 0) : (cfg0.win 5).fetch t = false :=
  Bool.eq_false_iff.mpr fun h => h0 (by have := (fetch0_5 t).mp h; omega)
theorem nofetch0_6 (t : Fin cfg0.N) (h0 : ¬t.val % 4 = 0) : (cfg0.win 6).fetch t = false :=
  Bool.eq_false_iff.mpr fun h => h0 (by have := (fetch0_6 t).mp h; omega)
theorem nofetch0_7 (t : Fin cfg0.N) (h0 : ¬t.val % 4 = 0) : (cfg0.win 7).fetch t = false :=
  Bool.eq_false_iff.mpr fun h => h0 (by have := (fetch0_7 t).mp h; omega)

/-- After every point the scratch buffers hold the keys and the values of the point's batch. -/
theorem scratch_eq (c : Dev nD) : ∀ (n : ℕ) (t : Fin cfg0.N), t.val = n →
    (outsAt0 m c t.val t.isLt).2.1 = k0_pay3 (iblk m c 0 t) (iblk m c 4 t) (iblk m c 5 t)
      ∧ (outsAt0 m c t.val t.isLt).2.2 = k0_pay4 (iblk m c 0 t) (iblk m c 6 t) (iblk m c 7 t) := by
  intro n
  induction n with
  | zero =>
    intro t ht
    have h0 : t.val % 4 = 0 := by rw [ht]
    rw [outsAt0_A m c t h0]; dsimp only
    exact ⟨sout_A_0 m c t h0, sout_A_1 m c t h0⟩
  | succ k ih =>
    intro t ht
    by_cases h0 : t.val % 4 = 0
    · rw [outsAt0_A m c t h0]; dsimp only
      exact ⟨sout_A_0 m c t h0, sout_A_1 m c t h0⟩
    · rw [outsAt0_B m c t h0]; dsimp only
      obtain ⟨ih1, ih2⟩ := ih ⟨t.val - 1, Nat.lt_of_le_of_lt (Nat.sub_le _ _) t.isLt⟩ (by show t.val - 1 = k; omega)
      refine ⟨ih1.trans ?_, ih2.trans ?_⟩
      · rw [iblk_prev_0 m c t (nofetch0_0 t h0), iblk_prev_4 m c t (nofetch0_4 t h0), iblk_prev_5 m c t (nofetch0_5 t h0)]
      · rw [iblk_prev_0 m c t (nofetch0_0 t h0), iblk_prev_6 m c t (nofetch0_6 t h0), iblk_prev_7 m c t (nofetch0_7 t h0)]

/-- Every point's result tile is the tile function of the point's query tile and its batch's keys and values. -/
theorem out_eq (c : Dev nD) (t : Fin cfg0.N) :
    (outsAt0 m c t.val t.isLt).1 = tile (iblk m c 1 t) (iblk m c 2 t) (iblk m c 3 t) (k0_pay3 (iblk m c 0 t) (iblk m c 4 t) (iblk m c 5 t)) (k0_pay4 (iblk m c 0 t) (iblk m c 6 t) (iblk m c 7 t)) (iblk m c 8 t) (iblk m c 9 t) (iblk m c 10 t) (iblk m c 11 t) := by
  by_cases h0 : t.val % 4 = 0
  · rw [outsAt0_A m c t h0]; dsimp only; exact out_A_12 m c t h0
  · rw [outsAt0_B m c t h0]; dsimp only
    obtain ⟨e1, e2⟩ := scratch_eq m c (t.val - 1) ⟨t.val - 1, Nat.lt_of_le_of_lt (Nat.sub_le _ _) t.isLt⟩ rfl
    dsimp only at e1 e2
    rw [out_B_12, e1, e2, ← iblk_prev_0 m c t (nofetch0_0 t h0), ← iblk_prev_4 m c t (nofetch0_4 t h0), ← iblk_prev_5 m c t (nofetch0_5 t h0),
      ← iblk_prev_6 m c t (nofetch0_6 t h0), ← iblk_prev_7 m c t (nofetch0_7 t h0)]

end Cert.KernelIdeal.Hand

end
-- ==== Proof.IdealBlocks.lean ====
/-
  The windows' blocks read at an index of the arrays the region finds.
  Point `t` of the 8 × 4 grid is batch `t / 4`, query tile `t % 4`. The first window's block is the batch's whole
  row block, the second's is rows `512 * (t % 4) … + 511` of it; every weight and bias window's block is its whole
  array; the four weight arrays are the transposes the host made of the arguments.
-/
import proofs.«123646_j33698313404907_2_alg».proof.Proof.IdealFrame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-- The windows' index maps, evaluated at each of the 32 grid points. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_12.index t (0 : Fin 3) = t.val / 4 ∧ win0_12.index t (1 : Fin 3) = t.val % 4 ∧ win0_12.index t (2 : Fin 3) = 0 :=
  (by decide +kernel : ∀ t : Fin grid0.N, _)

theorem idx_facts_w : ∀ t : Fin cfg0.N,
    win0_2.index t (0 : Fin 2) = 0 ∧ win0_2.index t (1 : Fin 2) = 0 ∧ win0_3.index t (0 : Fin 1) = 0
    ∧ win0_4.index t (0 : Fin 2) = 0 ∧ win0_4.index t (1 : Fin 2) = 0 ∧ win0_5.index t (0 : Fin 1) = 0
    ∧ win0_6.index t (0 : Fin 2) = 0 ∧ win0_6.index t (1 : Fin 2) = 0 ∧ win0_7.index t (0 : Fin 1) = 0
    ∧ win0_8.index t (0 : Fin 2) = 0 ∧ win0_8.index t (1 : Fin 2) = 0 ∧ win0_9.index t (0 : Fin 1) = 0
    ∧ win0_10.index t (0 : Fin 1) = 0 ∧ win0_11.index t (0 : Fin 1) = 0 :=
  (by decide +kernel : ∀ t : Fin grid0.N, _)

theorem pt_lt (t : Fin cfg0.N) : t.val < 32 := lt_of_lt_of_eq t.isLt N_0

/-- The batch of a point. -/
def batchOf (t : Fin cfg0.N) : Fin 8 := ⟨t.val / 4, by have := pt_lt t; omega⟩

/-- Row `r` of a point's query tile, as a row of the batch. -/
def rowOf (t : Fin cfg0.N) (r : Fin 512) : Fin 2048 := ⟨512 * (t.val % 4) + r.val, by have := r.isLt; omega⟩

/-- The first window's block is the batch's whole row block. -/
theorem iblk0_apply (c : Dev nD) (t : Fin cfg0.N) (n : Fin 2048) (d : Fin 256) :
    iblk m c 0 t (ix3 0 n d) = (V m c main_arg0 : S8x2048x256.Idx → EReal) (ix3 (batchOf t) n d) := by
  obtain ⟨e0, e1, e2, -⟩ := idx_facts t
  show (V m c main_arg0 : S8x2048x256.Idx → EReal) (((cfg0.win 0).blk t).view.emb (ix3 0 n d)) = _
  refine congrArg _ (funext fun a => Fin.ext ?_)
  match a with
  | ⟨0, _⟩ => show win0_0.index t (0 : Fin 3) * 1 + 1 * 0 = t.val / 4; omega
  | ⟨1, _⟩ => show win0_0.index t (1 : Fin 3) * 2048 + 1 * n.val = n.val; omega
  | ⟨2, _⟩ => show win0_0.index t (2 : Fin 3) * 256 + 1 * d.val = d.val; omega

/-- The second window's block is the point's query tile. -/
theorem iblk1_apply (c : Dev nD) (t : Fin cfg0.N) (r : Fin 512) (d : Fin 256) :
    iblk m c 1 t (ix3 0 r d) = (V m c main_arg0 : S8x2048x256.Idx → EReal) (ix3 (batchOf t) (rowOf t r) d) := by
  obtain ⟨-, -, -, e0, e1, e2, -⟩ := idx_facts t
  show (V m c main_arg0 : S8x2048x256.Idx → EReal) (((cfg0.win 1).blk t).view.emb (ix3 0 r d)) = _
  refine congrArg _ (funext fun a => Fin.ext ?_)
  match a with
  | ⟨0, _⟩ => show win0_1.index t (0 : Fin 3) * 1 + 1 * 0 = t.val / 4; omega
  | ⟨1, _⟩ => show win0_1.index t (1 : Fin 3) * 512 + 1 * r.val = 512 * (t.val % 4) + r.val; omega
  | ⟨2, _⟩ => show win0_1.index t (2 : Fin 3) * 256 + 1 * d.val = d.val; omega

/-- The array window 2 stages is the host's transpose of an argument. -/
theorem V_main_v0_apply (c : Dev nD) (d e : Fin 256) :
    (V m c main_v0 : S256x256.Idx → EReal) (ix2 d e) = (m ((c : Thread nD τ).loc main_arg1) : S256x256.Idx → EReal) (ix2 e d) := by
  have h : (V m c main_v0 : S256x256.Idx → EReal)
      = transpose S256x256 [1, 0] (m ((c : Thread nD τ).loc main_arg1) : S256x256.Idx → EReal) transposes_S256x256_S256x256_1_0 := by
    dsimp only [V, hostOps0]; after_results
  rw [h]; exact transpose_ix2_apply _ _ d e

/-- Window 2's block is its whole array: the transposed weights. -/
theorem iblk2_apply (c : Dev nD) (t : Fin cfg0.N) (d e : Fin 256) :
    iblk m c 2 t (ix2 d e) = (m ((c : Thread nD τ).loc main_arg1) : S256x256.Idx → EReal) (ix2 e d) := by
  have hw := idx_facts_w t
  refine Eq.trans ?_ (V_main_v0_apply m c d e)
  show (V m c main_v0 : S256x256.Idx → EReal) (((cfg0.win 2).blk t).view.emb (ix2 d e)) = _
  refine congrArg _ (funext fun a => Fin.ext ?_)
  match a with
  | ⟨0, _⟩ => show win0_2.index t (0 : Fin 2) * 256 + 1 * d.val = d.val; omega
  | ⟨1, _⟩ => show win0_2.index t (1 : Fin 2) * 256 + 1 * e.val = e.val; omega

/-- The array window 4 stages is the host's transpose of an argument. -/
theorem V_main_v1_apply (c : Dev nD) (d e : Fin 256) :
    (V m c main_v1 : S256x256.Idx → EReal) (ix2 d e) = (m ((c : Thread nD τ).loc main_arg3) : S256x256.Idx → EReal) (ix2 e d) := by
  have h : (V m c main_v1 : S256x256.Idx → EReal)
      = transpose S256x256 [1, 0] (m ((c : Thread nD τ).loc main_arg3) : S256x256.Idx → EReal) transposes_S256x256_S256x256_1_0 := by
    dsimp only [V, hostOps0]; after_results
  rw [h]; exact transpose_ix2_apply _ _ d e

/-- Window 4's block is its whole array: the transposed weights. -/
theorem iblk4_apply (c : Dev nD) (t : Fin cfg0.N) (d e : Fin 256) :
    iblk m c 4 t (ix2 d e) = (m ((c : Thread nD τ).loc main_arg3) : S256x256.Idx → EReal) (ix2 e d) := by
  have hw := idx_facts_w t
  refine Eq.trans ?_ (V_main_v1_apply m c d e)
  show (V m c main_v1 : S256x256.Idx → EReal) (((cfg0.win 4).blk t).view.emb (ix2 d e)) = _
  refine congrArg _ (funext fun a => Fin.ext ?_)
  match a with
  | ⟨0, _⟩ => show win0_4.index t (0 : Fin 2) * 256 + 1 * d.val = d.val; omega
  | ⟨1, _⟩ => show win0_4.index t (1 : Fin 2) * 256 + 1 * e.val = e.val; omega

/-- The array window 6 stages is the host's transpose of an argument. -/
theorem V_main_v2_apply (c : Dev nD) (d e : Fin 256) :
    (V m c main_v2 : S256x256.Idx → EReal) (ix2 d e) = (m ((c : Thread nD τ).loc main_arg5) : S256x256.Idx → EReal) (ix2 e d) := by
  have h : (V m c main_v2 : S256x256.Idx → EReal)
      = transpose S256x256 [1, 0] (m ((c : Thread nD τ).loc main_arg5) : S256x256.Idx → EReal) transposes_S256x256_S256x256_1_0 := by
    dsimp only [V, hostOps0]; after_results
  rw [h]; exact transpose_ix2_apply _ _ d e

/-- Window 6's block is its whole array: the transposed weights. -/
theorem iblk6_apply (c : Dev nD) (t : Fin cfg0.N) (d e : Fin 256) :
    iblk m c 6 t (ix2 d e) = (m ((c : Thread nD τ).loc main_arg5) : S256x256.Idx → EReal) (ix2 e d) := by
  have hw := idx_facts_w t
  refine Eq.trans ?_ (V_main_v2_apply m c d e)
  show (V m c main_v2 : S256x256.Idx → EReal) (((cfg0.win 6).blk t).view.emb (ix2 d e)) = _
  refine congrArg _ (funext fun a => Fin.ext ?_)
  match a with
  | ⟨0, _⟩ => show win0_6.index t (0 : Fin 2) * 256 + 1 * d.val = d.val; omega
  | ⟨1, _⟩ => show win0_6.index t (1 : Fin 2) * 256 + 1 * e.val = e.val; omega

/-- The array window 8 stages is the host's transpose of an argument. -/
theorem V_main_v3_apply (c : Dev nD) (d e : Fin 256) :
    (V m c main_v3 : S256x256.Idx → EReal) (ix2 d e) = (m ((c : Thread nD τ).loc main_arg7) : S256x256.Idx → EReal) (ix2 e d) := by
  have h : (V m c main_v3 : S256x256.Idx → EReal)
      = transpose S256x256 [1, 0] (m ((c : Thread nD τ).loc main_arg7) : S256x256.Idx → EReal) transposes_S256x256_S256x256_1_0 := by
    dsimp only [V, hostOps0]; after_results
  rw [h]; exact transpose_ix2_apply _ _ d e

/-- Window 8's block is its whole array: the transposed weights. -/
theorem iblk8_apply (c : Dev nD) (t : Fin cfg0.N) (d e : Fin 256) :
    iblk m c 8 t (ix2 d e) = (m ((c : Thread nD τ).loc main_arg7) : S256x256.Idx → EReal) (ix2 e d) := by
  have hw := idx_facts_w t
  refine Eq.trans ?_ (V_main_v3_apply m c d e)
  show (V m c main_v3 : S256x256.Idx → EReal) (((cfg0.win 8).blk t).view.emb (ix2 d e)) = _
  refine congrArg _ (funext fun a => Fin.ext ?_)
  match a with
  | ⟨0, _⟩ => show win0_8.index t (0 : Fin 2) * 256 + 1 * d.val = d.val; omega
  | ⟨1, _⟩ => show win0_8.index t (1 : Fin 2) * 256 + 1 * e.val = e.val; omega

/-- Window 3's block is its whole vector, an argument the host left alone. -/
theorem iblk3_apply (c : Dev nD) (t : Fin cfg0.N) (e : Fin 256) :
    iblk m c 3 t (ix1 e) = (m ((c : Thread nD τ).loc main_arg2) : S256.Idx → EReal) (ix1 e) := by
  have hw := idx_facts_w t
  refine Eq.trans ?_ (congrFun (V_main_arg2 m c) (ix1 e))
  show (V m c main_arg2 : S256.Idx → EReal) (((cfg0.win 3).blk t).view.emb (ix1 e)) = _
  refine congrArg _ (funext fun a => Fin.ext ?_)
  match a with
  | ⟨0, _⟩ => show win0_3.index t (0 : Fin 1) * 256 + 1 * e.val = e.val; omega

/-- Window 5's block is its whole vector, an argument the host left alone. -/
theorem iblk5_apply (c : Dev nD) (t : Fin cfg0.N) (e : Fin 256) :
    iblk m c 5 t (ix1 e) = (m ((c : Thread nD τ).loc main_arg4) : S256.Idx → EReal) (ix1 e) := by
  have hw := idx_facts_w t
  refine Eq.trans ?_ (congrFun (V_main_arg4 m c) (ix1 e))
  show (V m c main_arg4 : S256.Idx → EReal) (((cfg0.win 5).blk t).view.emb (ix1 e)) = _
  refine congrArg _ (funext fun a => Fin.ext ?_)
  match a with
  | ⟨0, _⟩ => show win0_5.index t (0 : Fin 1) * 256 + 1 * e.val = e.val; omega

/-- Window 7's block is its whole vector, an argument the host left alone. -/
theorem iblk7_apply (c : Dev nD) (t : Fin cfg0.N) (e : Fin 256) :
    iblk m c 7 t (ix1 e) = (m ((c : Thread nD τ).loc main_arg6) : S256.Idx → EReal) (ix1 e) := by
  have hw := idx_facts_w t
  refine Eq.trans ?_ (congrFun (V_main_arg6 m c) (ix1 e))
  show (V m c main_arg6 : S256.Idx → EReal) (((cfg0.win 7).blk t).view.emb (ix1 e)) = _
  refine congrArg _ (funext fun a => Fin.ext ?_)
  match a with
  | ⟨0, _⟩ => show win0_7.index t (0 : Fin 1) * 256 + 1 * e.val = e.val; omega

/-- Window 9's block is its whole vector, an argument the host left alone. -/
theorem iblk9_apply (c : Dev nD) (t : Fin cfg0.N) (e : Fin 256) :
    iblk m c 9 t (ix1 e) = (m ((c : Thread nD τ).loc main_arg8) : S256.Idx → EReal) (ix1 e) := by
  have hw := idx_facts_w t
  refine Eq.trans ?_ (congrFun (V_main_arg8 m c) (ix1 e))
  show (V m c main_arg8 : S256.Idx → EReal) (((cfg0.win 9).blk t).view.emb (ix1 e)) = _
  refine congrArg _ (funext fun a => Fin.ext ?_)
  match a with
  | ⟨0, _⟩ => show win0_9.index t (0 : Fin 1) * 256 + 1 * e.val = e.val; omega

/-- Window 10's block is its whole vector, an argument the host left alone. -/
theorem iblk10_apply (c : Dev nD) (t : Fin cfg0.N) (e : Fin 256) :
    iblk m c 10 t (ix1 e) = (m ((c : Thread nD τ).loc main_arg9) : S256.Idx → EReal) (ix1 e) := by
  have hw := idx_facts_w t
  refine Eq.trans ?_ (congrFun (V_main_arg9 m c) (ix1 e))
  show (V m c main_arg9 : S256.Idx → EReal) (((cfg0.win 10).blk t).view.emb (ix1 e)) = _
  refine congrArg _ (funext fun a => Fin.ext ?_)
  match a with
  | ⟨0, _⟩ => show win0_10.index t (0 : Fin 1) * 256 + 1 * e.val = e.val; omega

/-- Window 11's block is its whole vector, an argument the host left alone. -/
theorem iblk11_apply (c : Dev nD) (t : Fin cfg0.N) (e : Fin 256) :
    iblk m c 11 t (ix1 e) = (m ((c : Thread nD τ).loc main_arg10) : S256.Idx → EReal) (ix1 e) := by
  have hw := idx_facts_w t
  refine Eq.trans ?_ (congrFun (V_main_arg10 m c) (ix1 e))
  show (V m c main_arg10 : S256.Idx → EReal) (((cfg0.win 11).blk t).view.emb (ix1 e)) = _
  refine congrArg _ (funext fun a => Fin.ext ?_)
  match a with
  | ⟨0, _⟩ => show win0_11.index t (0 : Fin 1) * 256 + 1 * e.val = e.val; omega

/-- The input array is an argument the host left alone. -/
theorem V_x_apply (c : Dev nD) (i : S8x2048x256.Idx) :
    (V m c main_arg0 : S8x2048x256.Idx → EReal) i = (m ((c : Thread nD τ).loc main_arg0) : S8x2048x256.Idx → EReal) i :=
  congrFun (V_main_arg0 m c) i

end Cert.KernelIdeal.Hand

end
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.LibOnlineSoftmax.lean ====
/-
  The online softmax, as mathematics.

  A row of attention is a softmax-weighted sum: over a finite set of keys with real scores `σ k` and
  real values `ν k`, the number `∑ k, (exp (σ k - μ) / ∑ k', exp (σ k' - μ)) * ν k`, where `μ` is the largest
  score (any shift `μ` gives the same number). The ONLINE form walks over the keys block by block and keeps
  three numbers: the running maximum `μ`, the running denominator `lam = ∑ k ∈ K, exp (σ k - μ)` and the
  running numerator `alpha = ∑ k ∈ K, exp (σ k - μ) * ν k` over the set `K` of keys seen so far; at a new
  block `J` it moves to `μ' = max μ (max over J)`, multiplies the two sums by `exp (μ - μ')` and adds the
  block's terms; at the end it divides.

  Part A proves, over the reals, that this is the closed form: the rescaling step keeps the two sums in
  their closed form over `K ∪ J` (`rescale_den`, `rescale_num`), the running maximum is the maximum over
  `K ∪ J` (`running_max`), the three together (`step_invariant`), the first block (`first_block_closed`),
  positivity of the denominator and the final quotient as the weighted sum (`den_pos`, `quotient_eq`), and
  that the weights do not depend on the shift (`weight_shift`).

  Part B is about the extended reals `EReal = [-∞, +∞]` with the exact operations of the ideal reading of
  floats (`x + y`, `x - y`, `x * y`, `max x y`, `Ideal.exp`, `Ideal.div`): the walk STARTS from the
  maximum `⊥ = -∞` with both sums `0`, and Part B shows that each step lands on (the coercion of) a real
  number: from `⊥` the rescaling factor is `exp (-∞) = 0` and the new sums are the block's own
  (`first_block_*`); from real state the step is the real step (`later_block_*`); the final quotient is the
  real quotient (`div_coe_coe`); and a fold of `max` from `-∞` over coerced reals is the coerced maximum
  (`fold_max_*`). `coe_finset_sum` is the coercion of a finite sum.

  Part C reindexes a sum, and a maximum, over `n` blocks of `b` keys as one over `n * b` keys, the key of
  block `t` at offset `j` being `j + b * t`.
-/
import Mathlib.Data.Finset.Lattice.Fold
import Mathlib.Data.Finset.Lattice.Prod
import Mathlib.Logic.Equiv.Fin.Basic
import Mathlib.Algebra.BigOperators.Group.Finset.Basic
import Mathlib.Algebra.BigOperators.Group.Finset.Sigma
import Mathlib.Algebra.BigOperators.Field
import Mathlib.Analysis.SpecialFunctions.Exp
import Mathlib.Data.EReal.Inv
import Idealize.ShloMosaic.PureOps.Ideal
import Idealize.ShloMosaic.PureOps.Ideal.Laws

namespace Cert.Lib.OnlineSoftmax

open scoped BigOperators
open Idealize.ShloMosaic

/-! ## Part A: the real-number identities -/

section Real

variable {κ : Type*} [DecidableEq κ] (σ ν : κ → ℝ)

/-- One term of the rescaling: `exp (μ - μ') * exp (σ - μ) = exp (σ - μ')`. -/
theorem exp_rescale (μ μ' s : ℝ) : Real.exp (μ - μ') * Real.exp (s - μ) = Real.exp (s - μ') := by
  rw [← Real.exp_add]; congr 1; ring

/-- The rescaling step keeps the DENOMINATOR in closed form, for any old shift `μ` and new shift `μ'`:
    `exp (μ - μ') * ∑ k ∈ K, exp (σ k - μ) + ∑ j ∈ J, exp (σ j - μ') = ∑ k ∈ K ∪ J, exp (σ k - μ')`
    for disjoint `K`, `J`. Nothing is assumed of `μ`, `μ'`. -/
theorem rescale_den_any (K J : Finset κ) (hKJ : Disjoint K J) (μ μ' : ℝ) :
    Real.exp (μ - μ') * (∑ k ∈ K, Real.exp (σ k - μ)) + ∑ j ∈ J, Real.exp (σ j - μ')
      = ∑ k ∈ K ∪ J, Real.exp (σ k - μ') := by
  rw [Finset.sum_union hKJ, Finset.mul_sum]
  congr 1
  exact Finset.sum_congr rfl fun k _ => exp_rescale μ μ' (σ k)

/-- The rescaling step keeps the NUMERATOR (the sums weighted by the values `ν`) in closed form, for any
    old shift `μ` and new shift `μ'`. -/
theorem rescale_num_any (K J : Finset κ) (hKJ : Disjoint K J) (μ μ' : ℝ) :
    Real.exp (μ - μ') * (∑ k ∈ K, Real.exp (σ k - μ) * ν k) + ∑ j ∈ J, Real.exp (σ j - μ') * ν j
      = ∑ k ∈ K ∪ J, Real.exp (σ k - μ') * ν k := by
  rw [Finset.sum_union hKJ, Finset.mul_sum]
  congr 1
  refine Finset.sum_congr rfl fun k _ => ?_
  rw [← mul_assoc, exp_rescale]

/-- (Denominator.) With `lam` the closed form over `K` at shift `μ` and `μ' = max μ (max over J)`:
    `exp (μ - μ') * lam + ∑ j ∈ J, exp (σ j - μ') = ∑ k ∈ K ∪ J, exp (σ k - μ')`. That `μ` is the maximum
    over `K` is not needed. -/
theorem rescale_den (K J : Finset κ) (hJ : J.Nonempty) (hKJ : Disjoint K J) (μ lam : ℝ)
    (hlam : lam = ∑ k ∈ K, Real.exp (σ k - μ)) :
    Real.exp (μ - max μ (J.sup' hJ σ)) * lam + ∑ j ∈ J, Real.exp (σ j - max μ (J.sup' hJ σ))
      = ∑ k ∈ K ∪ J, Real.exp (σ k - max μ (J.sup' hJ σ)) := by
  rw [hlam]; exact rescale_den_any σ K J hKJ μ _

/-- (Numerator.) With `alpha` the closed form over `K` at shift `μ` and `μ' = max μ (max over J)`:
    `exp (μ - μ') * alpha + ∑ j ∈ J, exp (σ j - μ') * ν j = ∑ k ∈ K ∪ J, exp (σ k - μ') * ν k`. -/
theorem rescale_num (K J : Finset κ) (hJ : J.Nonempty) (hKJ : Disjoint K J) (μ alpha : ℝ)
    (halpha : alpha = ∑ k ∈ K, Real.exp (σ k - μ) * ν k) :
    Real.exp (μ - max μ (J.sup' hJ σ)) * alpha + ∑ j ∈ J, Real.exp (σ j - max μ (J.sup' hJ σ)) * ν j
      = ∑ k ∈ K ∪ J, Real.exp (σ k - max μ (J.sup' hJ σ)) * ν k := by
  rw [halpha]; exact rescale_num_any σ ν K J hKJ μ _

/-- The running maximum: if `μ` is the maximum of `σ` over `K`, then `max μ (max over J)` is the
    maximum over `K ∪ J`. -/
theorem running_max (K J : Finset κ) (hK : K.Nonempty) (hJ : J.Nonempty) (μ : ℝ) (hμ : μ = K.sup' hK σ) :
    max μ (J.sup' hJ σ) = (K ∪ J).sup' (hK.mono Finset.subset_union_left) σ := by
  rw [hμ, Finset.sup'_union hK hJ σ]

/-- One step of the walk keeps all three closed forms: from the maximum, denominator and
    numerator over `K` to those over `K ∪ J`. -/
theorem step_invariant (K J : Finset κ) (hK : K.Nonempty) (hJ : J.Nonempty) (hKJ : Disjoint K J)
    (μ lam alpha : ℝ) (hμ : μ = K.sup' hK σ) (hlam : lam = ∑ k ∈ K, Real.exp (σ k - μ))
    (halpha : alpha = ∑ k ∈ K, Real.exp (σ k - μ) * ν k) :
    let μ' := max μ (J.sup' hJ σ)
    μ' = (K ∪ J).sup' (hK.mono Finset.subset_union_left) σ
      ∧ Real.exp (μ - μ') * lam + ∑ j ∈ J, Real.exp (σ j - μ') = ∑ k ∈ K ∪ J, Real.exp (σ k - μ')
      ∧ Real.exp (μ - μ') * alpha + ∑ j ∈ J, Real.exp (σ j - μ') * ν j
          = ∑ k ∈ K ∪ J, Real.exp (σ k - μ') * ν k :=
  ⟨running_max σ K J hK hJ μ hμ, rescale_den σ K J hJ hKJ μ lam hlam, rescale_num σ ν K J hJ hKJ μ alpha halpha⟩

/-- (The first block.) From nothing (`K = ∅`) the three closed forms over `∅ ∪ J` are the block's own:
    its maximum `μ' = max over J`, `∑ j ∈ J, exp (σ j - μ')` and `∑ j ∈ J, exp (σ j - μ') * ν j`. -/
theorem first_block_closed (J : Finset κ) (hJ : J.Nonempty) (μ' : ℝ) :
    (∅ ∪ J).sup' ((Finset.empty_union J).symm ▸ hJ) σ = J.sup' hJ σ
      ∧ ∑ k ∈ ∅ ∪ J, Real.exp (σ k - μ') = ∑ j ∈ J, Real.exp (σ j - μ')
      ∧ ∑ k ∈ ∅ ∪ J, Real.exp (σ k - μ') * ν k = ∑ j ∈ J, Real.exp (σ j - μ') * ν j := by
  refine ⟨?_, ?_, ?_⟩
  · exact Finset.sup'_congr _ (Finset.empty_union J) fun _ _ => rfl
  · rw [Finset.empty_union]
  · rw [Finset.empty_union]

/-- The denominator over a nonempty set of keys is positive. -/
theorem den_pos (K : Finset κ) (hK : K.Nonempty) (μ lam : ℝ) (hlam : lam = ∑ k ∈ K, Real.exp (σ k - μ)) :
    0 < lam := by
  rw [hlam]; exact Finset.sum_pos (fun k _ => Real.exp_pos _) hK

/-- The final quotient is the softmax-weighted sum of the values:
    `alpha / lam = ∑ k ∈ K, (exp (σ k - μ) / ∑ k' ∈ K, exp (σ k' - μ)) * ν k`. -/
theorem quotient_eq (K : Finset κ) (μ lam alpha : ℝ) (hlam : lam = ∑ k ∈ K, Real.exp (σ k - μ))
    (halpha : alpha = ∑ k ∈ K, Real.exp (σ k - μ) * ν k) :
    alpha / lam = ∑ k ∈ K, (Real.exp (σ k - μ) / ∑ k' ∈ K, Real.exp (σ k' - μ)) * ν k := by
  rw [halpha, hlam, Finset.sum_div]
  exact Finset.sum_congr rfl fun k _ => by rw [div_mul_eq_mul_div]

/-- The softmax weights do not depend on the shift: `exp (σ k - μ) / ∑ exp (σ k' - μ)` is the same number
    for every `μ` (both are `exp (σ k) / ∑ exp (σ k')` after cancelling `exp (-μ)`). -/
theorem weight_shift (K : Finset κ) (μ μ₂ : ℝ) (k : κ) :
    Real.exp (σ k - μ) / ∑ k' ∈ K, Real.exp (σ k' - μ)
      = Real.exp (σ k - μ₂) / ∑ k' ∈ K, Real.exp (σ k' - μ₂) := by
  have h : ∀ s : ℝ, Real.exp (s - μ) = Real.exp (μ₂ - μ) * Real.exp (s - μ₂) := fun s =>
    (exp_rescale μ₂ μ s).symm
  rw [h (σ k), Finset.sum_congr rfl fun k' _ => h (σ k'), ← Finset.mul_sum,
    mul_div_mul_left _ _ (Real.exp_pos _).ne']

end Real

/-! ## Part B: the extended-real steps land on real numbers

The operations are those of the ideal reading of floats: `addf`, `subf`, `mulf` are EReal's `+`, `-`, `*`;
`maximumf` is `max`; `exp` is `Ideal.exp` (`exp ⊥ = 0`); `divf` is `Ideal.div`. The lemmas are stated
over these terms, the right sides of `Ideal.addf_def`, `Ideal.subf_def`, `Ideal.mulf_def`,
`Ideal.maximumf_def`, `Ideal.exp_def`, `Ideal.divf_def`. -/

section Extended

variable {ι : Type*}

/-- The coercion of a finite sum of reals is the sum of the coercions. -/
theorem coe_finset_sum (S : Finset ι) (f : ι → ℝ) :
    ((∑ i ∈ S, f i : ℝ) : EReal) = ∑ i ∈ S, (f i : EReal) := by
  induction S using Finset.cons_induction with
  | empty => simp
  | cons a S ha ih => rw [Finset.sum_cons, Finset.sum_cons, EReal.coe_add, ih]

/-- `max` of two coerced reals is the coerced `max` (about `maximumf`). -/
theorem max_coe_coe (a b : ℝ) : max (a : EReal) (b : EReal) = ((max a b : ℝ) : EReal) :=
  (EReal.coe_strictMono.monotone.map_max).symm

/-- `max ⊥ x = x`: the maximum against `-∞` (about `maximumf`). -/
theorem max_bot_left (x : EReal) : max (⊥ : EReal) x = x := bot_sup_eq x

/-- `exp (-∞ - x) = 0` for every extended real `x` (about `exp` of a `subf`): `⊥ - x = ⊥`. -/
theorem exp_bot_sub (x : EReal) : Ideal.exp (⊥ - x) = 0 := by
  rw [EReal.bot_sub, Ideal.exp_bot]

/-- `exp (↑a - ↑b) = ↑(Real.exp (a - b))` (about `exp` of a `subf` of two reals). -/
theorem exp_coe_sub_coe (a b : ℝ) :
    Ideal.exp ((a : EReal) - (b : EReal)) = ((Real.exp (a - b) : ℝ) : EReal) := by
  rw [← EReal.coe_sub, Ideal.exp_coe]

/-- The block's sum of `exp (↑(s j) - ↑M)` is the coerced real sum (about a sum of `exp` of `subf`). -/
theorem sum_exp_coe_sub_coe (J : Finset ι) (s : ι → ℝ) (M : ℝ) :
    ∑ j ∈ J, Ideal.exp ((s j : EReal) - (M : EReal)) = ((∑ j ∈ J, Real.exp (s j - M) : ℝ) : EReal) := by
  rw [coe_finset_sum]
  exact Finset.sum_congr rfl fun j _ => exp_coe_sub_coe (s j) M

/-- `↑a * ↑l + ↑x = ↑(a * l + x)` (about an `addf` of a `mulf`). -/
theorem coe_mul_add_coe (a l x : ℝ) : (a : EReal) * (l : EReal) + (x : EReal) = ((a * l + x : ℝ) : EReal) := by
  rw [EReal.coe_add, EReal.coe_mul]

/-! ### The first block: from `m = ⊥`, with both sums `0` -/

/-- (`maximumf`.) From `m = ⊥` the new maximum `max m bm` is the block's maximum `↑M`. -/
theorem first_block_max {m bm : EReal} {M : ℝ} (hm : m = ⊥) (hbm : bm = (M : EReal)) :
    max m bm = (M : EReal) := by
  rw [hm, hbm, max_bot_left]

/-- (`exp` of `subf` of `maximumf`.) From `m = ⊥` the rescaling factor `exp (m - max m bm)` is `0`,
    whatever the block's maximum. -/
theorem first_block_scale {m : EReal} (hm : m = ⊥) (bm : EReal) : Ideal.exp (m - max m bm) = 0 := by
  rw [hm, exp_bot_sub]

/-- (`addf` of `mulf`.) From `m = ⊥` the updated sum `exp (m - max m bm) * l + x` is the block's
    term `x`, whatever the old sum `l` (the walk has `l = 0`; `0 * l = 0` for every extended real). -/
theorem first_block_acc {m : EReal} (hm : m = ⊥) (bm l x : EReal) :
    Ideal.exp (m - max m bm) * l + x = x := by
  rw [first_block_scale hm, zero_mul, zero_add]

/-- (The new denominator.) From `m = ⊥`, with the block's maximum `bm = ↑M` and real block scores
    `s j`: `exp (m - max m bm) * l + ∑ j ∈ J, exp (↑(s j) - max m bm) = ↑(∑ j ∈ J, Real.exp (s j - M))`
    (about `addf (mulf (exp (subf m m')) l) (Σ exp (subf s m'))` with `m' = maximumf m bm`). -/
theorem first_block_den {m bm : EReal} {M : ℝ} (hm : m = ⊥) (hbm : bm = (M : EReal)) (l : EReal)
    (J : Finset ι) (s : ι → ℝ) :
    Ideal.exp (m - max m bm) * l + ∑ j ∈ J, Ideal.exp ((s j : EReal) - max m bm)
      = ((∑ j ∈ J, Real.exp (s j - M) : ℝ) : EReal) := by
  rw [first_block_acc hm, first_block_max hm hbm, sum_exp_coe_sub_coe]

/-- (The new numerator.) From `m = ⊥`, with the block's maximum `bm = ↑M`, real block scores `s j`
    and real values `v j`: the updated sum with the block's term `∑ j ∈ J, exp (↑(s j) - max m bm) * ↑(v j)`
    is `↑(∑ j ∈ J, Real.exp (s j - M) * v j)`. -/
theorem first_block_num {m bm : EReal} {M : ℝ} (hm : m = ⊥) (hbm : bm = (M : EReal)) (acc : EReal)
    (J : Finset ι) (s v : ι → ℝ) :
    Ideal.exp (m - max m bm) * acc + ∑ j ∈ J, Ideal.exp ((s j : EReal) - max m bm) * (v j : EReal)
      = ((∑ j ∈ J, Real.exp (s j - M) * v j : ℝ) : EReal) := by
  rw [first_block_acc hm, first_block_max hm hbm, coe_finset_sum]
  exact Finset.sum_congr rfl fun j _ => by rw [exp_coe_sub_coe, EReal.coe_mul]

/-! ### A later block: from real state `m = ↑μ`, `l = ↑lam`, `acc = ↑alpha` -/

/-- (`maximumf`.) From `m = ↑μ` the new maximum is `↑(max μ M)`. -/
theorem later_block_max {m bm : EReal} {μ M : ℝ} (hm : m = (μ : EReal)) (hbm : bm = (M : EReal)) :
    max m bm = ((max μ M : ℝ) : EReal) := by
  rw [hm, hbm, max_coe_coe]

/-- (`exp` of `subf` of `maximumf`.) From `m = ↑μ` the rescaling factor is
    `↑(Real.exp (μ - max μ M))`. -/
theorem later_block_scale {m bm : EReal} {μ M : ℝ} (hm : m = (μ : EReal)) (hbm : bm = (M : EReal)) :
    Ideal.exp (m - max m bm) = ((Real.exp (μ - max μ M) : ℝ) : EReal) := by
  rw [later_block_max hm hbm, hm, exp_coe_sub_coe]

/-- (`addf` of `mulf`.) From real state the updated sum `exp (m - max m bm) * l + x` with a real
    block term `x = ↑X` is `↑(Real.exp (μ - max μ M) * lam + X)`. -/
theorem later_block_acc {m bm l x : EReal} {μ M lam X : ℝ} (hm : m = (μ : EReal)) (hbm : bm = (M : EReal))
    (hl : l = (lam : EReal)) (hx : x = (X : EReal)) :
    Ideal.exp (m - max m bm) * l + x = ((Real.exp (μ - max μ M) * lam + X : ℝ) : EReal) := by
  rw [later_block_scale hm hbm, hl, hx, coe_mul_add_coe]

/-- (The new denominator.) From real state, with the block's maximum `bm = ↑M` and real block scores:
    `exp (m - max m bm) * l + ∑ j ∈ J, exp (↑(s j) - max m bm)
       = ↑(Real.exp (μ - max μ M) * lam + ∑ j ∈ J, Real.exp (s j - max μ M))`. -/
theorem later_block_den {m bm l : EReal} {μ M lam : ℝ} (hm : m = (μ : EReal)) (hbm : bm = (M : EReal))
    (hl : l = (lam : EReal)) (J : Finset ι) (s : ι → ℝ) :
    Ideal.exp (m - max m bm) * l + ∑ j ∈ J, Ideal.exp ((s j : EReal) - max m bm)
      = ((Real.exp (μ - max μ M) * lam + ∑ j ∈ J, Real.exp (s j - max μ M) : ℝ) : EReal) := by
  refine later_block_acc hm hbm hl ?_
  rw [later_block_max hm hbm, sum_exp_coe_sub_coe]

/-- (The new numerator.) From real state, with real block scores `s j` and real values `v j`:
    `exp (m - max m bm) * acc + ∑ j ∈ J, exp (↑(s j) - max m bm) * ↑(v j)
       = ↑(Real.exp (μ - max μ M) * alpha + ∑ j ∈ J, Real.exp (s j - max μ M) * v j)`. -/
theorem later_block_num {m bm acc : EReal} {μ M alpha : ℝ} (hm : m = (μ : EReal)) (hbm : bm = (M : EReal))
    (hacc : acc = (alpha : EReal)) (J : Finset ι) (s v : ι → ℝ) :
    Ideal.exp (m - max m bm) * acc + ∑ j ∈ J, Ideal.exp ((s j : EReal) - max m bm) * (v j : EReal)
      = ((Real.exp (μ - max μ M) * alpha + ∑ j ∈ J, Real.exp (s j - max μ M) * v j : ℝ) : EReal) := by
  refine later_block_acc hm hbm hacc ?_
  rw [later_block_max hm hbm, coe_finset_sum]
  exact Finset.sum_congr rfl fun j _ => by rw [exp_coe_sub_coe, EReal.coe_mul]

/-! ### The final quotient -/

/-- (`divf`.) `Ideal.div ↑alpha ↑lam = ↑(alpha / lam)` for `lam ≠ 0`: the library's `Ideal.div_coe`
    (division by a nonzero real is the product with its reciprocal) read back as a real quotient. -/
theorem div_coe_coe (alpha : ℝ) {lam : ℝ} (h : lam ≠ 0) :
    Ideal.div (alpha : EReal) (lam : EReal) = ((alpha / lam : ℝ) : EReal) := by
  rw [Ideal.div_coe h, ← EReal.coe_mul, mul_one_div]

/-- (With equations.) The same for extended reals known to be those reals. -/
theorem div_of_eq_coe {a l : EReal} {alpha lam : ℝ} (ha : a = (alpha : EReal)) (hl : l = (lam : EReal))
    (h : lam ≠ 0) : Ideal.div a l = ((alpha / lam : ℝ) : EReal) := by
  rw [ha, hl, div_coe_coe alpha h]

/-! ### A fold of `max` over coerced reals

A `vector.multi_reduction <maximumf>` over one axis reads at the ideal values as
`Finset.univ.fold max (ofBits φ acc) (src ∘ lift j)` (`Ideal.multiReduction_maximumf_single`) and the host's
`reduce` with a `maximumf` body as the same fold with `FloatOps.maximumf` for `max`
(`Host.reduce_eq_fold_single`); the accumulator's pattern `0xFF800000` is `-∞`. -/

/-- The f32 pattern `0xFF800000` denotes `-∞`. -/
theorem ofBits_f32_neg_inf : Ideal.ofBits .f32 0xFF800000#32 = ⊥ := by
  simp [Ideal.ofBits, Ideal.ieee]

/-- A fold of the ideal `maximumf` is the fold of `max`: one function. -/
theorem fold_maximumf_eq_fold_max {φ : FTy} (b : Ideal φ) (g : ι → Ideal φ) (S : Finset ι) :
    S.fold (FloatOps.maximumf (F := Ideal) (φ := φ)) b g = S.fold (max : EReal → EReal → EReal) b g := rfl

/-- The fold of `max` from any `b` over a nonempty set of coerced reals is `max b ↑(the maximum)`. -/
theorem fold_max_coe (S : Finset ι) (hS : S.Nonempty) (b : EReal) (f : ι → ℝ) :
    S.fold max b (fun i => (f i : EReal)) = max b ((S.sup' hS f : ℝ) : EReal) := by
  induction hS using Finset.Nonempty.cons_induction with
  | singleton a => rw [Finset.fold_singleton, Finset.sup'_singleton, max_comm]
  | cons a S ha hS ih =>
    rw [Finset.fold_cons, ih, Finset.sup'_cons hS, ← max_coe_coe, max_left_comm]

/-- (From `-∞`.) The fold of `max` from `⊥` over a nonempty set of coerced reals is the coerced maximum
    (`Finset.sup'`). -/
theorem fold_max_bot_coe (S : Finset ι) (hS : S.Nonempty) (f : ι → ℝ) :
    S.fold max (⊥ : EReal) (fun i => (f i : EReal)) = ((S.sup' hS f : ℝ) : EReal) := by
  rw [fold_max_coe S hS, max_bot_left]

/-- (With equations.) The fold of `max` from an initial value known to be `⊥`, over a nonempty set, of a
    function that is pointwise a coerced real. -/
theorem fold_max_of_eq {b : EReal} (hb : b = ⊥) (S : Finset ι) (hS : S.Nonempty) (g : ι → EReal) (f : ι → ℝ)
    (hg : ∀ i, g i = (f i : EReal)) : S.fold max b g = ((S.sup' hS f : ℝ) : EReal) := by
  rw [hb, show g = fun i => (f i : EReal) from funext hg, fold_max_bot_coe]

/-- (After `Ideal.ofBits_def`.) The fold of `max` from the pattern `0xFF800000`, written with
    `Ideal.ofBits`, over all of a nonempty finite index type, of a function that is pointwise a coerced real. -/
theorem fold_max_neg_inf_univ [Fintype ι] [Nonempty ι] (g : ι → EReal) (f : ι → ℝ) (hg : ∀ i, g i = (f i : EReal)) :
    (Finset.univ : Finset ι).fold max (Ideal.ofBits .f32 0xFF800000#32) g
      = ((Finset.univ.sup' Finset.univ_nonempty f : ℝ) : EReal) :=
  fold_max_of_eq ofBits_f32_neg_inf _ _ g f hg

/-- The f32 pattern `0xFF800000` denotes `-∞`, written with the instance's field `FloatOps.ofBits` (the form
    `Ideal.multiReduction_maximumf_single` and `Host.reduce_eq_fold_single` leave before `Ideal.ofBits_def`). -/
theorem floatOps_ofBits_f32_neg_inf : FloatOps.ofBits (F := Ideal) .f32 0xFF800000#32 = (⊥ : EReal) :=
  ofBits_f32_neg_inf

/-- (As the reduction law leaves it.) The same fold with the initial value written `FloatOps.ofBits`:
    the right side of `Ideal.multiReduction_maximumf_single` with `g = src ∘ h.lift j`. -/
theorem fold_max_floatOps_neg_inf_univ [Fintype ι] [Nonempty ι] (g : ι → EReal) (f : ι → ℝ)
    (hg : ∀ i, g i = (f i : EReal)) :
    (Finset.univ : Finset ι).fold max (FloatOps.ofBits (F := Ideal) .f32 0xFF800000#32) g
      = ((Finset.univ.sup' Finset.univ_nonempty f : ℝ) : EReal) :=
  fold_max_of_eq floatOps_ofBits_f32_neg_inf _ _ g f hg

end Extended

/-! ## Part C: `n` blocks of `b` keys as `n * b` keys

`finProdFinEquiv : Fin n × Fin b ≃ Fin (n * b)` sends block `t`, offset `j` to the key `j + b * t`. -/

section Blocks

variable {n b : ℕ}

/-- The key of block `t` at offset `j` is `j + b * t`. -/
theorem blockKey_val (t : Fin n) (j : Fin b) : ((finProdFinEquiv (t, j) : Fin (n * b)) : ℕ) = j + b * t := rfl

/-- (Sum.) A sum over `n * b` keys is the sum over the `n` blocks of the sums over each block's `b` keys. -/
theorem sum_blocks {M : Type*} [AddCommMonoid M] (f : Fin (n * b) → M) :
    ∑ k : Fin (n * b), f k = ∑ t : Fin n, ∑ j : Fin b, f (finProdFinEquiv (t, j)) := by
  rw [← Fintype.sum_prod_type']
  exact (Fintype.sum_equiv finProdFinEquiv (fun p => f (finProdFinEquiv p)) f fun _ => rfl).symm

/-- (Sum, by the key's number.) For a summand given on the key's number `k : ℕ`: the key of block `t` at
    offset `j` is `j + b * t`. -/
theorem sum_blocks_nat {M : Type*} [AddCommMonoid M] (g : ℕ → M) :
    ∑ k : Fin (n * b), g (k : ℕ) = ∑ t : Fin n, ∑ j : Fin b, g ((j : ℕ) + b * (t : ℕ)) :=
  sum_blocks fun k : Fin (n * b) => g (k : ℕ)

/-- (Maximum.) The maximum over `n * b` keys is the maximum over the `n` blocks of each block's maximum. -/
theorem sup'_blocks {α : Type*} [SemilatticeSup α] (f : Fin (n * b) → α)
    (hnb : (Finset.univ : Finset (Fin (n * b))).Nonempty) (hn : (Finset.univ : Finset (Fin n)).Nonempty)
    (hb : (Finset.univ : Finset (Fin b)).Nonempty) :
    Finset.univ.sup' hnb f
      = Finset.univ.sup' hn fun t : Fin n => Finset.univ.sup' hb fun j : Fin b => f (finProdFinEquiv (t, j)) := by
  refine eq_of_forall_ge_iff fun c => ?_
  simp only [Finset.sup'_le_iff, Finset.mem_univ, true_imp_iff]
  refine ⟨fun h t j => h _, fun h k => ?_⟩
  have := h (finProdFinEquiv.symm k).1 (finProdFinEquiv.symm k).2
  rwa [Prod.mk.eta, Equiv.apply_symm_apply] at this

/-- (Maximum, by the key's number.) The same for a function of the key's number `k : ℕ`. -/
theorem sup'_blocks_nat {α : Type*} [SemilatticeSup α] (g : ℕ → α)
    (hnb : (Finset.univ : Finset (Fin (n * b))).Nonempty) (hn : (Finset.univ : Finset (Fin n)).Nonempty)
    (hb : (Finset.univ : Finset (Fin b)).Nonempty) :
    Finset.univ.sup' hnb (fun k : Fin (n * b) => g (k : ℕ))
      = Finset.univ.sup' hn fun t : Fin n => Finset.univ.sup' hb fun j : Fin b => g ((j : ℕ) + b * (t : ℕ)) :=
  sup'_blocks (fun k : Fin (n * b) => g (k : ℕ)) hnb hn hb

end Blocks

end Cert.Lib.OnlineSoftmax
-- ==== Proof.IdealProj.lean ====
/-
  The kernel's affine maps read at an index, at the ideal values.

  Each of the kernel's four affine maps multiplies a block of rows by a weight matrix it receives already
  transposed (`[in, out]`) and adds a bias row.  Read at row `r` and output feature `e`, the result is the sum
  over the input feature `d` of the row's entry at `d` times the weight at `(d, e)`, plus the bias at `e`: the
  product is a plain `[M, 256] x [256, 256]` one, the narrowing of the weights is the identity on extended reals,
  the cast of the weights is to their own shape, and the bias row is a length-256 vector cast to `[1, 256]` and
  repeated along the rows.
-/
import proofs.«123646_j33698313404907_2_alg».proof.Proof.Gen.KernelIdeal.Skeleton
import proofs.«123646_j33698313404907_2_alg».proof.Proof.LibPlainDot
import proofs.«123646_j33698313404907_2_alg».proof.Proof.LibOnlineSoftmax
import Idealize.ShloMosaic.Lib.ValueIdx
import Idealize.ShloMosaic.Lib.Pipeline.Value
import Idealize.ShloMosaic.Lib.ValueLayout

noncomputable section

open scoped BigOperators

namespace Cert.KernelIdeal.Row

open Cert.KernelIdeal Cert.KernelIdeal.Gen
open Idealize.ShloMosaic Idealize.ShloMosaic.ValueIdx

/-! ## A bias row repeated along the rows -/

/-- A length-`n` vector cast to a `[1, n]` row and repeated along `m` rows reads, at `(r, e)`, the vector at `e`. -/
theorem row_bias_apply {m n : ℕ} {α : Type} (v : (⟨1, ![n]⟩ : Shape).Idx → α)
    (h : (⟨1, ![n]⟩ : Shape).ShapeCasts ⟨2, ![1, n]⟩) (h' : (⟨2, ![1, n]⟩ : Shape).Broadcasts ⟨2, ![m, n]⟩)
    (r : Fin m) (e : Fin n) :
    broadcastTo ⟨2, ![m, n]⟩ (shapeCast ⟨2, ![1, n]⟩ v h) h' (ix2 r e) = v (ix1 e) := by
  refine (broadcastTo_apply _ h' (ix2 r e) (ix2 (0 : Fin 1) e) fun ax => ?_).trans ?_
  · match ax with
    | ⟨0, _⟩ => rfl
    | ⟨1, _⟩ =>
      show e.val = if n = 1 then 0 else e.val
      split
      · have := e.isLt; omega
      · rfl
  · refine shapeCast_apply v h (ix2 (0 : Fin 1) e) (ix1 e) ?_
    rw [Shape.rowMajor_val_one, Shape.rowMajor_val_two]
    show e.val = 0 * n + e.val
    omega

/-! ## The two products' dimension numbers are plain -/

theorem dot512_rank : (dot_S512x256_S256x256_S512x256_1_0_0_1_n_n).contr.rank = 1 := rfl
theorem dot512_size : (dot_S512x256_S256x256_S512x256_1_0_0_1_n_n).contr.size ⟨0, by rw [dot512_rank]; omega⟩ = 256 := rfl

theorem dot512_l0 (j : S512x256.Idx) (q : (dot_S512x256_S256x256_S512x256_1_0_0_1_n_n).contr.Idx) :
    ((dot_S512x256_S256x256_S512x256_1_0_0_1_n_n).lhsIdx j q 0).val = (j 0).val := by
  simp [DotDims.lhsIdx, dot_S512x256_S256x256_S512x256_1_0_0_1_n_n]; rfl
theorem dot512_l1 (j : S512x256.Idx) (q : (dot_S512x256_S256x256_S512x256_1_0_0_1_n_n).contr.Idx) :
    ((dot_S512x256_S256x256_S512x256_1_0_0_1_n_n).lhsIdx j q 1).val = (q ⟨0, by rw [dot512_rank]; omega⟩).val := by
  simp [DotDims.lhsIdx, dot_S512x256_S256x256_S512x256_1_0_0_1_n_n]; rfl
theorem dot512_r0 (j : S512x256.Idx) (q : (dot_S512x256_S256x256_S512x256_1_0_0_1_n_n).contr.Idx) :
    ((dot_S512x256_S256x256_S512x256_1_0_0_1_n_n).rhsIdx j q 0).val = (q ⟨0, by rw [dot512_rank]; omega⟩).val := by
  simp [DotDims.rhsIdx, dot_S512x256_S256x256_S512x256_1_0_0_1_n_n]; rfl
theorem dot512_r1 (j : S512x256.Idx) (q : (dot_S512x256_S256x256_S512x256_1_0_0_1_n_n).contr.Idx) :
    ((dot_S512x256_S256x256_S512x256_1_0_0_1_n_n).rhsIdx j q 1).val = (j 1).val := by
  simp [DotDims.rhsIdx, dot_S512x256_S256x256_S512x256_1_0_0_1_n_n]; rfl

/-- The 512-row affine map read at `(r, e)`, for any left operand and any weights and bias: extended reals, nothing
    assumed finite. -/
theorem affine512_apply (L : FVec Ideal S512x256 .bf16) (w : Vec Ideal S256x256 .f32) (bias : Vec Ideal S256 .f32)
    (r : Fin 512) (e : Fin 256) :
    (addf (matmul dot_S512x256_S256x256_S512x256_1_0_0_1_n_n none L
        (truncf .bf16 (shapeCast S256x256 w shapeCasts_S256x256_S256x256) bitsLt_bf16_f32)
        (constant S512x256 .f32 0x00000000#32))
      (broadcastTo S512x256 (shapeCast S1x256 bias shapeCasts_S256_S1x256) broadcasts_S1x256_S512x256)) (ix2 r e)
      = ∑ d : Fin 256, L (ix2 r d) * w (ix2 d e) + bias (ix1 e) := by
  refine (addf_apply _ _ _).trans ?_
  rw [row_bias_apply]
  refine congrArg (· + bias (ix1 e)) ?_
  refine (Cert.Lib.PlainDot.matmul_zero_apply _ dot512_rank dot512_size dot512_l0 dot512_l1 dot512_r0 dot512_r1
    none L _ (ix2 r e)).trans ?_
  rw [shapeCast_self]
  rfl

/-! ## The 2048-row product's dimension numbers are plain -/

theorem dot2048_rank : (dot_S2048x256_S256x256_S2048x256_1_0_0_1_n_n).contr.rank = 1 := rfl
theorem dot2048_size : (dot_S2048x256_S256x256_S2048x256_1_0_0_1_n_n).contr.size ⟨0, by rw [dot2048_rank]; omega⟩ = 256 := rfl

theorem dot2048_l0 (j : S2048x256.Idx) (q : (dot_S2048x256_S256x256_S2048x256_1_0_0_1_n_n).contr.Idx) :
    ((dot_S2048x256_S256x256_S2048x256_1_0_0_1_n_n).lhsIdx j q 0).val = (j 0).val := by
  simp [DotDims.lhsIdx, dot_S2048x256_S256x256_S2048x256_1_0_0_1_n_n]; rfl
theorem dot2048_l1 (j : S2048x256.Idx) (q : (dot_S2048x256_S256x256_S2048x256_1_0_0_1_n_n).contr.Idx) :
    ((dot_S2048x256_S256x256_S2048x256_1_0_0_1_n_n).lhsIdx j q 1).val = (q ⟨0, by rw [dot2048_rank]; omega⟩).val := by
  simp [DotDims.lhsIdx, dot_S2048x256_S256x256_S2048x256_1_0_0_1_n_n]; rfl
theorem dot2048_r0 (j : S2048x256.Idx) (q : (dot_S2048x256_S256x256_S2048x256_1_0_0_1_n_n).contr.Idx) :
    ((dot_S2048x256_S256x256_S2048x256_1_0_0_1_n_n).rhsIdx j q 0).val = (q ⟨0, by rw [dot2048_rank]; omega⟩).val := by
  simp [DotDims.rhsIdx, dot_S2048x256_S256x256_S2048x256_1_0_0_1_n_n]; rfl
theorem dot2048_r1 (j : S2048x256.Idx) (q : (dot_S2048x256_S256x256_S2048x256_1_0_0_1_n_n).contr.Idx) :
    ((dot_S2048x256_S256x256_S2048x256_1_0_0_1_n_n).rhsIdx j q 1).val = (j 1).val := by
  simp [DotDims.rhsIdx, dot_S2048x256_S256x256_S2048x256_1_0_0_1_n_n]; rfl

/-- The 2048-row affine map read at `(n, e)`, for any left operand and any weights and bias. -/
theorem affine2048_apply (L : FVec Ideal S2048x256 .bf16) (w : Vec Ideal S256x256 .f32) (bias : Vec Ideal S256 .f32)
    (n : Fin 2048) (e : Fin 256) :
    (addf (matmul dot_S2048x256_S256x256_S2048x256_1_0_0_1_n_n none L
        (truncf .bf16 (shapeCast S256x256 w shapeCasts_S256x256_S256x256) bitsLt_bf16_f32)
        (constant S2048x256 .f32 0x00000000#32))
      (broadcastTo S2048x256 (shapeCast S1x256 bias shapeCasts_S256_S1x256) broadcasts_S1x256_S2048x256)) (ix2 n e)
      = ∑ d : Fin 256, L (ix2 n d) * w (ix2 d e) + bias (ix1 e) := by
  refine (addf_apply _ _ _).trans ?_
  rw [row_bias_apply]
  refine congrArg (· + bias (ix1 e)) ?_
  refine (Cert.Lib.PlainDot.matmul_zero_apply _ dot2048_rank dot2048_size dot2048_l0 dot2048_l1 dot2048_r0 dot2048_r1
    none L _ (ix2 n e)).trans ?_
  rw [shapeCast_self]
  rfl

/-! ## The three projections on real data -/

/-- A sum of products of real numbers plus a real number, among the extended reals, is the real one. -/
theorem sum_mul_add_coe (x w : Fin 256 → ℝ) (b : ℝ) :
    ∑ d : Fin 256, ((x d : ℝ) : EReal) * ((w d : ℝ) : EReal) + ((b : ℝ) : EReal)
      = ((∑ d : Fin 256, x d * w d + b : ℝ) : EReal) := by
  rw [EReal.coe_add, Cert.Lib.OnlineSoftmax.coe_finset_sum]
  simp only [EReal.coe_mul]

/-- The batch's rows, narrowed: a `[1, 2048, 256]` block viewed `[2048, 256]`. -/
theorem k0_pay2_apply (xs : Vec Ideal S1x2048x256 .f32) (n : Fin 2048) (d : Fin 256) :
    k0_pay2 (F := Ideal) xs (ix2 n d) = xs (ix3 (0 : Fin 1) n d) := by
  show shapeCast S2048x256 xs shapeCasts_S1x2048x256_S2048x256 (ix2 n d) = _
  refine shapeCast_apply xs _ (ix2 n d) (ix3 (0 : Fin 1) n d) ?_
  rw [Shape.rowMajor_val_two, Shape.rowMajor_val_three]
  show (0 * 2048 + n.val) * 256 + d.val = n.val * 256 + d.val
  omega

theorem k0_pay3_eq (xs : Vec Ideal S1x2048x256 .f32) (w : Vec Ideal S256x256 .f32) (bias : Vec Ideal S256 .f32) :
    k0_pay3 (F := Ideal) xs w bias
      = truncf .bf16 (addf (matmul dot_S2048x256_S256x256_S2048x256_1_0_0_1_n_n none (k0_pay2 (F := Ideal) xs)
          (truncf .bf16 (shapeCast S256x256 w shapeCasts_S256x256_S256x256) bitsLt_bf16_f32)
          (constant S2048x256 .f32 0x00000000#32))
        (broadcastTo S2048x256 (shapeCast S1x256 bias shapeCasts_S256_S1x256) broadcasts_S1x256_S2048x256)) bitsLt_bf16_f32 :=
  shapeCast_self _ shapeCasts_S2048x256_S2048x256

theorem k0_pay4_eq (xs : Vec Ideal S1x2048x256 .f32) (w : Vec Ideal S256x256 .f32) (bias : Vec Ideal S256 .f32) :
    k0_pay4 (F := Ideal) xs w bias
      = truncf .bf16 (addf (matmul dot_S2048x256_S256x256_S2048x256_1_0_0_1_n_n none (k0_pay2 (F := Ideal) xs)
          (truncf .bf16 (shapeCast S256x256 w shapeCasts_S256x256_S256x256) bitsLt_bf16_f32)
          (constant S2048x256 .f32 0x00000000#32))
        (broadcastTo S2048x256 (shapeCast S1x256 bias shapeCasts_S256_S1x256) broadcasts_S1x256_S2048x256)) bitsLt_bf16_f32 :=
  shapeCast_self _ shapeCasts_S2048x256_S2048x256

/-- The keys' projection of a block of real rows `X` by real weights `W` (given transposed) and bias `B`. -/
theorem k0_pay3_apply (xs : Vec Ideal S1x2048x256 .f32) (w : Vec Ideal S256x256 .f32) (bias : Vec Ideal S256 .f32)
    (X : Fin 2048 → Fin 256 → ℝ) (W : Fin 256 → Fin 256 → ℝ) (B : Fin 256 → ℝ)
    (hx : ∀ n d, xs (ix3 (0 : Fin 1) n d) = ((X n d : ℝ) : EReal))
    (hw : ∀ d e, w (ix2 d e) = ((W e d : ℝ) : EReal)) (hb : ∀ e, bias (ix1 e) = ((B e : ℝ) : EReal))
    (n : Fin 2048) (e : Fin 256) :
    k0_pay3 (F := Ideal) xs w bias (ix2 n e) = ((∑ d : Fin 256, X n d * W e d + B e : ℝ) : EReal) := by
  rw [k0_pay3_eq]
  refine (truncf_apply (ψ := .bf16) (φ := .f32) _ bitsLt_bf16_f32 _).trans ?_
  rw [affine2048_apply, hb e, ← sum_mul_add_coe]
  refine congrArg (· + ((B e : ℝ) : EReal)) (Finset.sum_congr rfl fun d _ => ?_)
  rw [k0_pay2_apply, hx n d, hw d e]

/-- The values' projection: the same map with the values' weights and bias. -/
theorem k0_pay4_apply (xs : Vec Ideal S1x2048x256 .f32) (w : Vec Ideal S256x256 .f32) (bias : Vec Ideal S256 .f32)
    (X : Fin 2048 → Fin 256 → ℝ) (W : Fin 256 → Fin 256 → ℝ) (B : Fin 256 → ℝ)
    (hx : ∀ n d, xs (ix3 (0 : Fin 1) n d) = ((X n d : ℝ) : EReal))
    (hw : ∀ d e, w (ix2 d e) = ((W e d : ℝ) : EReal)) (hb : ∀ e, bias (ix1 e) = ((B e : ℝ) : EReal))
    (n : Fin 2048) (e : Fin 256) :
    k0_pay4 (F := Ideal) xs w bias (ix2 n e) = ((∑ d : Fin 256, X n d * W e d + B e : ℝ) : EReal) := by
  rw [k0_pay4_eq]
  refine (truncf_apply (ψ := .bf16) (φ := .f32) _ bitsLt_bf16_f32 _).trans ?_
  rw [affine2048_apply, hb e, ← sum_mul_add_coe]
  refine congrArg (· + ((B e : ℝ) : EReal)) (Finset.sum_congr rfl fun d _ => ?_)
  rw [k0_pay2_apply, hx n d, hw d e]

theorem k0_pay5_eq (xq : Vec Ideal S1x512x256 .f32) (w : Vec Ideal S256x256 .f32) (bias : Vec Ideal S256 .f32) :
    k0_pay5 (F := Ideal) xq w bias
      = truncf (F := Ideal) .bf16 (addf (F := Ideal) (matmul (F := Ideal) dot_S512x256_S256x256_S512x256_1_0_0_1_n_n none
          (truncf (F := Ideal) .bf16 (shapeCast S512x256 xq shapeCasts_S1x512x256_S512x256) bitsLt_bf16_f32)
          (truncf (F := Ideal) .bf16 (shapeCast S256x256 w shapeCasts_S256x256_S256x256) bitsLt_bf16_f32)
          (constant (F := Ideal) S512x256 .f32 0x00000000#32))
        (broadcastTo S512x256 (shapeCast S1x256 bias shapeCasts_S256_S1x256) broadcasts_S1x256_S512x256)) bitsLt_bf16_f32 :=
  rfl

/-- The queries' projection of a tile of 512 real rows. -/
theorem k0_pay5_apply (xq : Vec Ideal S1x512x256 .f32) (w : Vec Ideal S256x256 .f32) (bias : Vec Ideal S256 .f32)
    (X : Fin 512 → Fin 256 → ℝ) (W : Fin 256 → Fin 256 → ℝ) (B : Fin 256 → ℝ)
    (hx : ∀ r d, xq (ix3 (0 : Fin 1) r d) = ((X r d : ℝ) : EReal))
    (hw : ∀ d e, w (ix2 d e) = ((W e d : ℝ) : EReal)) (hb : ∀ e, bias (ix1 e) = ((B e : ℝ) : EReal))
    (r : Fin 512) (e : Fin 256) :
    k0_pay5 (F := Ideal) xq w bias (ix2 r e) = ((∑ d : Fin 256, X r d * W e d + B e : ℝ) : EReal) := by
  rw [k0_pay5_eq]
  refine (truncf_apply (ψ := .bf16) (φ := .f32) _ bitsLt_bf16_f32 _).trans ?_
  rw [affine512_apply, hb e, ← sum_mul_add_coe]
  refine congrArg (· + ((B e : ℝ) : EReal)) (Finset.sum_congr rfl fun d _ => ?_)
  rw [hw d e, ← hx r d]
  refine congrArg (· * ((W e d : ℝ) : EReal)) ?_
  show shapeCast S512x256 xq shapeCasts_S1x512x256_S512x256 (ix2 r d) = _
  refine shapeCast_apply xq _ (ix2 r d) (ix3 (0 : Fin 1) r d) ?_
  rw [Shape.rowMajor_val_two, Shape.rowMajor_val_three]
  show (0 * 512 + r.val) * 256 + d.val = r.val * 256 + d.val
  omega

end Cert.KernelIdeal.Row

end
-- ==== Proof.Spec.lean ====
/-
  Dense self-attention with a feed-forward head, as mathematics over the reals.

  For a batch `b`, a row `n` and a feature `e`: queries, keys and values are affine images of the input row
  (`q = x · Wqᵀ + bq` and likewise `k`, `v`); the score of row `n` against key row `m` is `⟨q n, k m⟩`
  (unscaled); a row of attention is the softmax of its scores, shifted by the row's largest score; the
  attended row is the softmax-weighted sum of the value rows; the head applies an affine map, normalises
  each row by its mean and variance over the 256 features (with a small positive `eps` under the root), scales
  and shifts by `g`, `beta`, and ends with a leaky rectifier. Everything up to the rectifier is a real number
  when the inputs are; the rectifier is stated on the extended reals with the float comparison and the
  slope's literal word, since both programs spell it with those.
-/
import Mathlib.Data.Finset.Lattice.Fold
import Mathlib.Algebra.BigOperators.Group.Finset.Basic
import Mathlib.Analysis.SpecialFunctions.Exp
import Mathlib.Analysis.SpecialFunctions.Sqrt
import Mathlib.Data.EReal.Basic
import Idealize.ShloMosaic.PureOps.Ideal

noncomputable section

namespace Cert.Spec

open scoped BigOperators
open Idealize.ShloMosaic

/-- The eleven arguments as arrays of real numbers (weights in the `[out, in]` convention). -/
structure Args where
  x : Fin 8 → Fin 2048 → Fin 256 → ℝ
  wq : Fin 256 → Fin 256 → ℝ
  bq : Fin 256 → ℝ
  wk : Fin 256 → Fin 256 → ℝ
  bk : Fin 256 → ℝ
  wv : Fin 256 → Fin 256 → ℝ
  bv : Fin 256 → ℝ
  wo : Fin 256 → Fin 256 → ℝ
  bo : Fin 256 → ℝ
  g : Fin 256 → ℝ
  beta : Fin 256 → ℝ

variable (A : Args)

/-- Queries, keys, values: `x · Wᵀ + b`. -/
def q (b : Fin 8) (n : Fin 2048) (e : Fin 256) : ℝ := ∑ d : Fin 256, A.x b n d * A.wq e d + A.bq e
def k (b : Fin 8) (n : Fin 2048) (e : Fin 256) : ℝ := ∑ d : Fin 256, A.x b n d * A.wk e d + A.bk e
def v (b : Fin 8) (n : Fin 2048) (e : Fin 256) : ℝ := ∑ d : Fin 256, A.x b n d * A.wv e d + A.bv e

/-- The unscaled score of query row `n` against key row `m`. -/
def score (b : Fin 8) (n m : Fin 2048) : ℝ := ∑ d : Fin 256, q A b n d * k A b m d

/-- A row's largest score. -/
def smax (b : Fin 8) (n : Fin 2048) : ℝ := Finset.univ.sup' Finset.univ_nonempty (score A b n)

/-- The softmax weight of key `m` in row `n`. -/
def prob (b : Fin 8) (n m : Fin 2048) : ℝ :=
  Real.exp (score A b n m - smax A b n) / ∑ m' : Fin 2048, Real.exp (score A b n m' - smax A b n)

/-- The attended row. -/
def loc (b : Fin 8) (n : Fin 2048) (d : Fin 256) : ℝ := ∑ m : Fin 2048, prob A b n m * v A b m d

/-- The head's affine map. -/
def h (b : Fin 8) (n : Fin 2048) (e : Fin 256) : ℝ := ∑ d : Fin 256, loc A b n d * A.wo e d + A.bo e

/-- A row's mean and variance over the 256 features. -/
def mean (b : Fin 8) (n : Fin 2048) : ℝ := (∑ e : Fin 256, h A b n e) / 256
def var (b : Fin 8) (n : Fin 2048) : ℝ :=
  (∑ e : Fin 256, (h A b n e - mean A b n) * (h A b n e - mean A b n)) / 256

/-- The normalised, scaled and shifted row. -/
def hn (eps : ℝ) (b : Fin 8) (n : Fin 2048) (e : Fin 256) : ℝ :=
  (h A b n e - mean A b n) / Real.sqrt (var A b n + eps) * A.g e + A.beta e

/-- The leaky rectifier on the extended reals, with the float comparison against zero and the slope's word. -/
def lrelu (y : EReal) : EReal :=
  Scalar.select (FloatOps.cmpf (F := Ideal) .oge y (Ideal.ofBits .f32 0x00000000#32)) y
    (Ideal.ofBits .f32 0x3C23D70A#32 * y)

/-- The result at batch `b`, row `n`, feature `e`. -/
def out (eps : ℝ) (b : Fin 8) (n : Fin 2048) (e : Fin 256) : EReal := lrelu ((hn A eps b n e : ℝ) : EReal)

/-- The variance is not negative, so the root's argument is positive for a positive `eps`. -/
theorem var_nonneg (b : Fin 8) (n : Fin 2048) : 0 ≤ var A b n := by
  unfold var
  exact div_nonneg (Finset.sum_nonneg fun e _ => mul_self_nonneg _) (by norm_num)

end Cert.Spec

end
-- ==== Proof.Consts.lean ====
/-
  The float words the two programs spell, as the extended reals they denote: zero, 256 (the feature count the
  mean and the variance divide by), minus infinity (the running maximum's start) and the small positive
  number under the root.
-/
import proofs.«123646_j33698313404907_2_alg».proof.Proof.LibOnlineSoftmax

noncomputable section

namespace Cert.Consts

open Idealize.ShloMosaic

theorem ofBits_zero : Ideal.ofBits .f32 0x00000000#32 = 0 := by
  simp [Ideal.ofBits, Ideal.ieee]

theorem ofBits_256 : Ideal.ofBits .f32 0x43800000#32 = ((256 : ℝ) : EReal) := by
  simp [Ideal.ofBits, Ideal.ieee, -EReal.coe_mul]; norm_num

theorem ofBits_neg_inf : Ideal.ofBits .f32 0xFF800000#32 = ⊥ := Cert.Lib.OnlineSoftmax.ofBits_f32_neg_inf

/-- The number added to the variance: the float nearest to one hundred-thousandth. -/
def eps : ℝ := 10995116 / 1099511627776

theorem eps_pos : 0 < eps := by unfold eps; norm_num

theorem ofBits_eps : Ideal.ofBits .f32 0x3727C5AC#32 = ((eps : ℝ) : EReal) := by
  unfold eps
  simp [Ideal.ofBits, Ideal.ieee, -EReal.coe_mul]; norm_num

end Cert.Consts

end
-- ==== Proof.LibKeepdims.lean ====
/-
  General lemmas: the "keepdims" column forms of a rank-2 array read at an index.
  A vector of length `n` cast to an `[n, 1]` column, and an `[n, 1]` column broadcast along its unit axis to
  `[n, b]`, each read at an index built with `ix2`.
-/
import Idealize.ShloMosaic.Lib.ValueIdx
import Idealize.ShloMosaic.Lib.Pipeline.Value
import Idealize.ShloMosaic.Lib.ValueLayout

noncomputable section

namespace Keepdims

open Idealize.ShloMosaic Idealize.ShloMosaic.ValueIdx

variable {α : Type}

/-- An `[n, 1]` column broadcast to `[n, b]` reads, at `(p, j)`, the column at `p`. -/
theorem broadcastTo_a1_ab_apply {n b : ℕ} (v : (⟨2, ![n, 1]⟩ : Shape).Idx → α) (h : (⟨2, ![n, 1]⟩ : Shape).Broadcasts ⟨2, ![n, b]⟩)
    (p : Fin n) (j : Fin b) : broadcastTo ⟨2, ![n, b]⟩ v h (ix2 p j) = v (ix2 p (0 : Fin 1)) := by
  refine broadcastTo_apply v h (ix2 p j) (ix2 p (0 : Fin 1)) fun ax => ?_
  match ax with
  | ⟨0, _⟩ =>
    show p.val = if n = 1 then 0 else p.val
    split
    · have := p.isLt; omega
    · rfl
  | ⟨1, _⟩ => rfl

/-- A length-`n` vector cast to an `[n, 1]` column reads, at `(p, 0)`, the vector at `p`. -/
theorem shapeCast_a_a1_apply {n : ℕ} (v : (⟨1, ![n]⟩ : Shape).Idx → α) (h : (⟨1, ![n]⟩ : Shape).ShapeCasts ⟨2, ![n, 1]⟩)
    (p : Fin n) : shapeCast ⟨2, ![n, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

end Keepdims

end
-- ==== Proof.IdealNorm.lean ====
/-
  The head's normalisation and leaky rectifier, at the ideal values.

  Given the head's affine image `H` of a tile of 512 rows as real numbers `hr r e`, the kernel takes each row's
  sum over its 256 features and divides by 256 (the mean), subtracts the mean, sums the squares of the
  differences and divides by 256 (the variance), adds the small positive number, takes the reciprocal root,
  scales the centred row by it and by `g`, shifts by `beta`, and ends with the rectifier.  All of it stays
  among the real numbers: the divisor 256 is not zero and the root's argument is positive.  Read at row `r`
  and feature `e` the result is the rectifier of `(hr r e - mean) / sqrt (var + eps) * g e + beta e`.
-/
import proofs.«123646_j33698313404907_2_alg».proof.Proof.Gen.KernelIdeal.Skeleton
import proofs.«123646_j33698313404907_2_alg».proof.Proof.Spec
import proofs.«123646_j33698313404907_2_alg».proof.Proof.Consts
import proofs.«123646_j33698313404907_2_alg».proof.Proof.LibKeepdims
import proofs.«123646_j33698313404907_2_alg».proof.Proof.LibOnlineSoftmax
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Norm

open Cert.KernelIdeal Cert.KernelIdeal.Gen
open Idealize.ShloMosaic Idealize.ShloMosaic.ValueIdx

/-! ## The row statistics over the reals -/

/-- A row's mean over its 256 features. -/
def mu (hr : Fin 512 → Fin 256 → ℝ) (r : Fin 512) : ℝ := (∑ e : Fin 256, hr r e) / 256

/-- A row's variance over its 256 features. -/
def va (hr : Fin 512 → Fin 256 → ℝ) (r : Fin 512) : ℝ :=
  (∑ e : Fin 256, (hr r e - mu hr r) * (hr r e - mu hr r)) / 256

theorem va_nonneg (hr : Fin 512 → Fin 256 → ℝ) (r : Fin 512) : 0 ≤ va hr r := by
  unfold va
  exact div_nonneg (Finset.sum_nonneg fun e _ => mul_self_nonneg _) (by norm_num)

/-! ## Layout -/

/-- A length-`n` vector cast to a `[1, n]` row and repeated along `m` rows reads, at `(r, e)`, the vector at `e`. -/
theorem bias_row_apply {m n : ℕ} {α : Type} (v : (⟨1, ![n]⟩ : Shape).Idx → α)
    (h : (⟨1, ![n]⟩ : Shape).ShapeCasts ⟨2, ![1, n]⟩) (h' : (⟨2, ![1, n]⟩ : Shape).Broadcasts ⟨2, ![m, n]⟩)
    (r : Fin m) (e : Fin n) :
    broadcastTo ⟨2, ![m, n]⟩ (shapeCast ⟨2, ![1, n]⟩ v h) h' (ix2 r e) = v (ix1 e) := by
  refine (broadcastTo_apply _ h' (ix2 r e) (ix2 (0 : Fin 1) e) fun ax => ?_).trans ?_
  · match ax with
    | ⟨0, _⟩ => rfl
    | ⟨1, _⟩ =>
      show e.val = if n = 1 then 0 else e.val
      split
      · have := e.isLt; omega
      · rfl
  · refine shapeCast_apply v h (ix2 (0 : Fin 1) e) (ix1 e) ?_
    rw [Shape.rowMajor_val_one, Shape.rowMajor_val_two]
    show e.val = 0 * n + e.val
    omega

/-- The index a reduction over the last axis of a `[512, 256]` array puts over row `r` at coordinate `k`. -/
theorem lift_last (r : Fin 512) (k : Fin 256) : (reduces_S512x256_S512).lift (ix1 r) k = ix2 r k := by
  funext c
  apply Fin.ext
  match c with
  | ⟨0, _⟩ => rfl
  | ⟨1, _⟩ => rfl

/-- A row sum of an array of real numbers, kept as a `[512, 1]` column, is the real sum. -/
theorem rowsum_apply (X : FVec Ideal S512x256 .f32) (x : Fin 512 → Fin 256 → ℝ)
    (hX : ∀ r e, X (ix2 r e) = ((x r e : ℝ) : EReal)) (r : Fin 512) :
    shapeCast S512x1 (multiReduction (F := Ideal) .add [1] S512 X 0x00000000#32 reduces_S512x256_S512 (.inl rfl) rfl)
        shapeCasts_S512_S512x1 (ix2 r (0 : Fin 1))
      = ((∑ e : Fin 256, x r e : ℝ) : EReal) := by
  refine (Keepdims.shapeCast_a_a1_apply _ shapeCasts_S512_S512x1 r).trans ?_
  refine (Ideal.multiReduction_add_single X _ reduces_S512x256_S512 _ _ (ix1 r)).trans ?_
  rw [Cert.Lib.OnlineSoftmax.coe_finset_sum]
  show ∑ k : Fin 256, X ((reduces_S512x256_S512).lift (ix1 r) k) = _
  refine Finset.sum_congr rfl fun k _ => ?_
  rw [lift_last]
  exact hX r k

/-! ## The kernel's terms -/

/-- The column of row means, as the kernel computes it from `H`. -/
def meanCol (H : FVec Ideal S512x256 .f32) : FVec Ideal S512x1 .f32 :=
  divf (shapeCast S512x1 (multiReduction (F := Ideal) .add [1] S512 H 0x00000000#32 reduces_S512x256_S512 (.inl rfl) rfl)
      shapeCasts_S512_S512x1)
    (broadcast S512x1 (Scalar.ofBits (F := Ideal) .f32 0x43800000#32))

/-- The column of row sums of squared differences from the mean, as the kernel computes it from `H`. -/
def sqCol (H : FVec Ideal S512x256 .f32) : FVec Ideal S512x1 .f32 :=
  shapeCast S512x1 (multiReduction (F := Ideal) .add [1] S512
      (mulf (subf H (broadcastTo S512x256 (meanCol H) broadcasts_S512x1_S512x256))
        (subf H (broadcastTo S512x256 (meanCol H) broadcasts_S512x1_S512x256)))
      0x00000000#32 reduces_S512x256_S512 (.inl rfl) rfl) shapeCasts_S512_S512x1

/-- The value the rectifier is applied to, from `H`, a column `M` of means, a column `V` of sums of squares, and
    the scale and shift. -/
def pre (H : FVec Ideal S512x256 .f32) (M V : FVec Ideal S512x1 .f32) (ga be : Vec Ideal S256 .f32) :
    FVec Ideal S512x256 .f32 :=
  addf
    (mulf
      (mulf (subf H (broadcastTo S512x256 M broadcasts_S512x1_S512x256))
        (broadcastTo S512x256
          (rsqrt (addf (divf V (broadcast S512x1 (Scalar.ofBits (F := Ideal) .f32 0x43800000#32)))
            (broadcast S512x1 (Scalar.ofBits (F := Ideal) .f32 0x3727C5AC#32))))
          broadcasts_S512x1_S512x256))
      (broadcastTo S512x256 (shapeCast S1x256 ga shapeCasts_S256_S1x256) broadcasts_S1x256_S512x256))
    (broadcastTo S512x256 (shapeCast S1x256 be shapeCasts_S256_S1x256) broadcasts_S1x256_S512x256)

section
variable (H : FVec Ideal S512x256 .f32) (hr : Fin 512 → Fin 256 → ℝ)
  (hH : ∀ r e, H (ix2 r e) = ((hr r e : ℝ) : EReal))
include hH

/-- The mean column holds the rows' means. -/
theorem meanCol_apply (r : Fin 512) : meanCol H (ix2 r (0 : Fin 1)) = ((mu hr r : ℝ) : EReal) := by
  unfold meanCol
  refine (divf_apply _ _ _).trans ?_
  rw [rowsum_apply H hr hH r]
  show Ideal.div _ (Ideal.ofBits .f32 0x43800000#32) = _
  rw [Cert.Consts.ofBits_256]
  exact Cert.Lib.OnlineSoftmax.div_coe_coe _ (by norm_num)

/-- The column of sums of squares holds the rows' sums of squared differences from the mean. -/
theorem sqCol_apply (r : Fin 512) :
    sqCol H (ix2 r (0 : Fin 1)) = ((∑ e : Fin 256, (hr r e - mu hr r) * (hr r e - mu hr r) : ℝ) : EReal) := by
  unfold sqCol
  refine rowsum_apply _ (fun r e => (hr r e - mu hr r) * (hr r e - mu hr r)) (fun r e => ?_) r
  refine (mulf_apply _ _ _).trans ?_
  rw [subf_apply, Keepdims.broadcastTo_a1_ab_apply, meanCol_apply H hr hH r, hH r e, ← EReal.coe_sub, ← EReal.coe_mul]

end

/-- The stored tile in terms of the value under the rectifier. -/
theorem k0_pay1_eq (H : FVec Ideal S512x256 .f32) (M V : FVec Ideal S512x1 .f32) (ga be : Vec Ideal S256 .f32) :
    k0_pay1 (F := Ideal) H M V ga be
      = shapeCast S1x512x256
          (select (cmpf .oge (pre H M V ga be) (broadcast S512x256 (Scalar.ofBits (F := Ideal) .f32 0x00000000#32)))
            (pre H M V ga be)
            (mulf (broadcast S512x256 (Scalar.ofBits (F := Ideal) .f32 0x3C23D70A#32)) (pre H M V ga be)))
          shapeCasts_S512x256_S1x512x256 := rfl

section
variable (H : FVec Ideal S512x256 .f32) (hr : Fin 512 → Fin 256 → ℝ)
  (hH : ∀ r e, H (ix2 r e) = ((hr r e : ℝ) : EReal))
  (ga be : Vec Ideal S256 .f32) (g beta : Fin 256 → ℝ)
  (hg : ∀ e, ga (ix1 e) = ((g e : ℝ) : EReal)) (hb : ∀ e, be (ix1 e) = ((beta e : ℝ) : EReal))
include hH hg hb

/-- The value under the rectifier is the normalised, scaled and shifted entry, a real number. -/
theorem pre_apply (r : Fin 512) (e : Fin 256) :
    pre H (meanCol H) (sqCol H) ga be (ix2 r e)
      = (((hr r e - mu hr r) / Real.sqrt (va hr r + Cert.Consts.eps) * g e + beta e : ℝ) : EReal) := by
  have hv : 0 < va hr r + Cert.Consts.eps := add_pos_of_nonneg_of_pos (va_nonneg hr r) Cert.Consts.eps_pos
  have hrs : rsqrt (addf (divf (sqCol H) (broadcast S512x1 (Scalar.ofBits (F := Ideal) .f32 0x43800000#32)))
        (broadcast S512x1 (Scalar.ofBits (F := Ideal) .f32 0x3727C5AC#32))) (ix2 r (0 : Fin 1))
      = (((Real.sqrt (va hr r + Cert.Consts.eps))⁻¹ : ℝ) : EReal) := by
    show Ideal.rsqrt (Ideal.div (sqCol H (ix2 r (0 : Fin 1))) (Ideal.ofBits .f32 0x43800000#32)
      + Ideal.ofBits .f32 0x3727C5AC#32) = _
    rw [sqCol_apply H hr hH r, Cert.Consts.ofBits_256, Cert.Consts.ofBits_eps,
      Cert.Lib.OnlineSoftmax.div_coe_coe _ (by norm_num : (256 : ℝ) ≠ 0), ← EReal.coe_add]
    show Ideal.rsqrt ((va hr r + Cert.Consts.eps : ℝ) : EReal) = _
    rw [Ideal.rsqrt_coe, if_neg (not_lt.mpr hv.le), if_neg hv.ne']
  unfold pre
  refine (addf_apply _ _ _).trans ?_
  rw [mulf_apply, mulf_apply, subf_apply, Keepdims.broadcastTo_a1_ab_apply, Keepdims.broadcastTo_a1_ab_apply,
    bias_row_apply, bias_row_apply, hrs, meanCol_apply H hr hH r, hH r e, hg e, hb e,
    ← EReal.coe_sub, ← EReal.coe_mul, ← EReal.coe_mul, ← EReal.coe_add, div_eq_mul_inv]

/-- The stored tile at `(0, r, e)`: the rectifier of the normalised, scaled and shifted entry. -/
theorem tail_apply (r : Fin 512) (e : Fin 256) :
    k0_pay1 (F := Ideal) H (meanCol H) (sqCol H) ga be (ix3 (0 : Fin 1) r e)
      = Cert.Spec.lrelu (((hr r e - mu hr r) / Real.sqrt (va hr r + Cert.Consts.eps) * g e + beta e : ℝ) : EReal) := by
  rw [k0_pay1_eq]
  refine (shapeCast_apply _ shapeCasts_S512x256_S1x512x256 (ix3 (0 : Fin 1) r e) (ix2 r e) ?_).trans ?_
  · rw [Shape.rowMajor_val_two, Shape.rowMajor_val_three]
    show r.val * 256 + e.val = (0 * 512 + r.val) * 256 + e.val
    omega
  · rw [← pre_apply H hr hH ga be g beta hg hb r e]
    rfl

end

/-- The kernel's mean column is `meanCol` of its affine image. -/
theorem k0_pay26_eq (v14 : FVec Ideal S512x256 .bf16) (v63 : Vec Ideal S512x256 .bf16) (v68 : FVec Ideal S512x1 .f32)
    (v74 : FVec Ideal S512x512 .bf16) (v79 : FVec Ideal S512x1 .f32) (v81 : FVec Ideal S512x256 .f32)
    (v84 v85 : Vec Ideal S512x256 .bf16) (v109 : Vec Ideal S256x256 .f32) (v113 : Vec Ideal S256 .f32) :
    k0_pay26 (F := Ideal) v14 v63 v68 v74 v79 v81 v84 v85 v109 v113
      = meanCol (k0_pay25 (F := Ideal) v14 v63 v68 v74 v79 v81 v84 v85 v109 v113) := rfl

/-- The kernel's column of sums of squares is `sqCol` of its affine image. -/
theorem k0_pay27_eq (v14 : FVec Ideal S512x256 .bf16) (v63 : Vec Ideal S512x256 .bf16) (v68 : FVec Ideal S512x1 .f32)
    (v74 : FVec Ideal S512x512 .bf16) (v79 : FVec Ideal S512x1 .f32) (v81 : FVec Ideal S512x256 .f32)
    (v84 v85 : Vec Ideal S512x256 .bf16) (v109 : Vec Ideal S256x256 .f32) (v113 : Vec Ideal S256 .f32) :
    k0_pay27 (F := Ideal) v14 v63 v68 v74 v79 v81 v84 v85 v109 v113
      = sqCol (k0_pay25 (F := Ideal) v14 v63 v68 v74 v79 v81 v84 v85 v109 v113) := rfl

/-- THE TAIL OF THE KERNEL: whatever the ten values the head's affine image is computed from, if that image is the
    array of real numbers `hr` and the scale and shift are the real vectors `g`, `beta`, the stored tile at
    `(0, r, e)` is the rectifier of `(hr r e - mean) / sqrt (var + eps) * g e + beta e`. -/
theorem norm_tail_apply (v14 : FVec Ideal S512x256 .bf16) (v63 : Vec Ideal S512x256 .bf16) (v68 : FVec Ideal S512x1 .f32)
    (v74 : FVec Ideal S512x512 .bf16) (v79 : FVec Ideal S512x1 .f32) (v81 : FVec Ideal S512x256 .f32)
    (v84 v85 : Vec Ideal S512x256 .bf16) (v109 : Vec Ideal S256x256 .f32) (v113 : Vec Ideal S256 .f32)
    (ga be : Vec Ideal S256 .f32) (hr : Fin 512 → Fin 256 → ℝ) (g beta : Fin 256 → ℝ)
    (hH : ∀ r e, k0_pay25 (F := Ideal) v14 v63 v68 v74 v79 v81 v84 v85 v109 v113 (ix2 r e) = ((hr r e : ℝ) : EReal))
    (hg : ∀ e, ga (ix1 e) = ((g e : ℝ) : EReal)) (hb : ∀ e, be (ix1 e) = ((beta e : ℝ) : EReal))
    (r : Fin 512) (e : Fin 256) :
    k0_pay1 (F := Ideal) (k0_pay25 (F := Ideal) v14 v63 v68 v74 v79 v81 v84 v85 v109 v113)
        (k0_pay26 (F := Ideal) v14 v63 v68 v74 v79 v81 v84 v85 v109 v113)
        (k0_pay27 (F := Ideal) v14 v63 v68 v74 v79 v81 v84 v85 v109 v113) ga be (ix3 (0 : Fin 1) r e)
      = Cert.Spec.lrelu (((hr r e - mu hr r) / Real.sqrt (va hr r + Cert.Consts.eps) * g e + beta e : ℝ) : EReal) := by
  rw [k0_pay26_eq, k0_pay27_eq]
  exact tail_apply _ hr hH ga be g beta hg hb r e

/-! ## The statistics against the specification's -/

section
variable (A : Cert.Spec.Args) (b : Fin 8) (f : Fin 512 → Fin 2048)

/-- With the head's affine image of the rows `f r` for `hr`, the row mean is the specification's. -/
theorem mu_spec (r : Fin 512) : mu (fun r e => Cert.Spec.h A b (f r) e) r = Cert.Spec.mean A b (f r) := rfl

/-- … the row variance is the specification's … -/
theorem va_spec (r : Fin 512) : va (fun r e => Cert.Spec.h A b (f r) e) r = Cert.Spec.var A b (f r) := rfl

/-- … and the normalised, scaled and shifted entry is the specification's. -/
theorem hn_spec (eps : ℝ) (r : Fin 512) (e : Fin 256) :
    (Cert.Spec.h A b (f r) e - mu (fun r e => Cert.Spec.h A b (f r) e) r)
        / Real.sqrt (va (fun r e => Cert.Spec.h A b (f r) e) r + eps) * A.g e + A.beta e
      = Cert.Spec.hn A eps b (f r) e := rfl

end

end Cert.KernelIdeal.Norm

end
-- ==== Proof.IdealAttnBlock.lean ====
/-
  One key block of the attention walk, read at an index.

  The query tile `Q` (512 rows of 256 features) meets a block of 512 keys `K` and values `V`. The block's scores
  are the products `Q · Kᵀ`; from the running maximum `m`, denominator `l` and numerator `acc` the step makes the new
  maximum `max m (row maximum of the scores)`, the factor `exp (m - new maximum)`, the shifted exponentials of the
  scores, and the rescaled sums plus the block's own terms. This file names those five arrays and reads each at an
  index as the extended-real expression over the entries of `Q`, `K`, `V`, `m`, `l`, `acc` there.
-/
import proofs.«123646_j33698313404907_2_alg».proof.Proof.Gen.KernelIdeal.Skeleton
import proofs.«123646_j33698313404907_2_alg».proof.Proof.LibPlainDot
import proofs.«123646_j33698313404907_2_alg».proof.Proof.LibKeepdims
import proofs.«123646_j33698313404907_2_alg».proof.Proof.LibOnlineSoftmax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open scoped BigOperators
open Cert.KernelIdeal Cert.KernelIdeal.Gen
open Idealize.ShloMosaic Idealize.ShloMosaic.ValueIdx

/-! ## The two matrix products' dimension numbers are plain -/

theorem dotS_l0 (j : S512x512.Idx) (q : dot_S512x256_S256x512_S512x512_1_0_0_1_n_n.contr.Idx) :
    (dot_S512x256_S256x512_S512x512_1_0_0_1_n_n.lhsIdx j q 0).val = (j 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
theorem dotS_l1 (j : S512x512.Idx) (q : dot_S512x256_S256x512_S512x512_1_0_0_1_n_n.contr.Idx) :
    (dot_S512x256_S256x512_S512x512_1_0_0_1_n_n.lhsIdx j q 1).val = (q ⟨0, by decide⟩).val :=
  dot_S512x256_S256x512_S512x512_1_0_0_1_n_n.lhsIdx_val_of_single rfl j q
theorem dotS_r0 (j : S512x512.Idx) (q : dot_S512x256_S256x512_S512x512_1_0_0_1_n_n.contr.Idx) :
    (dot_S512x256_S256x512_S512x512_1_0_0_1_n_n.rhsIdx j q 0).val = (q ⟨0, by decide⟩).val :=
  dot_S512x256_S256x512_S512x512_1_0_0_1_n_n.rhsIdx_val_of_single rfl j q
theorem dotS_r1 (j : S512x512.Idx) (q : dot_S512x256_S256x512_S512x512_1_0_0_1_n_n.contr.Idx) :
    (dot_S512x256_S256x512_S512x512_1_0_0_1_n_n.rhsIdx j q 1).val = (j 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

theorem dotV_l0 (j : S512x256.Idx) (q : dot_S512x512_S512x256_S512x256_1_0_0_1_n_n.contr.Idx) :
    (dot_S512x512_S512x256_S512x256_1_0_0_1_n_n.lhsIdx j q 0).val = (j 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem dotV_l1 (j : S512x256.Idx) (q : dot_S512x512_S512x256_S512x256_1_0_0_1_n_n.contr.Idx) :
    (dot_S512x512_S512x256_S512x256_1_0_0_1_n_n.lhsIdx j q 1).val = (q ⟨0, by decide⟩).val :=
  dot_S512x512_S512x256_S512x256_1_0_0_1_n_n.lhsIdx_val_of_single rfl j q
theorem dotV_r0 (j : S512x256.Idx) (q : dot_S512x512_S512x256_S512x256_1_0_0_1_n_n.contr.Idx) :
    (dot_S512x512_S512x256_S512x256_1_0_0_1_n_n.rhsIdx j q 0).val = (q ⟨0, by decide⟩).val :=
  dot_S512x512_S512x256_S512x256_1_0_0_1_n_n.rhsIdx_val_of_single rfl j q
theorem dotV_r1 (j : S512x256.Idx) (q : dot_S512x512_S512x256_S512x256_1_0_0_1_n_n.contr.Idx) :
    (dot_S512x512_S512x256_S512x256_1_0_0_1_n_n.rhsIdx j q 1).val = (j 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-! ## Rows of a 512 × 512 array -/

/-- The row index `r` with the coordinate `k` put back on the last axis is `(r, k)`. -/
theorem lift_row (h : S512x512.Reduces [1] S512) (r : Fin 512) (k : Fin (S512x512.size 1)) :
    h.lift (ix1 r) k = ix2 r (⟨k.val, k.isLt⟩ : Fin 512) := by
  funext d; apply Fin.ext
  fin_cases d <;> rfl

/-- A row sum, kept as a column: at `(r, 0)` the sum of row `r`. -/
theorem rowsum_apply (p : FVec Ideal S512x512 .f32) (hr : S512x512.Reduces [1] S512) (hc : S512.ShapeCasts S512x1) (r : Fin 512) :
    shapeCast S512x1 (multiReduction (F := Ideal) .add [1] S512 p 0x00000000#32 hr (.inl rfl) rfl) hc (ix2 r (0 : Fin 1))
      = ∑ c : Fin 512, p (ix2 r c) := by
  rw [Keepdims.shapeCast_a_a1_apply]
  refine (Ideal.multiReduction_add_single p 0x00000000#32 hr (.inl rfl) rfl (ix1 r)).trans ?_
  exact Finset.sum_congr rfl fun k _ => by rw [lift_row hr r k]; rfl

/-- A row maximum from minus infinity, kept as a column: at `(r, 0)` the fold of `max` over row `r`. -/
theorem rowmax_apply (s : FVec Ideal S512x512 .f32) (hr : S512x512.Reduces [1] S512) (hc : S512.ShapeCasts S512x1) (r : Fin 512) :
    shapeCast S512x1 (multiReduction (F := Ideal) .maximumf [1] S512 s 0xFF800000#32 hr (.inl rfl) rfl) hc (ix2 r (0 : Fin 1))
      = (Finset.univ : Finset (Fin 512)).fold max (FloatOps.ofBits (F := Ideal) .f32 0xFF800000#32) (fun c => s (ix2 r c)) := by
  rw [Keepdims.shapeCast_a_a1_apply]
  refine (Ideal.multiReduction_maximumf_single s 0xFF800000#32 hr (.inl rfl) rfl (ix1 r)).trans ?_
  refine congrArg (fun g => (Finset.univ : Finset (Fin 512)).fold max (FloatOps.ofBits (F := Ideal) .f32 0xFF800000#32) g) ?_
  funext k
  show s (hr.lift (ix1 r) k) = _
  rw [lift_row hr r k]; rfl

/-! ## The step's five arrays -/

/-- The block's scores `Q · Kᵀ`. -/
def stepS (Q K : FVec Ideal S512x256 .bf16) : FVec Ideal S512x512 .f32 :=
  matmul dot_S512x256_S256x512_S512x512_1_0_0_1_n_n none Q (transpose S256x512 [1, 0] K transposes_S512x256_p1_0_S256x512)
    (constant S512x512 .f32 0x00000000#32)

/-- The new running maximum. -/
def stepM (Q K : FVec Ideal S512x256 .bf16) (m : FVec Ideal S512x1 .f32) : FVec Ideal S512x1 .f32 :=
  maximumf m (shapeCast S512x1 (multiReduction .maximumf [1] S512 (stepS Q K) 0xFF800000#32 reduces_S512x512_S512 (.inl rfl) rfl)
    shapeCasts_S512_S512x1)

/-- The rescaling factor `exp (m - new maximum)`. -/
def stepA (Q K : FVec Ideal S512x256 .bf16) (m : FVec Ideal S512x1 .f32) : FVec Ideal S512x1 .f32 :=
  exp (subf m (stepM Q K m))

/-- The shifted exponentials of the scores. -/
def stepP (Q K : FVec Ideal S512x256 .bf16) (m : FVec Ideal S512x1 .f32) : FVec Ideal S512x512 .f32 :=
  exp (subf (stepS Q K) (broadcastTo S512x512 (stepM Q K m) broadcasts_S512x1_S512x512))

/-- The new denominator. -/
def stepL (Q K : FVec Ideal S512x256 .bf16) (m l : FVec Ideal S512x1 .f32) : FVec Ideal S512x1 .f32 :=
  addf (mulf (stepA Q K m) l)
    (shapeCast S512x1 (multiReduction .add [1] S512 (stepP Q K m) 0x00000000#32 reduces_S512x512_S512 (.inl rfl) rfl) shapeCasts_S512_S512x1)

/-- The new numerator. -/
def stepAcc (Q K V : FVec Ideal S512x256 .bf16) (m : FVec Ideal S512x1 .f32) (acc : FVec Ideal S512x256 .f32) : FVec Ideal S512x256 .f32 :=
  addf (mulf (broadcastTo S512x256 (stepA Q K m) broadcasts_S512x1_S512x256) acc)
    (matmul dot_S512x512_S512x256_S512x256_1_0_0_1_n_n none (truncf .bf16 (stepP Q K m) bitsLt_bf16_f32) V (constant S512x256 .f32 0x00000000#32))

section Reads

variable (Q K V : FVec Ideal S512x256 .bf16) (m l : FVec Ideal S512x1 .f32) (acc : FVec Ideal S512x256 .f32)

/-- A score is the product of a query row with a key row. -/
theorem stepS_apply (r c : Fin 512) : stepS Q K (ix2 r c) = ∑ d : Fin 256, Q (ix2 r d) * K (ix2 c d) := by
  unfold stepS
  refine (Cert.Lib.PlainDot.matmul_zero_apply dot_S512x256_S256x512_S512x512_1_0_0_1_n_n rfl rfl dotS_l0 dotS_l1 dotS_r0 dotS_r1 none Q _ (ix2 r c)).trans ?_
  refine Finset.sum_congr rfl fun d _ => ?_
  show Q (ix2 r d) * transpose S256x512 [1, 0] K transposes_S512x256_p1_0_S256x512 (ix2 d c) = _
  rw [transpose_ix2_apply]

theorem stepM_apply (r : Fin 512) :
    stepM Q K m (ix2 r (0 : Fin 1)) = max (m (ix2 r (0 : Fin 1)))
      ((Finset.univ : Finset (Fin 512)).fold max (FloatOps.ofBits (F := Ideal) .f32 0xFF800000#32) (fun c => stepS Q K (ix2 r c))) := by
  unfold stepM
  rw [maximumf_apply, rowmax_apply]

theorem stepA_apply (r : Fin 512) :
    stepA Q K m (ix2 r (0 : Fin 1)) = Ideal.exp (m (ix2 r (0 : Fin 1)) - stepM Q K m (ix2 r (0 : Fin 1))) := rfl

theorem stepP_apply (r c : Fin 512) :
    stepP Q K m (ix2 r c) = Ideal.exp (stepS Q K (ix2 r c) - stepM Q K m (ix2 r (0 : Fin 1))) := by
  unfold stepP
  show Ideal.exp (stepS Q K (ix2 r c) - broadcastTo S512x512 (stepM Q K m) broadcasts_S512x1_S512x512 (ix2 r c)) = _
  rw [Keepdims.broadcastTo_a1_ab_apply]

theorem stepL_apply (r : Fin 512) :
    stepL Q K m l (ix2 r (0 : Fin 1))
      = Ideal.exp (m (ix2 r (0 : Fin 1)) - stepM Q K m (ix2 r (0 : Fin 1))) * l (ix2 r (0 : Fin 1))
        + ∑ c : Fin 512, Ideal.exp (stepS Q K (ix2 r c) - stepM Q K m (ix2 r (0 : Fin 1))) := by
  unfold stepL
  rw [addf_apply, mulf_apply, rowsum_apply, stepA_apply]
  congr 1
  exact Finset.sum_congr rfl fun c _ => stepP_apply Q K m r c

theorem stepAcc_apply (r : Fin 512) (d : Fin 256) :
    stepAcc Q K V m acc (ix2 r d)
      = Ideal.exp (m (ix2 r (0 : Fin 1)) - stepM Q K m (ix2 r (0 : Fin 1))) * acc (ix2 r d)
        + ∑ c : Fin 512, Ideal.exp (stepS Q K (ix2 r c) - stepM Q K m (ix2 r (0 : Fin 1))) * V (ix2 c d) := by
  unfold stepAcc
  rw [addf_apply, mulf_apply, Keepdims.broadcastTo_a1_ab_apply, stepA_apply]
  congr 1
  refine (Cert.Lib.PlainDot.matmul_zero_apply dot_S512x512_S512x256_S512x256_1_0_0_1_n_n rfl rfl dotV_l0 dotV_l1 dotV_r0 dotV_r1 none _ V (ix2 r d)).trans ?_
  refine Finset.sum_congr rfl fun c _ => ?_
  show stepP Q K m (ix2 r c) * V (ix2 c d) = _
  rw [stepP_apply]

end Reads

end Cert.KernelIdeal.Hand

end
-- ==== Proof.LibKeyBlocks.lean ====
/-
  Blocks of consecutive keys.

  Among `n * b` keys, numbered `0 … n * b - 1`, block `t : Fin n` is the `b` consecutive keys
  `b * t, …, b * t + b - 1`: the key at position `j : Fin b` of block `t` has the number `j + b * t`, and is
  `finProdFinEquiv (t, j) : Fin (n * b)`. This file names the set of keys of one block (`blockSet`) and the set
  of keys of the blocks before a given one (`seenSet`), says when a key is in each in terms of its number,
  reads a sum and a maximum over a block as a sum and a maximum over the positions `j : Fin b`, and shows that
  the blocks walked in order exhaust the keys: `seenSet 0 = ∅`, `seenSet t ∪ blockSet t = seenSet (t + 1)`
  disjointly, `seenSet n` is everything.

  With these the online softmax's closed forms over sets of keys become statements about a walk over the
  blocks `t = 0, 1, …, n - 1`: the first block (`online_first`), a later block (`online_step`) and the final
  quotient, which is the softmax-weighted sum over all keys at the global maximum (`online_last`).

  On `Fin (n * b)` at literal sizes: `4 * 512` and `2048` are the same natural number by evaluation, so
  `Fin (4 * 512)` and `Fin 2048` are the same type by definition and a function on `Fin 2048` is accepted where
  one on `Fin (4 * 512)` is expected, with no cast; and `finProdFinEquiv (t, j)` is by definition the key
  `⟨j + 512 * t, _⟩`. The last section restates the three walk theorems at `n = 4`, `b = 512` over `Fin 2048` with
  the key written that way, for a use that wants the literal forms.
-/
import Mathlib.Data.Finset.Lattice.Fold
import Mathlib.Logic.Equiv.Fin.Basic
import Mathlib.Algebra.BigOperators.Group.Finset.Basic
import Mathlib.Analysis.SpecialFunctions.Exp
import proofs.«123646_j33698313404907_2_alg».proof.Proof.LibOnlineSoftmax

namespace Cert.Lib.KeyBlocks

open scoped BigOperators
open Cert.Lib.OnlineSoftmax

/-! ## The sets of keys -/

/-- The keys of block `t`: those numbered `b * t ≤ k < b * t + b`. -/
def blockSet (n b : ℕ) (t : Fin n) : Finset (Fin (n * b)) :=
  Finset.univ.filter fun k => b * t.val ≤ k.val ∧ k.val < b * t.val + b

/-- The keys of the blocks with index `< s`: those numbered `k < b * s`. -/
def seenSet (n b s : ℕ) : Finset (Fin (n * b)) :=
  Finset.univ.filter fun k => k.val < b * s

variable {n b : ℕ}

/-- A key is in block `t` iff its number is in `[b * t, b * t + b)`. -/
theorem mem_blockSet {t : Fin n} {k : Fin (n * b)} :
    k ∈ blockSet n b t ↔ b * t.val ≤ k.val ∧ k.val < b * t.val + b := by
  simp [blockSet]

/-- A key is among those of the blocks before `s` iff its number is `< b * s`. -/
theorem mem_seenSet {s : ℕ} {k : Fin (n * b)} : k ∈ seenSet n b s ↔ k.val < b * s := by
  simp [seenSet]

/-- Position `j` of block `t` as a key: an embedding of the positions into the keys. -/
def blockEmb (n b : ℕ) (t : Fin n) : Fin b ↪ Fin (n * b) :=
  ⟨fun j => finProdFinEquiv (t, j), fun _ _ h => (Prod.mk.inj (finProdFinEquiv.injective h)).2⟩

@[simp] theorem blockEmb_apply (t : Fin n) (j : Fin b) : blockEmb n b t j = finProdFinEquiv (t, j) := rfl

/-- The key at position `j` of block `t` is in block `t`. -/
theorem blockKey_mem_blockSet (t : Fin n) (j : Fin b) : finProdFinEquiv (t, j) ∈ blockSet n b t := by
  rw [mem_blockSet, blockKey_val]
  have := j.isLt
  omega

/-- Block `t` is the set of the keys at its `b` positions. -/
theorem blockSet_eq_map (t : Fin n) : blockSet n b t = Finset.univ.map (blockEmb n b t) := by
  ext k
  simp only [Finset.mem_map, Finset.mem_univ, true_and, blockEmb_apply]
  constructor
  · intro hk
    obtain ⟨h1, h2⟩ := mem_blockSet.1 hk
    refine ⟨⟨k.val - b * t.val, by omega⟩, Fin.ext ?_⟩
    rw [blockKey_val]
    show k.val - b * t.val + b * t.val = k.val
    omega
  · rintro ⟨j, rfl⟩
    exact blockKey_mem_blockSet t j

/-! ## Sums and maxima over a block -/

/-- A sum over the keys of block `t` is the sum over its positions. -/
theorem sum_blockSet {M : Type*} [AddCommMonoid M] (f : Fin (n * b) → M) (t : Fin n) :
    ∑ k ∈ blockSet n b t, f k = ∑ j : Fin b, f (finProdFinEquiv (t, j)) := by
  rw [blockSet_eq_map, Finset.sum_map]
  rfl

/-- The maximum over the keys of block `t` is the maximum over its positions. -/
theorem sup'_blockSet {α : Type*} [SemilatticeSup α] (f : Fin (n * b) → α) (t : Fin n)
    (h : (blockSet n b t).Nonempty) (h' : (Finset.univ : Finset (Fin b)).Nonempty) :
    (blockSet n b t).sup' h f = Finset.univ.sup' h' fun j : Fin b => f (finProdFinEquiv (t, j)) := by
  refine eq_of_forall_ge_iff fun c => ?_
  simp only [Finset.sup'_le_iff, Finset.mem_univ, true_imp_iff]
  constructor
  · intro hc j
    exact hc _ (blockKey_mem_blockSet t j)
  · intro hc k hk
    rw [blockSet_eq_map] at hk
    obtain ⟨j, -, rfl⟩ := Finset.mem_map.1 hk
    exact hc j

/-! ## Nonemptiness -/

/-- The positions of a block of positive width are not empty. -/
theorem univ_pos_nonempty (hb : 0 < b) : (Finset.univ : Finset (Fin b)).Nonempty :=
  ⟨⟨0, hb⟩, Finset.mem_univ _⟩

/-- A block of positive width is not empty. -/
theorem blockSet_nonempty (n b : ℕ) (hb : 0 < b) (t : Fin n) : (blockSet n b t).Nonempty :=
  ⟨finProdFinEquiv (t, ⟨0, hb⟩), blockKey_mem_blockSet t _⟩

/-- The keys before block `s` are not empty once `0 < s`, for a positive width and at least one block. -/
theorem seenSet_nonempty (n b : ℕ) {s : ℕ} (hs : 0 < s) (hb : 0 < b) (hn : 0 < n) : (seenSet n b s).Nonempty :=
  ⟨⟨0, Nat.mul_pos hn hb⟩, mem_seenSet.2 (Nat.mul_pos hb hs)⟩

/-! ## The blocks in order exhaust the keys -/

/-- Before block `0` there is nothing. -/
theorem seenSet_zero (n b : ℕ) : seenSet n b 0 = ∅ := by
  ext k
  simp [mem_seenSet]

/-- The keys before block `t` and the keys of block `t` are disjoint. -/
theorem disjoint_seen_block (n b : ℕ) (t : Fin n) : Disjoint (seenSet n b t.val) (blockSet n b t) := by
  rw [Finset.disjoint_left]
  intro k hk hk'
  have h1 := mem_seenSet.1 hk
  have h2 := (mem_blockSet.1 hk').1
  omega

/-- The keys before block `t` together with block `t` are the keys before block `t + 1`. -/
theorem seen_union_block (n b : ℕ) (t : Fin n) :
    seenSet n b t.val ∪ blockSet n b t = seenSet n b (t.val + 1) := by
  ext k
  simp only [Finset.mem_union, mem_seenSet, mem_blockSet, Nat.mul_add_one]
  omega

/-- The keys before block `1` are block `0`. -/
theorem seenSet_one (n b : ℕ) (hn : 0 < n) : seenSet n b 1 = blockSet n b ⟨0, hn⟩ := by
  ext k
  simp only [mem_seenSet, mem_blockSet, Nat.mul_one, Nat.mul_zero, Nat.zero_le, true_and, Nat.zero_add]

/-- The keys before block `n` are all the keys. -/
theorem seenSet_all (n b : ℕ) : seenSet n b n = Finset.univ := by
  ext k
  simp only [mem_seenSet, Finset.mem_univ, iff_true]
  exact lt_of_lt_of_eq k.isLt (Nat.mul_comm n b)

/-! ## The walk over the blocks

Over scores `σ` and values `ν` on the `n * b` keys. The state after the blocks before `t` is the maximum `μ`,
the denominator `lam` and the numerator `alpha` over `seenSet n b t`; the block's own maximum is `M`. Each is
given by an equation, so `rfl` recovers the literal form. -/

section Walk

variable (σ ν : Fin (n * b) → ℝ)

/-- The keys before block `n` are not empty when there is a key at all. -/
theorem seenSet_all_nonempty (hne : (Finset.univ : Finset (Fin (n * b))).Nonempty) : (seenSet n b n).Nonempty := by
  rw [seenSet_all]; exact hne

/-- The first block: its maximum `M` over the positions is the maximum over the keys before block `1`, and its
    sums over the positions of `exp (σ - M)`, and of `exp (σ - M) * ν`, are the closed forms over those keys. -/
theorem online_first (hn : 0 < n) (hb : 0 < b) (M : ℝ)
    (hM : M = Finset.univ.sup' (univ_pos_nonempty hb) fun j : Fin b => σ (finProdFinEquiv ((⟨0, hn⟩ : Fin n), j))) :
    M = (seenSet n b 1).sup' (seenSet_nonempty n b Nat.one_pos hb hn) σ
      ∧ ∑ j : Fin b, Real.exp (σ (finProdFinEquiv ((⟨0, hn⟩ : Fin n), j)) - M)
          = ∑ k ∈ seenSet n b 1, Real.exp (σ k - M)
      ∧ ∑ j : Fin b, Real.exp (σ (finProdFinEquiv ((⟨0, hn⟩ : Fin n), j)) - M)
            * ν (finProdFinEquiv ((⟨0, hn⟩ : Fin n), j))
          = ∑ k ∈ seenSet n b 1, Real.exp (σ k - M) * ν k := by
  have h1 := seenSet_one n b hn
  refine ⟨?_, ?_, ?_⟩
  · rw [hM, ← sup'_blockSet σ ⟨0, hn⟩ (blockSet_nonempty n b hb _) (univ_pos_nonempty hb)]
    exact Finset.sup'_congr _ h1.symm fun _ _ => rfl
  · rw [h1, sum_blockSet]
  · rw [h1, sum_blockSet]

/-- A later block `t` (`0 < t`): from the maximum, denominator and numerator over the keys before block `t`,
    with `M` the block's maximum over its positions and `μ' = max μ M`: `μ'` is the maximum over the keys before
    block `t + 1`, and the rescaled sums plus the block's sums over its positions are the closed forms over those
    keys. -/
theorem online_step (hb : 0 < b) (t : Fin n) (ht : 0 < t.val) (μ lam alpha M μ' : ℝ)
    (hμ : μ = (seenSet n b t.val).sup' (seenSet_nonempty n b ht hb t.pos) σ)
    (hlam : lam = ∑ k ∈ seenSet n b t.val, Real.exp (σ k - μ))
    (halpha : alpha = ∑ k ∈ seenSet n b t.val, Real.exp (σ k - μ) * ν k)
    (hM : M = Finset.univ.sup' (univ_pos_nonempty hb) fun j : Fin b => σ (finProdFinEquiv (t, j)))
    (hμ' : μ' = max μ M) :
    μ' = (seenSet n b (t.val + 1)).sup' (seenSet_nonempty n b (Nat.succ_pos _) hb t.pos) σ
      ∧ Real.exp (μ - μ') * lam + ∑ j : Fin b, Real.exp (σ (finProdFinEquiv (t, j)) - μ')
          = ∑ k ∈ seenSet n b (t.val + 1), Real.exp (σ k - μ')
      ∧ Real.exp (μ - μ') * alpha
            + ∑ j : Fin b, Real.exp (σ (finProdFinEquiv (t, j)) - μ') * ν (finProdFinEquiv (t, j))
          = ∑ k ∈ seenSet n b (t.val + 1), Real.exp (σ k - μ') * ν k := by
  have hK := seenSet_nonempty n b ht hb t.pos
  have hJ := blockSet_nonempty n b hb t
  have hd := disjoint_seen_block n b t
  have hu := seen_union_block n b t
  have hMJ : M = (blockSet n b t).sup' hJ σ := by rw [hM, sup'_blockSet σ t hJ (univ_pos_nonempty hb)]
  have e1 := running_max σ _ _ hK hJ μ hμ
  have e2 := rescale_den σ _ _ hJ hd μ lam hlam
  have e3 := rescale_num σ ν _ _ hJ hd μ alpha halpha
  rw [← hMJ, ← hμ'] at e1 e2 e3
  rw [hu, sum_blockSet] at e2 e3
  exact ⟨e1.trans (Finset.sup'_congr _ hu fun _ _ => rfl), e2, e3⟩

/-- The end: with the maximum, denominator and numerator over the keys before block `n`, that is over all keys,
    the quotient is the softmax-weighted sum of the values over all keys at the global maximum, and the
    denominator is not zero. -/
theorem online_last (hne : (Finset.univ : Finset (Fin (n * b))).Nonempty) (μ lam alpha : ℝ)
    (hμ : μ = (seenSet n b n).sup' (seenSet_all_nonempty hne) σ)
    (hlam : lam = ∑ k ∈ seenSet n b n, Real.exp (σ k - μ))
    (halpha : alpha = ∑ k ∈ seenSet n b n, Real.exp (σ k - μ) * ν k) :
    alpha / lam
        = ∑ k : Fin (n * b), (Real.exp (σ k - Finset.univ.sup' hne σ)
            / ∑ k' : Fin (n * b), Real.exp (σ k' - Finset.univ.sup' hne σ)) * ν k
      ∧ lam ≠ 0 := by
  have hall := seenSet_all n b
  have hμ2 : μ = Finset.univ.sup' hne σ := hμ.trans (Finset.sup'_congr _ hall fun _ _ => rfl)
  rw [hall] at hlam halpha
  refine ⟨?_, (den_pos σ Finset.univ hne μ lam hlam).ne'⟩
  rw [quotient_eq σ ν Finset.univ μ lam alpha hlam halpha, hμ2]

end Walk

/-! ## At `n = 4`, `b = 512` over `Fin 2048`

`4 * 512` evaluates to `2048`, so these are the theorems above at `n = 4`, `b = 512` with nothing to prove; the
key at position `j` of block `t` is written `⟨j + 512 * t, _⟩ : Fin 2048`. -/

section Literal

/-- The key at position `j` of block `t`, among `4` blocks of `512`, is `⟨j + 512 * t, _⟩ : Fin 2048`. -/
theorem blockKey_4_512 (t : Fin 4) (j : Fin 512) :
    (finProdFinEquiv (t, j) : Fin (4 * 512)) = (⟨j.val + 512 * t.val, by omega⟩ : Fin 2048) := rfl

/-- `online_first` at `4` blocks of `512` keys over `Fin 2048`. -/
theorem online_first_4_512 (σ ν : Fin 2048 → ℝ) (M : ℝ)
    (hM : M = Finset.univ.sup' Finset.univ_nonempty fun j : Fin 512 => σ ⟨j.val + 512 * 0, by omega⟩) :
    M = (seenSet 4 512 1).sup' (seenSet_nonempty 4 512 Nat.one_pos (by norm_num) (by norm_num)) σ
      ∧ ∑ j : Fin 512, Real.exp (σ ⟨j.val + 512 * 0, by omega⟩ - M) = ∑ k ∈ seenSet 4 512 1, Real.exp (σ k - M)
      ∧ ∑ j : Fin 512, Real.exp (σ ⟨j.val + 512 * 0, by omega⟩ - M) * ν ⟨j.val + 512 * 0, by omega⟩
          = ∑ k ∈ seenSet 4 512 1, Real.exp (σ k - M) * ν k :=
  online_first (n := 4) (b := 512) σ ν (by norm_num) (by norm_num) M hM

/-- `online_step` at `4` blocks of `512` keys over `Fin 2048`. -/
theorem online_step_4_512 (σ ν : Fin 2048 → ℝ) (t : Fin 4) (ht : 0 < t.val) (μ lam alpha M μ' : ℝ)
    (hμ : μ = (seenSet 4 512 t.val).sup' (seenSet_nonempty 4 512 ht (by norm_num) (by norm_num)) σ)
    (hlam : lam = ∑ k ∈ seenSet 4 512 t.val, Real.exp (σ k - μ))
    (halpha : alpha = ∑ k ∈ seenSet 4 512 t.val, Real.exp (σ k - μ) * ν k)
    (hM : M = Finset.univ.sup' Finset.univ_nonempty fun j : Fin 512 => σ ⟨j.val + 512 * t.val, by omega⟩)
    (hμ' : μ' = max μ M) :
    μ' = (seenSet 4 512 (t.val + 1)).sup' (seenSet_nonempty 4 512 (Nat.succ_pos _) (by norm_num) (by norm_num)) σ
      ∧ Real.exp (μ - μ') * lam + ∑ j : Fin 512, Real.exp (σ ⟨j.val + 512 * t.val, by omega⟩ - μ')
          = ∑ k ∈ seenSet 4 512 (t.val + 1), Real.exp (σ k - μ')
      ∧ Real.exp (μ - μ') * alpha
            + ∑ j : Fin 512, Real.exp (σ ⟨j.val + 512 * t.val, by omega⟩ - μ') * ν ⟨j.val + 512 * t.val, by omega⟩
          = ∑ k ∈ seenSet 4 512 (t.val + 1), Real.exp (σ k - μ') * ν k :=
  online_step (n := 4) (b := 512) σ ν (by norm_num) t ht μ lam alpha M μ' hμ hlam halpha hM hμ'

/-- `online_last` at `4` blocks of `512` keys over `Fin 2048`. -/
theorem online_last_4_512 (σ ν : Fin 2048 → ℝ) (μ lam alpha : ℝ)
    (hμ : μ = (seenSet 4 512 4).sup' (seenSet_all_nonempty (n := 4) (b := 512) Finset.univ_nonempty) σ)
    (hlam : lam = ∑ k ∈ seenSet 4 512 4, Real.exp (σ k - μ))
    (halpha : alpha = ∑ k ∈ seenSet 4 512 4, Real.exp (σ k - μ) * ν k) :
    alpha / lam
        = ∑ k : Fin 2048, (Real.exp (σ k - Finset.univ.sup' Finset.univ_nonempty σ)
            / ∑ k' : Fin 2048, Real.exp (σ k' - Finset.univ.sup' Finset.univ_nonempty σ)) * ν k
      ∧ lam ≠ 0 :=
  online_last (n := 4) (b := 512) σ ν Finset.univ_nonempty μ lam alpha hμ hlam halpha

end Literal

end Cert.Lib.KeyBlocks
-- ==== Proof.IdealAttnWalk.lean ====
/-
  The attention walk over four blocks of 512 keys, one row at a time, in real numbers.

  When the query tile, the block's keys and its values hold real numbers, one step of the walk takes a state that holds,
  at row `r`, the maximum, the denominator and the numerator of the softmax over the keys seen so far to the state that
  holds them over the keys seen after the block: from nothing for the first block, from real numbers for a later one.
-/
import proofs.«123646_j33698313404907_2_alg».proof.Proof.IdealAttnBlock
import proofs.«123646_j33698313404907_2_alg».proof.Proof.LibKeyBlocks

noncomputable section

namespace Cert.KernelIdeal.Hand

open scoped BigOperators
open Cert.KernelIdeal Cert.KernelIdeal.Gen
open Idealize.ShloMosaic Idealize.ShloMosaic.ValueIdx
open Cert.Lib.OnlineSoftmax Cert.Lib.KeyBlocks

section Step

variable (Q K V : FVec Ideal S512x256 .bf16) (m l : FVec Ideal S512x1 .f32) (acc : FVec Ideal S512x256 .f32)
variable (q kj vj : Fin 512 → Fin 256 → ℝ)

/-- The scores of a real query tile against real keys are real. -/
theorem stepS_real (hQ : ∀ r d, Q (ix2 r d) = ((q r d : ℝ) : EReal)) (hK : ∀ c d, K (ix2 c d) = ((kj c d : ℝ) : EReal)) (r c : Fin 512) :
    stepS Q K (ix2 r c) = ((∑ d : Fin 256, q r d * kj c d : ℝ) : EReal) := by
  rw [stepS_apply, coe_finset_sum]
  exact Finset.sum_congr rfl fun d _ => by rw [hQ, hK, EReal.coe_mul]

/-- The block's own maximum is the largest of its real scores. -/
theorem blockmax_real (hQ : ∀ r d, Q (ix2 r d) = ((q r d : ℝ) : EReal)) (hK : ∀ c d, K (ix2 c d) = ((kj c d : ℝ) : EReal)) (r : Fin 512) :
    (Finset.univ : Finset (Fin 512)).fold max (FloatOps.ofBits (F := Ideal) .f32 0xFF800000#32) (fun c => stepS Q K (ix2 r c))
      = ((Finset.univ.sup' Finset.univ_nonempty (fun c : Fin 512 => ∑ d : Fin 256, q r d * kj c d) : ℝ) : EReal) :=
  fold_max_floatOps_neg_inf_univ _ _ fun c => stepS_real Q K q kj hQ hK r c

/-- The first block: from the maximum minus infinity the state after the block is the block's own. -/
theorem step_first (hQ : ∀ r d, Q (ix2 r d) = ((q r d : ℝ) : EReal)) (hK : ∀ c d, K (ix2 c d) = ((kj c d : ℝ) : EReal))
    (hV : ∀ c d, V (ix2 c d) = ((vj c d : ℝ) : EReal)) (r : Fin 512) (hm : m (ix2 r (0 : Fin 1)) = ⊥)
    (M : ℝ) (hM : M = Finset.univ.sup' Finset.univ_nonempty (fun c : Fin 512 => ∑ d : Fin 256, q r d * kj c d)) :
    stepM Q K m (ix2 r (0 : Fin 1)) = ((M : ℝ) : EReal)
      ∧ stepL Q K m l (ix2 r (0 : Fin 1)) = ((∑ c : Fin 512, Real.exp ((∑ d : Fin 256, q r d * kj c d) - M) : ℝ) : EReal)
      ∧ ∀ d : Fin 256, stepAcc Q K V m acc (ix2 r d)
          = ((∑ c : Fin 512, Real.exp ((∑ d' : Fin 256, q r d' * kj c d') - M) * vj c d : ℝ) : EReal) := by
  have hbm := (blockmax_real Q K q kj hQ hK r).trans (congrArg (fun x : ℝ => (x : EReal)) hM.symm)
  have hS := fun c => stepS_real Q K q kj hQ hK r c
  refine ⟨?_, ?_, fun d => ?_⟩
  · rw [stepM_apply, hbm]; exact first_block_max hm rfl
  · rw [stepL_apply, stepM_apply, hbm]
    simp only [hS]
    exact first_block_den hm rfl _ (Finset.univ : Finset (Fin 512)) (fun c => ∑ d : Fin 256, q r d * kj c d)
  · rw [stepAcc_apply, stepM_apply, hbm]
    simp only [hS, hV]
    exact first_block_num hm rfl _ (Finset.univ : Finset (Fin 512)) (fun c => ∑ d : Fin 256, q r d * kj c d) (fun c => vj c d)

/-- A later block: from a real state the state after the block is real, by the step's formulas. -/
theorem step_later (hQ : ∀ r d, Q (ix2 r d) = ((q r d : ℝ) : EReal)) (hK : ∀ c d, K (ix2 c d) = ((kj c d : ℝ) : EReal))
    (hV : ∀ c d, V (ix2 c d) = ((vj c d : ℝ) : EReal)) (r : Fin 512) (μ lam : ℝ) (alpha : Fin 256 → ℝ)
    (hm : m (ix2 r (0 : Fin 1)) = ((μ : ℝ) : EReal)) (hl : l (ix2 r (0 : Fin 1)) = ((lam : ℝ) : EReal))
    (hacc : ∀ d, acc (ix2 r d) = ((alpha d : ℝ) : EReal))
    (M : ℝ) (hM : M = Finset.univ.sup' Finset.univ_nonempty (fun c : Fin 512 => ∑ d : Fin 256, q r d * kj c d)) :
    stepM Q K m (ix2 r (0 : Fin 1)) = ((max μ M : ℝ) : EReal)
      ∧ stepL Q K m l (ix2 r (0 : Fin 1))
          = ((Real.exp (μ - max μ M) * lam + ∑ c : Fin 512, Real.exp ((∑ d : Fin 256, q r d * kj c d) - max μ M) : ℝ) : EReal)
      ∧ ∀ d : Fin 256, stepAcc Q K V m acc (ix2 r d)
          = ((Real.exp (μ - max μ M) * alpha d
              + ∑ c : Fin 512, Real.exp ((∑ d' : Fin 256, q r d' * kj c d') - max μ M) * vj c d : ℝ) : EReal) := by
  have hbm := (blockmax_real Q K q kj hQ hK r).trans (congrArg (fun x : ℝ => (x : EReal)) hM.symm)
  have hS := fun c => stepS_real Q K q kj hQ hK r c
  refine ⟨?_, ?_, fun d => ?_⟩
  · rw [stepM_apply, hbm]; exact later_block_max hm rfl
  · rw [stepL_apply, stepM_apply, hbm]
    simp only [hS]
    exact later_block_den hm rfl hl (Finset.univ : Finset (Fin 512)) (fun c => ∑ d : Fin 256, q r d * kj c d)
  · rw [stepAcc_apply, stepM_apply, hbm]
    simp only [hS, hV]
    exact later_block_num hm rfl (hacc d) (Finset.univ : Finset (Fin 512)) (fun c => ∑ d : Fin 256, q r d * kj c d) (fun c => vj c d)

end Step

/-! ## The walk: the state over the keys seen so far -/

section Walk

variable (Q K V : FVec Ideal S512x256 .bf16) (m l : FVec Ideal S512x1 .f32) (acc : FVec Ideal S512x256 .f32)
variable (q : Fin 512 → Fin 256 → ℝ) (kk vv : Fin 2048 → Fin 256 → ℝ)

/-- The score of row `r` against key `k`. -/
def score (q : Fin 512 → Fin 256 → ℝ) (kk : Fin 2048 → Fin 256 → ℝ) (r : Fin 512) (k : Fin 2048) : ℝ := ∑ d : Fin 256, q r d * kk k d

/-- The state at row `r` holds the softmax's maximum, denominator and numerator over the keys of the first `s` blocks. -/
structure Seen (q : Fin 512 → Fin 256 → ℝ) (kk vv : Fin 2048 → Fin 256 → ℝ) (r : Fin 512) (s : ℕ) (hs : 0 < s)
    (m l : FVec Ideal S512x1 .f32) (acc : FVec Ideal S512x256 .f32) : Prop where
  hm : m (ix2 r (0 : Fin 1)) = (((seenSet 4 512 s).sup' (seenSet_nonempty 4 512 hs (by norm_num) (by norm_num)) (score q kk r) : ℝ) : EReal)
  hl : l (ix2 r (0 : Fin 1)) = ((∑ k ∈ seenSet 4 512 s, Real.exp (score q kk r k
          - (seenSet 4 512 s).sup' (seenSet_nonempty 4 512 hs (by norm_num) (by norm_num)) (score q kk r)) : ℝ) : EReal)
  hacc : ∀ d : Fin 256, acc (ix2 r d) = ((∑ k ∈ seenSet 4 512 s, Real.exp (score q kk r k
          - (seenSet 4 512 s).sup' (seenSet_nonempty 4 512 hs (by norm_num) (by norm_num)) (score q kk r)) * vv k d : ℝ) : EReal)

/-- The first block (keys `0 … 511`) from the maximum minus infinity. -/
theorem walk_first (hQ : ∀ r d, Q (ix2 r d) = ((q r d : ℝ) : EReal))
    (hK : ∀ (c : Fin 512) (d : Fin 256), K (ix2 c d) = ((kk ⟨c.val + 512 * 0, by omega⟩ d : ℝ) : EReal))
    (hV : ∀ (c : Fin 512) (d : Fin 256), V (ix2 c d) = ((vv ⟨c.val + 512 * 0, by omega⟩ d : ℝ) : EReal))
    (r : Fin 512) (hm : m (ix2 r (0 : Fin 1)) = ⊥) :
    Seen q kk vv r 1 Nat.one_pos (stepM Q K m) (stepL Q K m l) (stepAcc Q K V m acc) := by
  obtain ⟨e1, e2, e3⟩ := step_first Q K V m l acc q (fun c d => kk ⟨c.val + 512 * 0, by omega⟩ d) (fun c d => vv ⟨c.val + 512 * 0, by omega⟩ d)
    hQ hK hV r hm _ rfl
  have o := fun d : Fin 256 => online_first_4_512 (score q kk r) (fun k => vv k d) _ rfl
  refine ⟨?_, ?_, fun d => ?_⟩
  · exact e1.trans (congrArg (fun x : ℝ => (x : EReal)) (o 0).1)
  · refine e2.trans (congrArg (fun x : ℝ => (x : EReal)) ?_)
    exact (o 0).2.1.trans (Finset.sum_congr rfl fun k _ => by rw [← (o 0).1])
  · refine (e3 d).trans (congrArg (fun x : ℝ => (x : EReal)) ?_)
    exact (o d).2.2.trans (Finset.sum_congr rfl fun k _ => by rw [← (o d).1])

/-- A later block `t` (keys `512 t … 512 t + 511`) from the state over the first `t` blocks. -/
theorem walk_later (t : Fin 4) (ht : 0 < t.val) (hQ : ∀ r d, Q (ix2 r d) = ((q r d : ℝ) : EReal))
    (hK : ∀ (c : Fin 512) (d : Fin 256), K (ix2 c d) = ((kk ⟨c.val + 512 * t.val, by omega⟩ d : ℝ) : EReal))
    (hV : ∀ (c : Fin 512) (d : Fin 256), V (ix2 c d) = ((vv ⟨c.val + 512 * t.val, by omega⟩ d : ℝ) : EReal))
    (r : Fin 512) (h : Seen q kk vv r t.val ht m l acc) :
    Seen q kk vv r (t.val + 1) (Nat.succ_pos _) (stepM Q K m) (stepL Q K m l) (stepAcc Q K V m acc) := by
  obtain ⟨e1, e2, e3⟩ := step_later Q K V m l acc q (fun c d => kk ⟨c.val + 512 * t.val, by omega⟩ d)
    (fun c d => vv ⟨c.val + 512 * t.val, by omega⟩ d) hQ hK hV r _ _ _ h.hm h.hl h.hacc _ rfl
  have o := fun d : Fin 256 => online_step_4_512 (score q kk r) (fun k => vv k d) t ht _ _ _ _ _ rfl rfl rfl rfl rfl
  refine ⟨?_, ?_, fun d => ?_⟩
  · exact e1.trans (congrArg (fun x : ℝ => (x : EReal)) (o 0).1)
  · refine e2.trans (congrArg (fun x : ℝ => (x : EReal)) ?_)
    exact (o 0).2.1.trans (Finset.sum_congr rfl fun k _ => by rw [← (o 0).1])
  · refine (e3 d).trans (congrArg (fun x : ℝ => (x : EReal)) ?_)
    exact (o d).2.2.trans (Finset.sum_congr rfl fun k _ => by rw [← (o d).1])

/-- The end: with the state over all four blocks the quotient is the softmax-weighted sum of the values over all
    2048 keys at the largest score. -/
theorem walk_last (r : Fin 512) (h : Seen q kk vv r 4 (by norm_num) m l acc) (d : Fin 256) :
    divf acc (broadcastTo S512x256 l broadcasts_S512x1_S512x256) (ix2 r d)
      = ((∑ k : Fin 2048, (Real.exp (score q kk r k - Finset.univ.sup' Finset.univ_nonempty (score q kk r))
            / ∑ k' : Fin 2048, Real.exp (score q kk r k' - Finset.univ.sup' Finset.univ_nonempty (score q kk r))) * vv k d : ℝ) : EReal) := by
  obtain ⟨o1, o2⟩ := online_last_4_512 (score q kk r) (fun k => vv k d) _ _ _ rfl rfl rfl
  rw [divf_apply, Keepdims.broadcastTo_a1_ab_apply]
  exact (div_of_eq_coe (h.hacc d) h.hl o2).trans (congrArg (fun x : ℝ => (x : EReal)) o1)

end Walk

end Cert.KernelIdeal.Hand

end
-- ==== Proof.IdealAttnChain.lean ====
/-
  The attention core of the result tile.

  The kernel's payloads after each of the four key blocks are the step arrays of the walk: the state after block 0
  starts from the maximum minus infinity and both sums zero, each later block steps from the state before it, and the
  last payload divides the numerator by the denominator and applies the output projection. With real queries, keys,
  values and output weights the projected tile holds, at row `r` and feature `e`, the real number
  `∑ d, attn r d * WO e d + BO e`, where `attn r d` is the softmax-weighted sum of the values over all 2048 keys.
-/
import proofs.«123646_j33698313404907_2_alg».proof.Proof.IdealAttnWalk
import proofs.«123646_j33698313404907_2_alg».proof.Proof.IdealProj
import proofs.«123646_j33698313404907_2_alg».proof.Proof.Consts
import Idealize.ShloMosaic.Lib.Pipeline.FrameBody

noncomputable section

namespace Cert.KernelIdeal.Hand

open scoped BigOperators
open Cert.KernelIdeal Cert.KernelIdeal.Gen
open Idealize.ShloMosaic Idealize.ShloMosaic.ValueIdx
open Cert.Lib.OnlineSoftmax Cert.Lib.KeyBlocks

/-! ## The payloads are the step arrays -/

section Payloads

variable (xq : Vec Ideal S1x512x256 .f32) (wq : Vec Ideal S256x256 .f32) (bq : Vec Ideal S256 .f32)
variable (v14 : FVec Ideal S512x256 .bf16) (v18 v19 v40 v41 v62 v63 v84 v85 : FVec Ideal S512x256 .bf16)
variable (v24 v35 v68 v79 : FVec Ideal S512x1 .f32) (v30 v74 : FVec Ideal S512x512 .bf16) (v37 v81 : FVec Ideal S512x256 .f32)
variable (wo : FVec Ideal S256x256 .f32) (bo : FVec Ideal S256 .f32)

/-- The running maximum's start: minus infinity in every row. -/
theorem pay6_apply (r : Fin 512) : k0_pay6 (F := Ideal) (ix2 r (0 : Fin 1)) = ⊥ := Cert.Consts.ofBits_neg_inf

theorem pay8_eq : k0_pay8 xq wq bq v18 = stepM (k0_pay5 xq wq bq) v18 k0_pay6 := rfl

theorem pay11_eq : k0_pay11 xq wq bq v18 = truncf .bf16 (stepP (k0_pay5 xq wq bq) v18 k0_pay6) bitsLt_bf16_f32 := rfl

theorem pay12_eq : k0_pay12 xq wq bq v18
    = stepL (k0_pay5 xq wq bq) v18 k0_pay6 (broadcast S512x1 (Scalar.ofBits .f32 0x00000000#32)) := rfl

theorem pay13_eq : k0_pay13 xq wq bq v18
    = mulf (broadcastTo S512x256 (stepA (k0_pay5 xq wq bq) v18 k0_pay6) broadcasts_S512x1_S512x256)
        (broadcast S512x256 (Scalar.ofBits .f32 0x00000000#32)) := rfl

/-- The numerator after block 0, which the next part of the body forms from two payloads of the first. -/
theorem acc0_eq : addf (k0_pay13 xq wq bq v18)
      (matmul dot_S512x512_S512x256_S512x256_1_0_0_1_n_n none (k0_pay11 xq wq bq v18) v19 (constant S512x256 .f32 0x00000000#32))
    = stepAcc (k0_pay5 xq wq bq) v18 v19 k0_pay6 (broadcast S512x256 (Scalar.ofBits .f32 0x00000000#32)) := rfl

theorem pay19_eq : k0_pay19 v14 v24 v40 v62 = stepM v14 v62 (stepM v14 v40 v24) := rfl

theorem pay22_eq : k0_pay22 v14 v24 v40 v62 = truncf .bf16 (stepP v14 v62 (stepM v14 v40 v24)) bitsLt_bf16_f32 := rfl

theorem pay23_eq : k0_pay23 v14 v24 v35 v40 v62 = stepL v14 v62 (stepM v14 v40 v24) (stepL v14 v40 v24 v35) := rfl

theorem pay24_eq : k0_pay24 v14 v19 v24 v30 v37 v40 v41 v62
    = mulf (broadcastTo S512x256 (stepA v14 v62 (stepM v14 v40 v24)) broadcasts_S512x1_S512x256)
        (stepAcc v14 v40 v41 v24
          (addf v37 (matmul dot_S512x512_S512x256_S512x256_1_0_0_1_n_n none v30 v19 (constant S512x256 .f32 0x00000000#32)))) := rfl

/-- The numerator after block 2, which the last part of the body forms from two payloads of the second. -/
theorem acc2_eq (m1 : FVec Ideal S512x1 .f32) (a1 : FVec Ideal S512x256 .f32) :
    addf (mulf (broadcastTo S512x256 (stepA v14 v62 m1) broadcasts_S512x1_S512x256) a1)
      (matmul dot_S512x512_S512x256_S512x256_1_0_0_1_n_n none (truncf .bf16 (stepP v14 v62 m1) bitsLt_bf16_f32) v63 (constant S512x256 .f32 0x00000000#32))
    = stepAcc v14 v62 v63 m1 a1 := rfl

theorem pay25_eq : k0_pay25 v14 v63 v68 v74 v79 v81 v84 v85 wo bo
    = addf (matmul dot_S512x256_S256x256_S512x256_1_0_0_1_n_n none
          (truncf .bf16 (divf (stepAcc v14 v84 v85 v68
              (addf v81 (matmul dot_S512x512_S512x256_S512x256_1_0_0_1_n_n none v74 v63 (constant S512x256 .f32 0x00000000#32))))
            (broadcastTo S512x256 (stepL v14 v84 v68 v79) broadcasts_S512x1_S512x256)) bitsLt_bf16_f32)
          (truncf .bf16 (shapeCast S256x256 wo shapeCasts_S256x256_S256x256) bitsLt_bf16_f32) (constant S512x256 .f32 0x00000000#32))
        (broadcastTo S512x256 (shapeCast S1x256 bo shapeCasts_S256_S1x256) broadcasts_S1x256_S512x256) := rfl

end Payloads

/-! ## A block of 512 rows of the keys or the values -/

/-- The block of 512 rows that starts at row `off`, read at `(c, d)`, is the array at `(c + off, d)`. -/
theorem block_read (X : Vec Ideal S2048x256 .bf16) (off : ℕ)
    (inb : ∀ a, (![off, 0] : Fin 2 → ℕ) a + S512x256.size a ≤ S2048x256.size a) (c : Fin 512) (d : Fin 256) (h : c.val + off < 2048) :
    (View.ld X (Rect.unit (s := S2048x256) ![off, 0] S512x256.size inb) : Vec Ideal S512x256 .bf16) (ix2 c d)
      = X (ix2 (⟨c.val + off, h⟩ : Fin 2048) d) := by
  show X _ = X _
  refine congrArg X (funext fun a => Fin.ext ?_)
  match a with
  | ⟨0, _⟩ => show off + 1 * c.val = c.val + off; omega
  | ⟨1, _⟩ => show 0 + 1 * d.val = d.val; omega

/-! ## The attended row and the projected tile -/

/-- The softmax-weighted sum of the values over all 2048 keys, at the row's largest score. -/
def attn (q : Fin 512 → Fin 256 → ℝ) (kk vv : Fin 2048 → Fin 256 → ℝ) (r : Fin 512) (d : Fin 256) : ℝ :=
  ∑ k : Fin 2048, (Real.exp (score q kk r k - Finset.univ.sup' Finset.univ_nonempty (score q kk r))
      / ∑ k' : Fin 2048, Real.exp (score q kk r k' - Finset.univ.sup' Finset.univ_nonempty (score q kk r))) * vv k d

section Tile

variable (xq : Vec Ideal S1x512x256 .f32) (wq : Vec Ideal S256x256 .f32) (bq : Vec Ideal S256 .f32) (ks vs : Vec Ideal S2048x256 .bf16)
variable (wo : Vec Ideal S256x256 .f32) (bo : Vec Ideal S256 .f32)
variable (q : Fin 512 → Fin 256 → ℝ) (kk vv : Fin 2048 → Fin 256 → ℝ) (WO : Fin 256 → Fin 256 → ℝ) (BO : Fin 256 → ℝ)

/-- The projected attention tile, for the ten arguments as the result tile passes them. -/
theorem attn_proj_apply (hq : ∀ r d, k0_pay5 xq wq bq (ix2 r d) = ((q r d : ℝ) : EReal))
    (hk : ∀ m d, ks (ix2 m d) = ((kk m d : ℝ) : EReal)) (hv : ∀ m d, vs (ix2 m d) = ((vv m d : ℝ) : EReal))
    (hwo : ∀ d e, wo (ix2 d e) = ((WO e d : ℝ) : EReal)) (hbo : ∀ e, bo (ix1 e) = ((BO e : ℝ) : EReal)) (r : Fin 512) (e : Fin 256) :
    k0_pay25 (F := Ideal) (k0_pay5 xq wq bq)
        (View.ld vs (Rect.unit (s := S2048x256) ![1024, 0] S512x256.size inb_S2048x256_S512x256_1024_0))
        (k0_pay19 (k0_pay5 xq wq bq)
          (k0_pay8 xq wq bq (View.ld ks (Rect.unit (s := S2048x256) ![0, 0] S512x256.size inb_S2048x256_S512x256_0_0)))
          (View.ld ks (Rect.unit (s := S2048x256) ![512, 0] S512x256.size inb_S2048x256_S512x256_512_0))
          (View.ld ks (Rect.unit (s := S2048x256) ![1024, 0] S512x256.size inb_S2048x256_S512x256_1024_0)))
        (k0_pay22 (k0_pay5 xq wq bq)
          (k0_pay8 xq wq bq (View.ld ks (Rect.unit (s := S2048x256) ![0, 0] S512x256.size inb_S2048x256_S512x256_0_0)))
          (View.ld ks (Rect.unit (s := S2048x256) ![512, 0] S512x256.size inb_S2048x256_S512x256_512_0))
          (View.ld ks (Rect.unit (s := S2048x256) ![1024, 0] S512x256.size inb_S2048x256_S512x256_1024_0)))
        (k0_pay23 (k0_pay5 xq wq bq)
          (k0_pay8 xq wq bq (View.ld ks (Rect.unit (s := S2048x256) ![0, 0] S512x256.size inb_S2048x256_S512x256_0_0)))
          (k0_pay12 xq wq bq (View.ld ks (Rect.unit (s := S2048x256) ![0, 0] S512x256.size inb_S2048x256_S512x256_0_0)))
          (View.ld ks (Rect.unit (s := S2048x256) ![512, 0] S512x256.size inb_S2048x256_S512x256_512_0))
          (View.ld ks (Rect.unit (s := S2048x256) ![1024, 0] S512x256.size inb_S2048x256_S512x256_1024_0)))
        (k0_pay24 (k0_pay5 xq wq bq)
          (View.ld vs (Rect.unit (s := S2048x256) ![0, 0] S512x256.size inb_S2048x256_S512x256_0_0))
          (k0_pay8 xq wq bq (View.ld ks (Rect.unit (s := S2048x256) ![0, 0] S512x256.size inb_S2048x256_S512x256_0_0)))
          (k0_pay11 xq wq bq (View.ld ks (Rect.unit (s := S2048x256) ![0, 0] S512x256.size inb_S2048x256_S512x256_0_0)))
          (k0_pay13 xq wq bq (View.ld ks (Rect.unit (s := S2048x256) ![0, 0] S512x256.size inb_S2048x256_S512x256_0_0)))
          (View.ld ks (Rect.unit (s := S2048x256) ![512, 0] S512x256.size inb_S2048x256_S512x256_512_0))
          (View.ld vs (Rect.unit (s := S2048x256) ![512, 0] S512x256.size inb_S2048x256_S512x256_512_0))
          (View.ld ks (Rect.unit (s := S2048x256) ![1024, 0] S512x256.size inb_S2048x256_S512x256_1024_0)))
        (View.ld ks (Rect.unit (s := S2048x256) ![1536, 0] S512x256.size inb_S2048x256_S512x256_1536_0))
        (View.ld vs (Rect.unit (s := S2048x256) ![1536, 0] S512x256.size inb_S2048x256_S512x256_1536_0))
        wo bo (ix2 r e)
      = ((∑ d : Fin 256, attn q kk vv r d * WO e d + BO e : ℝ) : EReal) := by
  rw [pay25_eq, pay24_eq, pay23_eq, pay22_eq, pay19_eq, acc0_eq, pay12_eq, pay8_eq, acc2_eq]
  -- the blocks' real readings
  have hK0 : ∀ (c : Fin 512) (d : Fin 256), (View.ld ks (Rect.unit (s := S2048x256) ![0, 0] S512x256.size inb_S2048x256_S512x256_0_0) : Vec Ideal S512x256 .bf16) (ix2 c d)
      = ((kk ⟨c.val + 512 * 0, by omega⟩ d : ℝ) : EReal) := fun c d => (block_read ks 0 _ c d (by omega)).trans (hk _ d)
  have hV0 : ∀ (c : Fin 512) (d : Fin 256), (View.ld vs (Rect.unit (s := S2048x256) ![0, 0] S512x256.size inb_S2048x256_S512x256_0_0) : Vec Ideal S512x256 .bf16) (ix2 c d)
      = ((vv ⟨c.val + 512 * 0, by omega⟩ d : ℝ) : EReal) := fun c d => (block_read vs 0 _ c d (by omega)).trans (hv _ d)
  have hK1 : ∀ (c : Fin 512) (d : Fin 256), (View.ld ks (Rect.unit (s := S2048x256) ![512, 0] S512x256.size inb_S2048x256_S512x256_512_0) : Vec Ideal S512x256 .bf16) (ix2 c d)
      = ((kk ⟨c.val + 512 * (⟨1, by norm_num⟩ : Fin 4).val, by omega⟩ d : ℝ) : EReal) := fun c d => (block_read ks 512 _ c d (by omega)).trans (hk _ d)
  have hV1 : ∀ (c : Fin 512) (d : Fin 256), (View.ld vs (Rect.unit (s := S2048x256) ![512, 0] S512x256.size inb_S2048x256_S512x256_512_0) : Vec Ideal S512x256 .bf16) (ix2 c d)
      = ((vv ⟨c.val + 512 * (⟨1, by norm_num⟩ : Fin 4).val, by omega⟩ d : ℝ) : EReal) := fun c d => (block_read vs 512 _ c d (by omega)).trans (hv _ d)
  have hK2 : ∀ (c : Fin 512) (d : Fin 256), (View.ld ks (Rect.unit (s := S2048x256) ![1024, 0] S512x256.size inb_S2048x256_S512x256_1024_0) : Vec Ideal S512x256 .bf16) (ix2 c d)
      = ((kk ⟨c.val + 512 * (⟨2, by norm_num⟩ : Fin 4).val, by omega⟩ d : ℝ) : EReal) := fun c d => (block_read ks 1024 _ c d (by omega)).trans (hk _ d)
  have hV2 : ∀ (c : Fin 512) (d : Fin 256), (View.ld vs (Rect.unit (s := S2048x256) ![1024, 0] S512x256.size inb_S2048x256_S512x256_1024_0) : Vec Ideal S512x256 .bf16) (ix2 c d)
      = ((vv ⟨c.val + 512 * (⟨2, by norm_num⟩ : Fin 4).val, by omega⟩ d : ℝ) : EReal) := fun c d => (block_read vs 1024 _ c d (by omega)).trans (hv _ d)
  have hK3 : ∀ (c : Fin 512) (d : Fin 256), (View.ld ks (Rect.unit (s := S2048x256) ![1536, 0] S512x256.size inb_S2048x256_S512x256_1536_0) : Vec Ideal S512x256 .bf16) (ix2 c d)
      = ((kk ⟨c.val + 512 * (⟨3, by norm_num⟩ : Fin 4).val, by omega⟩ d : ℝ) : EReal) := fun c d => (block_read ks 1536 _ c d (by omega)).trans (hk _ d)
  have hV3 : ∀ (c : Fin 512) (d : Fin 256), (View.ld vs (Rect.unit (s := S2048x256) ![1536, 0] S512x256.size inb_S2048x256_S512x256_1536_0) : Vec Ideal S512x256 .bf16) (ix2 c d)
      = ((vv ⟨c.val + 512 * (⟨3, by norm_num⟩ : Fin 4).val, by omega⟩ d : ℝ) : EReal) := fun c d => (block_read vs 1536 _ c d (by omega)).trans (hv _ d)
  -- the four steps of the walk at row `r`
  have s0 := walk_first _ _ _ k0_pay6 (broadcast S512x1 (Scalar.ofBits .f32 0x00000000#32)) (broadcast S512x256 (Scalar.ofBits .f32 0x00000000#32))
    q kk vv hq hK0 hV0 r (pay6_apply r)
  have s1 := walk_later _ _ _ _ _ _ q kk vv ⟨1, by norm_num⟩ (by norm_num) hq hK1 hV1 r s0
  have s2 := walk_later _ _ _ _ _ _ q kk vv ⟨2, by norm_num⟩ (by norm_num) hq hK2 hV2 r s1
  have s3 := walk_later _ _ _ _ _ _ q kk vv ⟨3, by norm_num⟩ (by norm_num) hq hK3 hV3 r s2
  have hL := fun d => walk_last _ _ _ q kk vv r s3 d
  -- the projection
  refine (Cert.KernelIdeal.Row.affine512_apply _ wo bo r e).trans ?_
  rw [EReal.coe_add, coe_finset_sum, hbo]
  exact congrArg (fun x : EReal => x + ((BO e : ℝ) : EReal))
    (Finset.sum_congr rfl fun d _ => (congrArg₂ (fun a b : EReal => a * b) (hL d) (hwo d e)).trans (EReal.coe_mul _ _).symm)

end Tile

end Cert.KernelIdeal.Hand

end
-- ==== Proof.IdealTileSpec.lean ====
/-
  The result tile, the keys and the values of the fused kernel read at an index against the specification.

  The keys and the values are the affine images of the batch's rows. The result tile is assembled from three facts:
  the queries are the affine image of the tile's rows; the head's affine image of the attended rows — the
  softmax-weighted sums of the values over all 2048 keys — is the specification's `h`; and the tail normalises each
  row by its mean and variance, scales, shifts and rectifies, which is the specification's result.
-/
import proofs.«123646_j33698313404907_2_alg».proof.Proof.IdealTile
import proofs.«123646_j33698313404907_2_alg».proof.Proof.IdealProj
import proofs.«123646_j33698313404907_2_alg».proof.Proof.IdealNorm
import proofs.«123646_j33698313404907_2_alg».proof.Proof.IdealAttnChain
import proofs.«123646_j33698313404907_2_alg».proof.Proof.Spec
import proofs.«123646_j33698313404907_2_alg».proof.Proof.Consts
import Idealize.ShloMosaic.Lib.ValueIdx

noncomputable section

namespace Cert.KernelIdeal.Row

open Cert.KernelIdeal Cert.KernelIdeal.Gen Cert.KernelIdeal.Hand
open Idealize.ShloMosaic Idealize.ShloMosaic.ValueIdx

theorem keys_spec (X : Fin 2048 → Fin 256 → ℝ) (W : Fin 256 → Fin 256 → ℝ) (B : Fin 256 → ℝ)
    (xs : Vec Ideal S1x2048x256 .f32) (w : Vec Ideal S256x256 .f32) (bias : Vec Ideal S256 .f32)
    (hx : ∀ n d, xs (ix3 0 n d) = ((X n d : ℝ) : EReal)) (hw : ∀ d e, w (ix2 d e) = ((W e d : ℝ) : EReal))
    (hb : ∀ e, bias (ix1 e) = ((B e : ℝ) : EReal)) (n : Fin 2048) (e : Fin 256) :
    k0_pay3 (F := Ideal) xs w bias (ix2 n e) = ((∑ d, X n d * W e d + B e : ℝ) : EReal) :=
  k0_pay3_apply xs w bias X W B hx hw hb n e

theorem values_spec (X : Fin 2048 → Fin 256 → ℝ) (W : Fin 256 → Fin 256 → ℝ) (B : Fin 256 → ℝ)
    (xs : Vec Ideal S1x2048x256 .f32) (w : Vec Ideal S256x256 .f32) (bias : Vec Ideal S256 .f32)
    (hx : ∀ n d, xs (ix3 0 n d) = ((X n d : ℝ) : EReal)) (hw : ∀ d e, w (ix2 d e) = ((W e d : ℝ) : EReal))
    (hb : ∀ e, bias (ix1 e) = ((B e : ℝ) : EReal)) (n : Fin 2048) (e : Fin 256) :
    k0_pay4 (F := Ideal) xs w bias (ix2 n e) = ((∑ d, X n d * W e d + B e : ℝ) : EReal) :=
  k0_pay4_apply xs w bias X W B hx hw hb n e

theorem tile_spec (A : Cert.Spec.Args) (b : Fin 8) (n0 : ℕ) (hn0 : n0 + 512 ≤ 2048)
    (xq : Vec Ideal S1x512x256 .f32) (wq : Vec Ideal S256x256 .f32) (bq : Vec Ideal S256 .f32) (ks vs : Vec Ideal S2048x256 .bf16)
    (wo : Vec Ideal S256x256 .f32) (bo ga be : Vec Ideal S256 .f32)
    (hxq : ∀ (r : Fin 512) d, xq (ix3 0 r d) = ((A.x b ⟨n0 + r.val, by have := r.isLt; omega⟩ d : ℝ) : EReal))
    (hwq : ∀ d e, wq (ix2 d e) = ((A.wq e d : ℝ) : EReal)) (hbq : ∀ e, bq (ix1 e) = ((A.bq e : ℝ) : EReal))
    (hks : ∀ n e, ks (ix2 n e) = ((Cert.Spec.k A b n e : ℝ) : EReal)) (hvs : ∀ n e, vs (ix2 n e) = ((Cert.Spec.v A b n e : ℝ) : EReal))
    (hwo : ∀ d e, wo (ix2 d e) = ((A.wo e d : ℝ) : EReal)) (hbo : ∀ e, bo (ix1 e) = ((A.bo e : ℝ) : EReal))
    (hga : ∀ e, ga (ix1 e) = ((A.g e : ℝ) : EReal)) (hbe : ∀ e, be (ix1 e) = ((A.beta e : ℝ) : EReal))
    (r : Fin 512) (e : Fin 256) :
    tile (F := Ideal) xq wq bq ks vs wo bo ga be (ix3 0 r e) = Cert.Spec.out A Cert.Consts.eps b ⟨n0 + r.val, by have := r.isLt; omega⟩ e := by
  -- the tile's rows among the batch's 2048
  have hf : ∀ r : Fin 512, n0 + r.val < 2048 := fun r => by have := r.isLt; omega
  -- the queries of the tile's rows
  have hq : ∀ (r : Fin 512) (d : Fin 256),
      k0_pay5 (F := Ideal) xq wq bq (ix2 r d) = ((Cert.Spec.q A b ⟨n0 + r.val, hf r⟩ d : ℝ) : EReal) := fun r d =>
    k0_pay5_apply xq wq bq (fun r d => A.x b ⟨n0 + r.val, hf r⟩ d) A.wq A.bq hxq hwq hbq r d
  -- the head's affine image of the attended rows is the specification's
  have hH := fun (r : Fin 512) (e : Fin 256) =>
    (attn_proj_apply xq wq bq ks vs wo bo (fun r d => Cert.Spec.q A b ⟨n0 + r.val, hf r⟩ d) (Cert.Spec.k A b) (Cert.Spec.v A b)
      A.wo A.bo hq hks hvs hwo hbo r e).trans
      (show _ = ((Cert.Spec.h A b ⟨n0 + r.val, hf r⟩ e : ℝ) : EReal) from rfl)
  -- the tail: normalise, scale, shift, rectify
  refine (Norm.norm_tail_apply _ _ _ _ _ _ _ _ _ _ ga be (fun r e => Cert.Spec.h A b ⟨n0 + r.val, hf r⟩ e) A.g A.beta
    hH hga hbe r e).trans ?_
  exact congrArg (fun y : ℝ => Cert.Spec.lrelu (y : EReal))
    (Norm.hn_spec A b (fun r : Fin 512 => (⟨n0 + r.val, hf r⟩ : Fin 2048)) Cert.Consts.eps r e)

end Cert.KernelIdeal.Row

end
-- ==== Proof.IdealLaunch.lean ====
/-
  The launch of the fused kernel's one region and its frame.
  The buffers behind the windows' arrays, each whole at the full share, make the proof data's arrays at
  entry: the input array's share is halved, one half to the window that reads a batch's whole row block and
  one to the window that reads the query tile; every other array goes whole to its one window.
-/
import proofs.«123646_j33698313404907_2_alg».proof.Proof.IdealFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data's arrays at entry, each window's array as a whole buffer at the window's share. -/
theorem arrays_plain (c : Dev nD) :
    (dats m 0 c).arrays ((dats m 0 c).arrAt · 0)
      = bigSep Finset.univ fun w : Fin 13 => (((c : Thread nD τ).loc (Pipeline.arrRef spec0 w)) ↦{(dats m 0 c).share w} V m c (Pipeline.arrRef spec0 w) : sProp 𝕄) := by
  unfold Dat.arrays
  exact bigSep_congr fun w _ => by rw [(arr_whole0 w).set_eq_univ]; rfl

/-- The twelve distinct buffers behind the thirteen windows' arrays, one by one. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_v0) ↦{fullShare} V m c main_v0) ∗ (((c : Thread nD τ).loc main_arg2) ↦{fullShare} V m c main_arg2) ∗ (((c : Thread nD τ).loc main_v1) ↦{fullShare} V m c main_v1) ∗ (((c : Thread nD τ).loc main_arg4) ↦{fullShare} V m c main_arg4) ∗ (((c : Thread nD τ).loc main_v2) ↦{fullShare} V m c main_v2) ∗ (((c : Thread nD τ).loc main_arg6) ↦{fullShare} V m c main_arg6) ∗ (((c : Thread nD τ).loc main_v3) ↦{fullShare} V m c main_v3) ∗ (((c : Thread nD τ).loc main_arg8) ↦{fullShare} V m c main_arg8) ∗ (((c : Thread nD τ).loc main_arg9) ↦{fullShare} V m c main_arg9) ∗ (((c : Thread nD τ).loc main_arg10) ↦{fullShare} V m c main_arg10) ∗ (((c : Thread nD τ).loc main_v4) ↦{fullShare} V m c main_v4)) := by
  unfold Pipeline.arrBufs
  rw [show Finset.univ.image (Pipeline.arrRef spec0) = {main_arg0, main_v0, main_arg2, main_v1, main_arg4, main_v2, main_arg6, main_v3, main_arg8, main_arg9, main_arg10, main_v4} from by decide,
    bigSep_insert (by decide), bigSep_insert (by decide), bigSep_insert (by decide), bigSep_insert (by decide), bigSep_insert (by decide), bigSep_insert (by decide),
    bigSep_insert (by decide), bigSep_insert (by decide), bigSep_insert (by decide), bigSep_insert (by decide), bigSep_insert (by decide), bigSep_singleton]
  rfl

/-- The buffers behind the windows' arrays dealt to the windows: the input array's
    full share split in two halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_plain, bigSep_W0, arrBufs_eq]
  iintro ⟨H0, Hv0, H2, Hv1, H4, Hv2, H6, Hv3, H8, H9, H10, Hv4⟩
  ihave H0' := (pointsTo_share (PosShare.mem_left_op_right fullShare)).1 $$ H0
  icases H0' with ⟨H0a, H0b⟩
  isplitl [H0a]; · iexact H0a
  isplitl [H0b]; · iexact H0b
  isplitl [Hv0]; · iexact Hv0
  isplitl [H2]; · iexact H2
  isplitl [Hv1]; · iexact Hv1
  isplitl [H4]; · iexact H4
  isplitl [Hv2]; · iexact Hv2
  isplitl [H6]; · iexact H6
  isplitl [Hv3]; · iexact Hv3
  isplitl [H8]; · iexact H8
  isplitl [H9]; · iexact H9
  isplitl [H10]; · iexact H10
  iexact Hv4

set_option backward.isDefEq.respectTransparency.types false in
/-- From any memory with zero counters every weakly fair execution of @main ends, every array of the pipeline
    at what the write-backs computed and every other unscoped buffer as the region found it. -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0 defs₀ Variants.none m ρ main
    (hbody := fun c => (body_obligation m c).loose) (howed := fun _ _ => rfl)
    (V := V m) (hmain := hmain m Variants.none) (hsplit := hsplit m) (hin := hin m) (hout := hout m)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Hand

end
-- ==== Proof.IdealArray.lean ====
/-
  From blocks to the array.
  When every argument is an array of real numbers, what point `t` writes back is block `t` of ONE function of the
  arguments — the specification's result read at (batch, row, feature) — because the point's result tile is the tile
  function of the point's query tile and of the batch's keys and values, and these are the specification's. The 32
  blocks (8 batches × 4 tiles of 512 rows) tile the result array, so the array ends holding that function.
-/
import proofs.«123646_j33698313404907_2_alg».proof.Proof.IdealPoints
import proofs.«123646_j33698313404907_2_alg».proof.Proof.IdealBlocks
import proofs.«123646_j33698313404907_2_alg».proof.Proof.IdealTileSpec
import proofs.«123646_j33698313404907_2_alg».proof.Proof.IdealLaunch

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- Every argument array is an array of real numbers, those of `A`. -/
structure RealArgs (c : Dev nD) (A : Cert.Spec.Args) : Prop where
  x : ∀ b n d, (m ((c : Thread nD τ).loc main_arg0) : S8x2048x256.Idx → EReal) (ix3 b n d) = ((A.x b n d : ℝ) : EReal)
  wq : ∀ e d, (m ((c : Thread nD τ).loc main_arg1) : S256x256.Idx → EReal) (ix2 e d) = ((A.wq e d : ℝ) : EReal)
  bq : ∀ e, (m ((c : Thread nD τ).loc main_arg2) : S256.Idx → EReal) (ix1 e) = ((A.bq e : ℝ) : EReal)
  wk : ∀ e d, (m ((c : Thread nD τ).loc main_arg3) : S256x256.Idx → EReal) (ix2 e d) = ((A.wk e d : ℝ) : EReal)
  bk : ∀ e, (m ((c : Thread nD τ).loc main_arg4) : S256.Idx → EReal) (ix1 e) = ((A.bk e : ℝ) : EReal)
  wv : ∀ e d, (m ((c : Thread nD τ).loc main_arg5) : S256x256.Idx → EReal) (ix2 e d) = ((A.wv e d : ℝ) : EReal)
  bv : ∀ e, (m ((c : Thread nD τ).loc main_arg6) : S256.Idx → EReal) (ix1 e) = ((A.bv e : ℝ) : EReal)
  wo : ∀ e d, (m ((c : Thread nD τ).loc main_arg7) : S256x256.Idx → EReal) (ix2 e d) = ((A.wo e d : ℝ) : EReal)
  bo : ∀ e, (m ((c : Thread nD τ).loc main_arg8) : S256.Idx → EReal) (ix1 e) = ((A.bo e : ℝ) : EReal)
  g : ∀ e, (m ((c : Thread nD τ).loc main_arg9) : S256.Idx → EReal) (ix1 e) = ((A.g e : ℝ) : EReal)
  beta : ∀ e, (m ((c : Thread nD τ).loc main_arg10) : S256.Idx → EReal) (ix1 e) = ((A.beta e : ℝ) : EReal)

/-- The result array as one function of the arguments. -/
def result (A : Cert.Spec.Args) : S8x2048x256.Idx → EReal := fun i => Cert.Spec.out A Cert.Consts.eps (i 0) (i 1) (i 2)

variable {m}

/-- The keys a batch's first point stores are the specification's. -/
theorem keys_eq {c : Dev nD} {A : Cert.Spec.Args} (hA : RealArgs m c A) (t : Fin cfg0.N) (n : Fin 2048) (e : Fin 256) :
    k0_pay3 (F := Ideal) (iblk m c 0 t) (iblk m c 4 t) (iblk m c 5 t) (ix2 n e) = ((Cert.Spec.k A (batchOf t) n e : ℝ) : EReal) :=
  Cert.KernelIdeal.Row.keys_spec (A.x (batchOf t)) A.wk A.bk _ _ _
    (fun n d => (iblk0_apply m c t n d).trans ((V_x_apply m c _).trans (hA.x _ _ _)))
    (fun d e => (iblk4_apply m c t d e).trans (hA.wk e d))
    (fun e => (iblk5_apply m c t e).trans (hA.bk e)) n e

/-- The values it stores are the specification's. -/
theorem values_eq {c : Dev nD} {A : Cert.Spec.Args} (hA : RealArgs m c A) (t : Fin cfg0.N) (n : Fin 2048) (e : Fin 256) :
    k0_pay4 (F := Ideal) (iblk m c 0 t) (iblk m c 6 t) (iblk m c 7 t) (ix2 n e) = ((Cert.Spec.v A (batchOf t) n e : ℝ) : EReal) :=
  Cert.KernelIdeal.Row.values_spec (A.x (batchOf t)) A.wv A.bv _ _ _
    (fun n d => (iblk0_apply m c t n d).trans ((V_x_apply m c _).trans (hA.x _ _ _)))
    (fun d e => (iblk6_apply m c t d e).trans (hA.wv e d))
    (fun e => (iblk7_apply m c t e).trans (hA.bv e)) n e

/-- What point `t` writes back is block `t` of the result function. -/
theorem flushed_eq {c : Dev nD} {A : Cert.Spec.Args} (hA : RealArgs m c A) (t : Fin cfg0.N) :
    (dats m 0 c).flushed 12 t = ((cfg0.win 12).blk t).view.read (Elt Ideal) (result A) := by
  show (cfg0.win 12).cut (grid0.coords t) ((dats m 0 c).after 12 t) = _
  rw [after0_12, out_eq]
  funext j
  obtain ⟨z, r, e, rfl⟩ : ∃ (z : Fin 1) (r : Fin 512) (e : Fin 256), j = ix3 z r e := ⟨j 0, j 1, j 2, eq_ix3 j⟩
  obtain rfl : z = 0 := Subsingleton.elim _ _
  obtain ⟨-, -, -, -, -, -, e0, e1, e2⟩ := idx_facts t
  have hpt := pt_lt t
  refine (Cert.KernelIdeal.Row.tile_spec A (batchOf t) (512 * (t.val % 4)) (by omega) _ _ _ _ _ _ _ _ _
    (fun r d => (iblk1_apply m c t r d).trans ((V_x_apply m c _).trans (hA.x _ _ _)))
    (fun d e => (iblk2_apply m c t d e).trans (hA.wq e d))
    (fun e => (iblk3_apply m c t e).trans (hA.bq e))
    (keys_eq hA t) (values_eq hA t)
    (fun d e => (iblk8_apply m c t d e).trans (hA.wo e d))
    (fun e => (iblk9_apply m c t e).trans (hA.bo e))
    (fun e => (iblk10_apply m c t e).trans (hA.g e))
    (fun e => (iblk11_apply m c t e).trans (hA.beta e)) r e).trans ?_
  show Cert.Spec.out A Cert.Consts.eps _ _ _ = Cert.Spec.out A Cert.Consts.eps
    ((((cfg0.win 12).blk t).view.emb (ix3 0 r e)) 0) ((((cfg0.win 12).blk t).view.emb (ix3 0 r e)) 1) ((((cfg0.win 12).blk t).view.emb (ix3 0 r e)) 2)
  congr 1
  · apply Fin.ext; show t.val / 4 = win0_12.index t (0 : Fin 3) * 1 + 1 * 0; omega
  · apply Fin.ext; show 512 * (t.val % 4) + r.val = win0_12.index t (1 : Fin 3) * 512 + 1 * r.val; omega
  · apply Fin.ext; show e.val = win0_12.index t (2 : Fin 3) * 256 + 1 * e.val; omega

/-- An index of the result array is in point `t`'s block iff each coordinate is in the block's range. -/
theorem mem_blk (t : Fin cfg0.N) (i : S8x2048x256.Idx) :
    i ∈ ((cfg0.win 12).blk t).view.set ↔ ∀ a : Fin 3, win0_12.index t a * S1x512x256.size a ≤ (i a).val ∧ (i a).val < win0_12.index t a * S1x512x256.size a + S1x512x256.size a := by
  show i ∈ ((View.whole main_v4).slice (win0_12.rect t)).set ↔ _
  rw [View.set_slice_whole, Rect.mem_set_unit]
  exact Iff.rfl

/-- Every index of the result array is in some point's block: batch `i 0`, tile `i 1 / 512`. -/
theorem cover (i : S8x2048x256.Idx) : ∃ t : Fin cfg0.N, (cfg0.win 12).flush t = true ∧ i ∈ ((cfg0.win 12).blk t).view.set := by
  have h0 : (i 0).val < 8 := (i 0).isLt
  have h1 : (i 1).val < 2048 := (i 1).isLt
  have h2 : (i 2).val < 256 := (i 2).isLt
  let t : Fin cfg0.N := ⟨4 * (i 0).val + (i 1).val / 512, by rw [show cfg0.N = 32 from N_0]; omega⟩
  have ht : t.val = 4 * (i 0).val + (i 1).val / 512 := rfl
  obtain ⟨-, -, -, -, -, -, e0, e1, e2⟩ := idx_facts t
  refine ⟨t, flush0_12 t, ?_⟩
  rw [mem_blk]
  intro a
  match a with
  | ⟨0, _⟩ => show win0_12.index t (0 : Fin 3) * 1 ≤ (i 0).val ∧ (i 0).val < win0_12.index t (0 : Fin 3) * 1 + 1; omega
  | ⟨1, _⟩ => show win0_12.index t (1 : Fin 3) * 512 ≤ (i 1).val ∧ (i 1).val < win0_12.index t (1 : Fin 3) * 512 + 512; omega
  | ⟨2, _⟩ => show win0_12.index t (2 : Fin 3) * 256 ≤ (i 2).val ∧ (i 2).val < win0_12.index t (2 : Fin 3) * 256 + 256; omega

/-- The result array after the run is the result function of the arguments. -/
theorem final {c : Dev nD} {A : Cert.Spec.Args} (hA : RealArgs m c A) : (dats m 0 c).arrAt 12 cfg0.N = result A :=
  (dats m 0 c).arrAt_eq_of_cover 12 (result A) (fun t _ => flushed_eq hA t) cover

variable (m)

/-- The run, read: from real arguments every weakly fair execution ends with the result array at the result function
    and every argument as it was. -/
theorem run (A : Dev nD → Cert.Spec.Args) (hA : ∀ c, RealArgs m c (A c)) :
    θ_run defs (onTc (τ := τ) (main (F := Ideal))) ⟨m, fun _ => 0, ρ⟩ (fun r => ∀ c : Dev nD,
      r.2.mem ((c.tc : Thread nD τ).loc main_v4) = result (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  exact (θ_run defs _ _).mono (fun r h c => ⟨((h c).1 12).trans (final (hA c)),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).2 main_arg5 (Pipeline.mem_restRefs_of main_arg5 (by decide) (by decide))).trans (V_main_arg5 m c),
      ((h c).1 7).trans (((dats m 0 c).arrAt_in 7 rfl _).trans ((A_eq m c 7).trans (V_main_arg6 m c))),
      ((h c).2 main_arg7 (Pipeline.mem_restRefs_of main_arg7 (by decide) (by decide))).trans (V_main_arg7 m c),
      ((h c).1 9).trans (((dats m 0 c).arrAt_in 9 rfl _).trans ((A_eq m c 9).trans (V_main_arg8 m c))),
      ((h c).1 10).trans (((dats m 0 c).arrAt_in 10 rfl _).trans ((A_eq m c 10).trans (V_main_arg9 m c))),
      ((h c).1 11).trans (((dats m 0 c).arrAt_in 11 rfl _).trans ((A_eq m c 11).trans (V_main_arg10 m c)))⟩)
    (run_main (F := Ideal) m ρ)

end Cert.KernelIdeal.Hand

end
-- ==== Proof.RefIdx.lean ====
/-
  Index equations for the reference's stages: the composed index functions of the generated read lemmas,
  at an index given by its coordinates, are again indices given by coordinates.
-/
import proofs.«123646_j33698313404907_2_alg».proof.Proof.Gen.ReferenceIdeal.Read

namespace Cert.ReferenceIdeal.RefValue

open Cert.ReferenceIdeal Cert.ReferenceIdeal.Read Idealize.ShloMosaic Idealize.ShloMosaic.ValueIdx

variable (b : Fin 8) (n m : Fin 2048) (e d : Fin 256)

/-! The affine maps `x · Wᵀ + bias`: row `(b, n)` of the left operand against row `e` of the weight. -/

theorem lidx_v0 (k : Fin 256) : lidx_main_v0 (ix3 b n e) k = ix3 b n k :=
  funext fun a => Fin.ext (by match a with | ⟨0, _⟩ => rfl | ⟨1, _⟩ => rfl | ⟨2, _⟩ => rfl)

theorem ridx_v0 (k : Fin 256) : ridx_main_v0 (ix3 b n e) k = ix2 e k :=
  funext fun a => Fin.ext (by match a with | ⟨0, _⟩ => rfl | ⟨1, _⟩ => rfl)

theorem idx_v1_v2 : idx_main_v1 (idx_main_v2 (ix3 b n e)) = ix1 e :=
  funext fun a => Fin.ext (by match a with | ⟨0, _⟩ => rfl)

/-! The scores: query row `n` against key row `m`. -/

theorem lidx_v12 (k : Fin 256) : lidx_main_v12 (ix3 b n m) k = ix3 b n k :=
  funext fun a => Fin.ext (by match a with | ⟨0, _⟩ => rfl | ⟨1, _⟩ => rfl | ⟨2, _⟩ => rfl)

theorem ridx_v12 (k : Fin 256) : ridx_main_v12 (ix3 b n m) k = ix3 b m k :=
  funext fun a => Fin.ext (by match a with | ⟨0, _⟩ => rfl | ⟨1, _⟩ => rfl | ⟨2, _⟩ => rfl)

/-! A per-row quantity kept with a unit last axis and spread over the row: entry `(b, n, ·)` reads row `(b, n)`. -/

theorem idx_v16_v17 : idx_main_v16 (idx_main_v17 (ix3 b n m)) = ix2 b n :=
  funext fun a => Fin.ext (by match a with | ⟨0, _⟩ => rfl | ⟨1, _⟩ => rfl)

theorem idx_v21_v22 : idx_main_v21 (idx_main_v22 (ix3 b n m)) = ix2 b n :=
  funext fun a => Fin.ext (by match a with | ⟨0, _⟩ => rfl | ⟨1, _⟩ => rfl)

theorem idx_v33 : idx_main_v33 (ix3 b n e) = ix3 b n (0 : Fin 1) :=
  funext fun a => Fin.ext (by match a with | ⟨0, _⟩ => rfl | ⟨1, _⟩ => rfl | ⟨2, _⟩ => rfl)

theorem idx_v40 : idx_main_v40 (ix3 b n e) = ix3 b n (0 : Fin 1) :=
  funext fun a => Fin.ext (by match a with | ⟨0, _⟩ => rfl | ⟨1, _⟩ => rfl | ⟨2, _⟩ => rfl)

theorem idx_v45 : idx_main_v45 (ix3 b n e) = ix3 b n (0 : Fin 1) :=
  funext fun a => Fin.ext (by match a with | ⟨0, _⟩ => rfl | ⟨1, _⟩ => rfl | ⟨2, _⟩ => rfl)

theorem idx_v30 : idx_main_v30 (ix3 b n (0 : Fin 1)) = ix2 b n :=
  funext fun a => Fin.ext (by match a with | ⟨0, _⟩ => rfl | ⟨1, _⟩ => rfl)

theorem idx_v37 : idx_main_v37 (ix3 b n (0 : Fin 1)) = ix2 b n :=
  funext fun a => Fin.ext (by match a with | ⟨0, _⟩ => rfl | ⟨1, _⟩ => rfl)

/-! The sums along the last axis: row `(b, n)` with the summation index put on the last axis. -/

theorem idx_v20 (k : Fin 2048) : idx_main_v20 (ix2 b n) k = ix3 b n k :=
  funext fun a => Fin.ext (by match a with | ⟨0, _⟩ => rfl | ⟨1, _⟩ => rfl | ⟨2, _⟩ => rfl)

theorem idx_v29 (k : Fin 256) : idx_main_v29 (ix2 b n) k = ix3 b n k :=
  funext fun a => Fin.ext (by match a with | ⟨0, _⟩ => rfl | ⟨1, _⟩ => rfl | ⟨2, _⟩ => rfl)

theorem idx_v36 (k : Fin 256) : idx_main_v36 (ix2 b n) k = ix3 b n k :=
  funext fun a => Fin.ext (by match a with | ⟨0, _⟩ => rfl | ⟨1, _⟩ => rfl | ⟨2, _⟩ => rfl)

/-! The attended row: weight `(b, n, k)` against value row `k`, feature `d`. -/

theorem lidx_v24 (k : Fin 2048) : lidx_main_v24 (ix3 b n d) k = ix3 b n k :=
  funext fun a => Fin.ext (by match a with | ⟨0, _⟩ => rfl | ⟨1, _⟩ => rfl | ⟨2, _⟩ => rfl)

theorem ridx_v24 (k : Fin 2048) : ridx_main_v24 (ix3 b n d) k = ix3 b k d :=
  funext fun a => Fin.ext (by match a with | ⟨0, _⟩ => rfl | ⟨1, _⟩ => rfl | ⟨2, _⟩ => rfl)

/-! The scale and the shift of the normalised row: feature `e` of a vector spread over all rows. -/

theorem idx_v47_v48 : idx_main_v47 (idx_main_v48 (ix3 b n e)) = ix1 e :=
  funext fun a => Fin.ext (by match a with | ⟨0, _⟩ => rfl)

theorem idx_v50_v51 : idx_main_v50 (idx_main_v51 (ix3 b n e)) = ix1 e :=
  funext fun a => Fin.ext (by match a with | ⟨0, _⟩ => rfl)

end Cert.ReferenceIdeal.RefValue
-- ==== Proof.RefReduce.lean ====
/-
  The row maximum. A maximum-reduce from minus infinity along the last axis of a rank-3 array of real
  numbers is, at each row, the largest entry of the row.
-/
import Idealize.ShloMosaic.Lib.Pipeline.Value
import Idealize.ShloMosaic.Lib.ValueIdx
import Idealize.ShloMosaic.PureOps.Ideal.Laws
import proofs.«123646_j33698313404907_2_alg».proof.Proof.LibOnlineSoftmax

noncomputable section

namespace Cert.ReferenceIdeal.RefValue

open Idealize.ShloMosaic Idealize.ShloMosaic.ValueIdx

/-- The row index `(p, q)` with the coordinate `k` put back on the last axis is `(p, q, k)`. -/
theorem lift_last {a b c : Nat} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- The maximum-reduce along the last axis, started at minus infinity, of an array whose entries are the real
    numbers `f p q k`: at row `(p, q)` it is the largest of `f p q k` over `k`. -/
theorem reduce_max_last {a b c : Nat} [Nonempty (Fin c)] {u : Shape} (x : FVec Ideal ⟨3, ![a, b, c]⟩ .f32)
    (init : u.Idx → Ideal .f32) (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel)
    (hinit : init (Shape.Idx.first hu) = (⊥ : EReal))
    (f : Fin a → Fin b → Fin c → ℝ) (hx : ∀ p q k, x (ix3 p q k) = ((f p q k : ℝ) : EReal)) (p : Fin a) (q : Fin b) :
    Host.reduce FloatOps.maximumf x init h' hu (ix2 p q)
      = ((Finset.univ.sup' Finset.univ_nonempty (f p q) : ℝ) : EReal) := by
  rw [Host.reduce_eq_fold_single FloatOps.maximumf x init h' h hu]
  show (Finset.univ : Finset (Fin c)).fold max (init (Shape.Idx.first hu)) (x ∘ h.lift (ix2 p q)) = _
  exact Cert.Lib.OnlineSoftmax.fold_max_of_eq hinit _ Finset.univ_nonempty _ (f p q) (fun k => by
    show x (h.lift (ix2 p q) k) = _
    rw [lift_last h p q k]; exact hx p q _)

end Cert.ReferenceIdeal.RefValue

end
-- ==== Proof.RefAttention.lean ====
/-
  The attention half of the reference, stage by stage: when the eleven arguments hold real numbers, each
  intermediate array holds, at every index, the real number the specification names there — the affine
  images q, k, v, the scores, each row's largest score, the shifted exponentials, their row sums, the
  softmax weights and the attended rows.
-/
import proofs.«123646_j33698313404907_2_alg».proof.Proof.RefIdx
import proofs.«123646_j33698313404907_2_alg».proof.Proof.RefReduce
import proofs.«123646_j33698313404907_2_alg».proof.Proof.Spec
import proofs.«123646_j33698313404907_2_alg».proof.Proof.Consts

noncomputable section

namespace Cert.ReferenceIdeal.RefValue

open scoped BigOperators
open Cert.ReferenceIdeal Cert.ReferenceIdeal.Read Idealize.ShloMosaic Idealize.ShloMosaic.ValueIdx
open Cert.Lib.OnlineSoftmax (coe_finset_sum div_coe_coe max_bot_left floatOps_ofBits_f32_neg_inf)

/-- The eleven argument arrays hold, index by index, the real numbers of `A`. -/
structure Reads (A : Cert.Spec.Args) (x : FVec Ideal S8x2048x256 .f32)
    (wq : FVec Ideal S256x256 .f32) (bq : FVec Ideal S256 .f32) (wk : FVec Ideal S256x256 .f32) (bk : FVec Ideal S256 .f32)
    (wv : FVec Ideal S256x256 .f32) (bv : FVec Ideal S256 .f32) (wo : FVec Ideal S256x256 .f32) (bo : FVec Ideal S256 .f32)
    (g : FVec Ideal S256 .f32) (beta : FVec Ideal S256 .f32) : Prop where
  hx : ∀ b n d, x (ix3 b n d) = ((A.x b n d : ℝ) : EReal)
  hwq : ∀ e d, wq (ix2 e d) = ((A.wq e d : ℝ) : EReal)
  hbq : ∀ e, bq (ix1 e) = ((A.bq e : ℝ) : EReal)
  hwk : ∀ e d, wk (ix2 e d) = ((A.wk e d : ℝ) : EReal)
  hbk : ∀ e, bk (ix1 e) = ((A.bk e : ℝ) : EReal)
  hwv : ∀ e d, wv (ix2 e d) = ((A.wv e d : ℝ) : EReal)
  hbv : ∀ e, bv (ix1 e) = ((A.bv e : ℝ) : EReal)
  hwo : ∀ e d, wo (ix2 e d) = ((A.wo e d : ℝ) : EReal)
  hbo : ∀ e, bo (ix1 e) = ((A.bo e : ℝ) : EReal)
  hg : ∀ e, g (ix1 e) = ((A.g e : ℝ) : EReal)
  hbeta : ∀ e, beta (ix1 e) = ((A.beta e : ℝ) : EReal)

/-- An affine image `y · Wᵀ + c` of an array of real numbers by a real weight and a real bias is, entry by
    entry, the real number `∑ d, Y b n d * W e d + C e`. -/
theorem affine_at (y : FVec Ideal S8x2048x256 .f32) (w : FVec Ideal S256x256 .f32) (c : FVec Ideal S256 .f32)
    (Y : Fin 8 → Fin 2048 → Fin 256 → ℝ) (W : Fin 256 → Fin 256 → ℝ) (C : Fin 256 → ℝ)
    (hy : ∀ b n d, y (ix3 b n d) = ((Y b n d : ℝ) : EReal)) (hw : ∀ e d, w (ix2 e d) = ((W e d : ℝ) : EReal))
    (hc : ∀ e, c (ix1 e) = ((C e : ℝ) : EReal)) (b : Fin 8) (n : Fin 2048) (e : Fin 256) :
    val_main_v3 (F := Ideal) y w c (ix3 b n e) = (((∑ d : Fin 256, Y b n d * W e d) + C e : ℝ) : EReal) := by
  rw [val_main_v3_apply, val_main_v0_apply, val_main_v2_apply, val_main_v1_apply, idx_v1_v2, hc, Ideal.addf_def,
    EReal.coe_add, coe_finset_sum]
  congr 1
  exact Finset.sum_congr rfl fun k _ => by rw [lidx_v0, ridx_v0, hy, hw, EReal.coe_mul]

variable {A : Cert.Spec.Args} {x : FVec Ideal S8x2048x256 .f32}
  {wq : FVec Ideal S256x256 .f32} {bq : FVec Ideal S256 .f32} {wk : FVec Ideal S256x256 .f32} {bk : FVec Ideal S256 .f32}
  {wv : FVec Ideal S256x256 .f32} {bv : FVec Ideal S256 .f32} {wo : FVec Ideal S256x256 .f32} {bo : FVec Ideal S256 .f32}
  {g : FVec Ideal S256 .f32} {beta : FVec Ideal S256 .f32}
  (R : Reads A x wq bq wk bk wv bv wo bo g beta) (b : Fin 8) (n m : Fin 2048) (e d : Fin 256)

include R

/-- The queries. -/
theorem q_at : val_main_v3 (F := Ideal) x wq bq (ix3 b n e) = ((Spec.q A b n e : ℝ) : EReal) :=
  affine_at x wq bq A.x A.wq A.bq R.hx R.hwq R.hbq b n e

/-- The keys. -/
theorem k_at : val_main_v7 (F := Ideal) x wk bk (ix3 b n e) = ((Spec.k A b n e : ℝ) : EReal) :=
  affine_at x wk bk A.x A.wk A.bk R.hx R.hwk R.hbk b n e

/-- The values. -/
theorem v_at : val_main_v11 (F := Ideal) x wv bv (ix3 b n e) = ((Spec.v A b n e : ℝ) : EReal) :=
  affine_at x wv bv A.x A.wv A.bv R.hx R.hwv R.hbv b n e

/-- The score of query row `n` against key row `m`. -/
theorem score_at : val_main_v12 (F := Ideal) x wq bq wk bk (ix3 b n m) = ((Spec.score A b n m : ℝ) : EReal) := by
  rw [val_main_v12_apply]
  unfold Spec.score
  rw [coe_finset_sum]
  exact Finset.sum_congr rfl fun k _ => by rw [lidx_v12, ridx_v12, q_at R, k_at R, EReal.coe_mul]

/-- A row's largest score: the maximum-reduce from minus infinity, then the maximum with minus infinity again. -/
theorem smax_at : val_main_v15 (F := Ideal) x wq bq wk bk (ix2 b n) = ((Spec.smax A b n : ℝ) : EReal) := by
  rw [val_main_v15_apply, val_main_v14_apply, val_main_cst_0_apply, Ideal.maximumf_def, floatOps_ofBits_f32_neg_inf,
    max_bot_left]
  unfold val_main_v13 Spec.smax
  exact reduce_max_last _ _ _ (by decide) _ floatOps_ofBits_f32_neg_inf (Spec.score A) (fun p q k => score_at R p q k) b n

/-- The exponential of a score shifted by its row's largest. -/
theorem exp_at : val_main_v19 (F := Ideal) x wq bq wk bk (ix3 b n m)
    = ((Real.exp (Spec.score A b n m - Spec.smax A b n) : ℝ) : EReal) := by
  rw [val_main_v19_apply, val_main_v18_apply, val_main_v17_apply, val_main_v16_apply, idx_v16_v17, score_at R, smax_at R,
    Ideal.hostUnary_exp_def, Ideal.subf_def, ← EReal.coe_sub, Ideal.exp_coe]

/-- A row's sum of shifted exponentials. -/
theorem den_at : val_main_v20 (F := Ideal) x wq bq wk bk (ix2 b n)
    = ((∑ m' : Fin 2048, Real.exp (Spec.score A b n m' - Spec.smax A b n) : ℝ) : EReal) := by
  rw [val_main_v20_apply, val_main_cst_1_apply, Ideal.ofBits_def, Cert.Consts.ofBits_zero, zero_add, coe_finset_sum]
  exact Finset.sum_congr rfl fun k _ => by rw [idx_v20, exp_at R]

/-- The softmax weight: the quotient by the row sum, which is positive. -/
theorem prob_at : val_main_v23 (F := Ideal) x wq bq wk bk (ix3 b n m) = ((Spec.prob A b n m : ℝ) : EReal) := by
  rw [val_main_v23_apply, val_main_v22_apply, val_main_v21_apply, idx_v21_v22, exp_at R, den_at R, Ideal.hostDivf_def]
  unfold Spec.prob
  exact div_coe_coe _ (ne_of_gt (Finset.sum_pos (fun k _ => Real.exp_pos _) Finset.univ_nonempty))

/-- The attended row: the softmax-weighted sum of the value rows. -/
theorem loc_at : val_main_v24 (F := Ideal) x wq bq wk bk wv bv (ix3 b n d) = ((Spec.loc A b n d : ℝ) : EReal) := by
  rw [val_main_v24_apply]
  unfold Spec.loc
  rw [coe_finset_sum]
  exact Finset.sum_congr rfl fun k _ => by rw [lidx_v24, ridx_v24, prob_at R, v_at R, EReal.coe_mul]

end Cert.ReferenceIdeal.RefValue

end
-- ==== Proof.RefNorm.lean ====
/-
  The head of the reference, stage by stage: the affine map of the attended rows, each row's mean and
  variance over its 256 features, the root of the variance plus the small positive number, and the
  normalised, scaled and shifted row — each, at every index, the real number the specification names.
-/
import proofs.«123646_j33698313404907_2_alg».proof.Proof.RefAttention

noncomputable section

namespace Cert.ReferenceIdeal.RefValue

open scoped BigOperators
open Cert.ReferenceIdeal Cert.ReferenceIdeal.Read Idealize.ShloMosaic Idealize.ShloMosaic.ValueIdx
open Cert.Lib.OnlineSoftmax (coe_finset_sum div_coe_coe)

variable {A : Cert.Spec.Args} {x : FVec Ideal S8x2048x256 .f32}
  {wq : FVec Ideal S256x256 .f32} {bq : FVec Ideal S256 .f32} {wk : FVec Ideal S256x256 .f32} {bk : FVec Ideal S256 .f32}
  {wv : FVec Ideal S256x256 .f32} {bv : FVec Ideal S256 .f32} {wo : FVec Ideal S256x256 .f32} {bo : FVec Ideal S256 .f32}
  {g : FVec Ideal S256 .f32} {beta : FVec Ideal S256 .f32}
  (R : Reads A x wq bq wk bk wv bv wo bo g beta) (b : Fin 8) (n : Fin 2048) (e : Fin 256)

include R

/-- The head's affine map of the attended rows. -/
theorem h_at : val_main_v28 (F := Ideal) x wq bq wk bk wv bv wo bo (ix3 b n e) = ((Spec.h A b n e : ℝ) : EReal) :=
  affine_at (val_main_v24 (F := Ideal) x wq bq wk bk wv bv) wo bo (Spec.loc A) A.wo A.bo (fun b n d => loc_at R b n d)
    R.hwo R.hbo b n e

/-- A row's sum over its features. -/
theorem sum_h_at : val_main_v29 (F := Ideal) x wq bq wk bk wv bv wo bo (ix2 b n)
    = ((∑ e' : Fin 256, Spec.h A b n e' : ℝ) : EReal) := by
  rw [val_main_v29_apply, val_main_cst_2_apply, Ideal.ofBits_def, Cert.Consts.ofBits_zero, zero_add, coe_finset_sum]
  exact Finset.sum_congr rfl fun k _ => by rw [idx_v29, h_at R]

/-- A row's mean, kept with a unit last axis. -/
theorem mean_at : val_main_v32 (F := Ideal) x wq bq wk bk wv bv wo bo (ix3 b n (0 : Fin 1))
    = ((Spec.mean A b n : ℝ) : EReal) := by
  rw [val_main_v32_apply, val_main_v30_apply, idx_v30, sum_h_at R, val_main_v31_apply, val_main_cst_3_apply,
    Ideal.ofBits_def, Cert.Consts.ofBits_256, Ideal.hostDivf_def]
  unfold Spec.mean
  exact div_coe_coe _ (by norm_num)

/-- An entry less its row's mean (the copy that is squared). -/
theorem centred_at : val_main_v34 (F := Ideal) x wq bq wk bk wv bv wo bo (ix3 b n e)
    = ((Spec.h A b n e - Spec.mean A b n : ℝ) : EReal) := by
  rw [val_main_v34_apply, val_main_v33_apply, idx_v33, h_at R, mean_at R, Ideal.subf_def, ← EReal.coe_sub]

/-- An entry less its row's mean (the copy that is normalised). -/
theorem centred'_at : val_main_v41 (F := Ideal) x wq bq wk bk wv bv wo bo (ix3 b n e)
    = ((Spec.h A b n e - Spec.mean A b n : ℝ) : EReal) := by
  rw [val_main_v41_apply, val_main_v40_apply, idx_v40, h_at R, mean_at R, Ideal.subf_def, ← EReal.coe_sub]

/-- A row's sum of squared deviations. -/
theorem sumsq_at : val_main_v36 (F := Ideal) x wq bq wk bk wv bv wo bo (ix2 b n)
    = ((∑ e' : Fin 256, (Spec.h A b n e' - Spec.mean A b n) * (Spec.h A b n e' - Spec.mean A b n) : ℝ) : EReal) := by
  rw [val_main_v36_apply, val_main_cst_4_apply, Ideal.ofBits_def, Cert.Consts.ofBits_zero, zero_add, coe_finset_sum]
  exact Finset.sum_congr rfl fun k _ => by
    rw [idx_v36, val_main_v35_apply, centred_at R, Ideal.mulf_def, ← EReal.coe_mul]

/-- A row's variance, kept with a unit last axis. -/
theorem var_at : val_main_v39 (F := Ideal) x wq bq wk bk wv bv wo bo (ix3 b n (0 : Fin 1))
    = ((Spec.var A b n : ℝ) : EReal) := by
  rw [val_main_v39_apply, val_main_v37_apply, idx_v37, sumsq_at R, val_main_v38_apply, val_main_cst_5_apply,
    Ideal.ofBits_def, Cert.Consts.ofBits_256, Ideal.hostDivf_def]
  unfold Spec.var
  exact div_coe_coe _ (by norm_num)

/-- The root of the variance plus the small positive number: a root of a positive real. -/
theorem sd_at : val_main_v44 (F := Ideal) x wq bq wk bk wv bv wo bo (ix3 b n (0 : Fin 1))
    = ((Real.sqrt (Spec.var A b n + Cert.Consts.eps) : ℝ) : EReal) := by
  rw [val_main_v44_apply, val_main_v43_apply, var_at R, val_main_v42_apply, val_main_cst_6_apply, Ideal.ofBits_def,
    Cert.Consts.ofBits_eps, Ideal.addf_def, ← EReal.coe_add, Ideal.hostUnary_sqrt_def, Ideal.sqrt_coe,
    if_neg (not_lt.2 (add_nonneg (Spec.var_nonneg A b n) Cert.Consts.eps_pos.le))]

/-- The normalised row, scaled by `g` and shifted by `beta`; the root it divides by is positive. -/
theorem hn_at : val_main_v52 (F := Ideal) x wq bq wk bk wv bv wo bo g beta (ix3 b n e)
    = ((Spec.hn A Cert.Consts.eps b n e : ℝ) : EReal) := by
  have hpos : Real.sqrt (Spec.var A b n + Cert.Consts.eps) ≠ 0 :=
    ne_of_gt (Real.sqrt_pos.2 (add_pos_of_nonneg_of_pos (Spec.var_nonneg A b n) Cert.Consts.eps_pos))
  rw [val_main_v52_apply, val_main_v49_apply, val_main_v46_apply, val_main_v45_apply, idx_v45, centred'_at R, sd_at R,
    val_main_v48_apply, val_main_v47_apply, idx_v47_v48, R.hg, val_main_v51_apply, val_main_v50_apply, idx_v50_v51, R.hbeta,
    Ideal.hostDivf_def, div_coe_coe _ hpos, Ideal.mulf_def, ← EReal.coe_mul, Ideal.addf_def, ← EReal.coe_add]
  rfl

end Cert.ReferenceIdeal.RefValue

end
-- ==== Proof.RefValue.lean ====
/-
  The reference's result is the specification: at every index the last stage — compare with zero, multiply
  by the slope, select — is the leaky rectifier of the normalised row's real number.
-/
import proofs.«123646_j33698313404907_2_alg».proof.Proof.RefNorm

noncomputable section

namespace Cert.ReferenceIdeal.RefValue

open Cert.ReferenceIdeal Cert.ReferenceIdeal.Read Idealize.ShloMosaic Idealize.ShloMosaic.ValueIdx

/-- The left side is the reference's last stage applied to the eleven argument arrays: the form the generated
    equation of the run's result term with its last stage produces, with the arguments' contents as variables. -/
theorem result_eq (A : Cert.Spec.Args) (x : FVec Ideal S8x2048x256 .f32)
    (wq : FVec Ideal S256x256 .f32) (bq : FVec Ideal S256 .f32) (wk : FVec Ideal S256x256 .f32) (bk : FVec Ideal S256 .f32)
    (wv : FVec Ideal S256x256 .f32) (bv : FVec Ideal S256 .f32) (wo : FVec Ideal S256x256 .f32) (bo : FVec Ideal S256 .f32)
    (g : FVec Ideal S256 .f32) (beta : FVec Ideal S256 .f32)
    (hx : ∀ b n d, x (ValueIdx.ix3 b n d) = ((A.x b n d : ℝ) : EReal))
    (hwq : ∀ e d, wq (ValueIdx.ix2 e d) = ((A.wq e d : ℝ) : EReal))
    (hbq : ∀ e, bq (ValueIdx.ix1 e) = ((A.bq e : ℝ) : EReal))
    (hwk : ∀ e d, wk (ValueIdx.ix2 e d) = ((A.wk e d : ℝ) : EReal))
    (hbk : ∀ e, bk (ValueIdx.ix1 e) = ((A.bk e : ℝ) : EReal))
    (hwv : ∀ e d, wv (ValueIdx.ix2 e d) = ((A.wv e d : ℝ) : EReal))
    (hbv : ∀ e, bv (ValueIdx.ix1 e) = ((A.bv e : ℝ) : EReal))
    (hwo : ∀ e d, wo (ValueIdx.ix2 e d) = ((A.wo e d : ℝ) : EReal))
    (hbo : ∀ e, bo (ValueIdx.ix1 e) = ((A.bo e : ℝ) : EReal))
    (hg : ∀ e, g (ValueIdx.ix1 e) = ((A.g e : ℝ) : EReal))
    (hbeta : ∀ e, beta (ValueIdx.ix1 e) = ((A.beta e : ℝ) : EReal)) :
    val_main_v57 (F := Ideal) x wq bq wk bk wv bv wo bo g beta
      = fun i => Cert.Spec.out A Cert.Consts.eps (i 0) (i 1) (i 2) := by
  have R : Reads A x wq bq wk bk wv bv wo bo g beta := ⟨hx, hwq, hbq, hwk, hbk, hwv, hbv, hwo, hbo, hg, hbeta⟩
  funext i
  obtain ⟨b, n, e, rfl⟩ : ∃ (b : Fin 8) (n : Fin 2048) (e : Fin 256), i = ix3 b n e := ⟨i 0, i 1, i 2, eq_ix3 i⟩
  rw [val_main_v57_apply, val_main_v54_apply, val_main_v56_apply, val_main_v55_apply, val_main_cst_8_apply,
    val_main_v53_apply, val_main_cst_7_apply, hn_at R, Ideal.mulf_def, Ideal.ofBits_def, Ideal.ofBits_def]
  rfl

end Cert.ReferenceIdeal.RefValue

end
-- ==== Proof.RealArgs.lean ====
/-
  Finiteness from the precondition. The precondition tests, for each of the eleven argument arrays, that every
  entry's absolute value is below plus infinity, and joins the eleven answers by "and". On the extended reals
  an entry whose absolute value is below plus infinity is neither infinity, so it is a real number; hence, when
  the precondition answers "true", the eleven arrays are, entry by entry, the arrays of real numbers of one
  argument record of the specification.
-/
import proofs.«123646_j33698313404907_2_alg».proof.Pre_finite_inputs
import proofs.«123646_j33698313404907_2_alg».proof.Proof.Spec
import Idealize.ShloMosaic.Lib.ReduceAll
import Idealize.ShloMosaic.Lib.ValueIdx

noncomputable section

namespace Cert.RealArgs

open Idealize.ShloMosaic Idealize.ShloMosaic.ValueIdx
open Cert.Pre_finite_inputs (S8x2048x256 S256x256 S256 S_)

/-- The scalar shape has one index. -/
instance : Subsingleton S_.Idx := ⟨fun _ _ => funext fun d => d.elim0⟩

/-- The word of plus infinity denotes the top of the extended reals. -/
theorem ofBits_pos_inf : Ideal.ofBits .f32 0x7F800000#32 = (⊤ : EReal) := by
  simp [Ideal.ofBits, Ideal.ieee]

/-- An extended real whose absolute value `max x (-x)` compares below plus infinity is a real number. -/
theorem real_of_abs_lt_inf (x : EReal)
    (h : Ideal.cmp .olt (max x (-x)) (Ideal.ofBits .f32 0x7F800000#32) = 1#1) : x = ((x.toReal : ℝ) : EReal) := by
  rw [ofBits_pos_inf] at h
  have hlt : max x (-x) < ⊤ := by
    by_contra hn
    have e : Ideal.cmp .olt (max x (-x)) ⊤ = BitVec.ofBool (decide (max x (-x) < ⊤)) := rfl
    rw [e, decide_eq_false hn] at h
    exact absurd h (by decide)
  induction x using EReal.rec with
  | bot => exact absurd hlt (by simp)
  | coe r => rw [EReal.toReal_coe]
  | top => exact absurd hlt (by simp)

/-- Two one-bit arrays whose "and" is 1 at an index are both 1 there. -/
theorem andi_one {s : Shape} (x y : IVec s 1) (i : s.Idx) (h : andi x y i = 1#1) : x i = 1#1 ∧ y i = 1#1 :=
  IntOp.andi_eq_one.1 h

/-- One array's test: if "every entry's absolute value is below plus infinity" reduces by "and" from 1 to 1,
    every entry is a real number. -/
theorem entry_real {s : Shape} {axes : List (Fin s.rank)} (a : FVec Ideal s .f32)
    (hb : S_.BroadcastsInDim s (![] : Fin 0 → Fin s.rank)) (hr : s.ReducesTo axes S_) (hu : 0 < S_.numel) (j : S_.Idx)
    (h : Host.reduce IntOp.andi (cmpf .olt (Host.absf a) (broadcastInDim s ![] hb (constant (F := Ideal) S_ .f32 0x7F800000#32)))
      (constantI S_ 1 1#1) hr hu j = 1#1) (i : s.Idx) : a i = (((a i).toReal : ℝ) : EReal) :=
  real_of_abs_lt_inf (a i) (Host.reduce_andi_all _ _ hr hu j h i)

variable [Cert.Pre_finite_inputs.Facts]

/-- When the precondition answers "true", the eleven arrays hold the real numbers of one argument record. -/
theorem real_args (a0 : FVec Ideal S8x2048x256 .f32) (a1 : FVec Ideal S256x256 .f32) (a2 : FVec Ideal S256 .f32)
    (a3 : FVec Ideal S256x256 .f32) (a4 : FVec Ideal S256 .f32) (a5 : FVec Ideal S256x256 .f32) (a6 : FVec Ideal S256 .f32)
    (a7 : FVec Ideal S256x256 .f32) (a8 : FVec Ideal S256 .f32) (a9 : FVec Ideal S256 .f32) (a10 : FVec Ideal S256 .f32)
    (h : Cert.Pre_finite_inputs.fn (F := Ideal) a0 a1 a2 a3 a4 a5 a6 a7 a8 a9 a10 = (fun _ => 1#1)) :
    ∃ A : Cert.Spec.Args,
      (∀ b n d, a0 (ValueIdx.ix3 b n d) = ((A.x b n d : ℝ) : EReal))
      ∧ (∀ e d, a1 (ValueIdx.ix2 e d) = ((A.wq e d : ℝ) : EReal))
      ∧ (∀ e, a2 (ValueIdx.ix1 e) = ((A.bq e : ℝ) : EReal))
      ∧ (∀ e d, a3 (ValueIdx.ix2 e d) = ((A.wk e d : ℝ) : EReal))
      ∧ (∀ e, a4 (ValueIdx.ix1 e) = ((A.bk e : ℝ) : EReal))
      ∧ (∀ e d, a5 (ValueIdx.ix2 e d) = ((A.wv e d : ℝ) : EReal))
      ∧ (∀ e, a6 (ValueIdx.ix1 e) = ((A.bv e : ℝ) : EReal))
      ∧ (∀ e d, a7 (ValueIdx.ix2 e d) = ((A.wo e d : ℝ) : EReal))
      ∧ (∀ e, a8 (ValueIdx.ix1 e) = ((A.bo e : ℝ) : EReal))
      ∧ (∀ e, a9 (ValueIdx.ix1 e) = ((A.g e : ℝ) : EReal))
      ∧ (∀ e, a10 (ValueIdx.ix1 e) = ((A.beta e : ℝ) : EReal)) := by
  have h0 := congrFun h ValueIdx.ix0
  dsimp only [Cert.Pre_finite_inputs.fn, Cert.Pre_finite_inputs.fn_part1, Cert.Pre_finite_inputs.fn_part2,
    Cert.Pre_finite_inputs.fn_part3] at h0
  obtain ⟨h0, e10⟩ := andi_one _ _ _ h0
  obtain ⟨h0, e9⟩ := andi_one _ _ _ h0
  obtain ⟨h0, e8⟩ := andi_one _ _ _ h0
  obtain ⟨h0, e7⟩ := andi_one _ _ _ h0
  obtain ⟨h0, e6⟩ := andi_one _ _ _ h0
  obtain ⟨h0, e5⟩ := andi_one _ _ _ h0
  obtain ⟨h0, e4⟩ := andi_one _ _ _ h0
  obtain ⟨h0, e3⟩ := andi_one _ _ _ h0
  obtain ⟨h0, e2⟩ := andi_one _ _ _ h0
  obtain ⟨e0, e1⟩ := andi_one _ _ _ h0
  exact ⟨⟨fun b n d => (a0 (ValueIdx.ix3 b n d)).toReal, fun e d => (a1 (ValueIdx.ix2 e d)).toReal,
      fun e => (a2 (ValueIdx.ix1 e)).toReal, fun e d => (a3 (ValueIdx.ix2 e d)).toReal,
      fun e => (a4 (ValueIdx.ix1 e)).toReal, fun e d => (a5 (ValueIdx.ix2 e d)).toReal,
      fun e => (a6 (ValueIdx.ix1 e)).toReal, fun e d => (a7 (ValueIdx.ix2 e d)).toReal,
      fun e => (a8 (ValueIdx.ix1 e)).toReal, fun e => (a9 (ValueIdx.ix1 e)).toReal,
      fun e => (a10 (ValueIdx.ix1 e)).toReal⟩,
    fun b n d => entry_real a0 _ _ _ _ e0 _, fun e d => entry_real a1 _ _ _ _ e1 _,
    fun e => entry_real a2 _ _ _ _ e2 _, fun e d => entry_real a3 _ _ _ _ e3 _,
    fun e => entry_real a4 _ _ _ _ e4 _, fun e d => entry_real a5 _ _ _ _ e5 _,
    fun e => entry_real a6 _ _ _ _ e6 _, fun e d => entry_real a7 _ _ _ _ e7 _,
    fun e => entry_real a8 _ _ _ _ e8 _, fun e => entry_real a9 _ _ _ _ e9 _,
    fun e => entry_real a10 _ _ _ _ e10 _⟩

end Cert.RealArgs

end
-- ==== Proof.lean ====
/-
  Dense self-attention followed by a linear layer, a layer normalisation and a leaky ReLU, computed by one fused
  kernel over a grid of (batch, query tile) points against the plain reference program.

  Both programs compute, at batch `b`, row `n`, feature `e`, the number `Cert.Spec.out A eps b n e` of the real
  arrays `A` the finite arguments are: queries, keys and values are affine images of the input rows; a row of attention
  is the softmax of its unscaled scores; the attended row goes through an affine map, is normalised by its mean and
  variance over the features, scaled, shifted and rectified. The kernel walks the keys in four blocks of 512 with a
  running maximum, denominator and numerator (the online softmax) and multiplies by the reciprocal root where the
  reference divides by the root; on real numbers with a positive variance-plus-eps these are the same.
  The three frames, the four format-change conjuncts and the algebraic claim are assembled here.
-/
import proofs.«123646_j33698313404907_2_alg».proof.Defs
import proofs.«123646_j33698313404907_2_alg».proof.Proof.Gen.Kernel
import proofs.«123646_j33698313404907_2_alg».proof.Proof.Gen.Kernel.Skeleton
import proofs.«123646_j33698313404907_2_alg».proof.Proof.Gen.Kernel.Launch
import proofs.«123646_j33698313404907_2_alg».proof.Proof.Gen.Kernel.Points
import proofs.«123646_j33698313404907_2_alg».proof.Proof.Gen.KernelIdeal
import proofs.«123646_j33698313404907_2_alg».proof.Proof.Gen.KernelIdeal.Skeleton
import proofs.«123646_j33698313404907_2_alg».proof.Proof.Gen.KernelIdeal.Launch
import proofs.«123646_j33698313404907_2_alg».proof.Proof.Gen.KernelIdeal.Points
import proofs.«123646_j33698313404907_2_alg».proof.Proof.Gen.ReferenceIdeal
import proofs.«123646_j33698313404907_2_alg».proof.Proof.Gen.ReferenceIdeal.Run
import proofs.«123646_j33698313404907_2_alg».proof.Proof.Gen.ReferenceIdeal.Read
import proofs.«123646_j33698313404907_2_alg».proof.Proof.Gen.Pre_finite_inputs
import proofs.«123646_j33698313404907_2_alg».proof.Proof.BitsLaunch
import proofs.«123646_j33698313404907_2_alg».proof.Proof.IdealArray
import proofs.«123646_j33698313404907_2_alg».proof.Proof.RefValue
import proofs.«123646_j33698313404907_2_alg».proof.Proof.RealArgs
import Idealize.ShloMosaic.Adequacy
import Idealize.ShloMosaic.Init

noncomputable section

namespace Cert.Proof

open Idealize.ShloMosaic Idealize.SL.Sem

/-- The word-level kernel runs to the end, faults nowhere and leaves its arguments. -/
theorem frame_k [Cert.Kernel.Facts] [Cert.Pre_finite_inputs.Facts] : Cert.frame_Kernel := fun m ρ _ => Cert.Kernel.Hand.frame m ρ

/-- So does the idealized kernel. -/
theorem frame_ki [Cert.KernelIdeal.Facts] [Cert.Pre_finite_inputs.Facts] : Cert.frame_KernelIdeal := fun m ρ _ => Cert.KernelIdeal.Hand.frame m ρ

/-- The reference is host operations only: its run ends, and the arguments are never written. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Narrowing to bf16 and widening back is the identity on the extended reals: the four probability tiles. -/
theorem preserves : Cert.preserves_Kernel_KernelIdeal :=
  ⟨IdealRules.truncf_extf.statement _ _ _, IdealRules.truncf_extf.statement _ _ _,
   IdealRules.truncf_extf.statement _ _ _, IdealRules.truncf_extf.statement _ _ _⟩

/-- From finite arguments both programs end with the specification's result of the real arrays the arguments are. -/
theorem algebraic [Cert.KernelIdeal.Facts] [Cert.ReferenceIdeal.Facts] [Cert.Pre_finite_inputs.Facts] :
    Cert.algebraic_KernelIdeal_ReferenceIdeal := by
  intro m ρ m' ρ' hpre hagree
  choose A hx hwq hbq hwk hbk hwv hbv hwo hbo hg hbeta using fun c => Cert.RealArgs.real_args _ _ _ _ _ _ _ _ _ _ _ (hpre c)
  refine ⟨fun c => Cert.KernelIdeal.Hand.result (A c),
    Cert.KernelIdeal.Hand.run m ρ A (fun c => ⟨hx c, hwq c, hbq c, hwk c, hbk c, hwv c, hbv c, hwo c, hbo c, hg c, hbeta c⟩), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v57_eq, a0, a1, a2, a3, a4, a5, a6, a7, a8, a9, a10]
  exact Cert.ReferenceIdeal.RefValue.result_eq (A c) _ _ _ _ _ _ _ _ _ _ _ (hx c) (hwq c) (hbq c) (hwk c) (hbk c) (hwv c) (hbv c) (hwo c) (hbo c) (hg c) (hbeta c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
